-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x512 : Shape := ⟨2, ![64, 512]⟩
abbrev S512x1024 : Shape := ⟨2, ![512, 1024]⟩
abbrev S1024x512 : Shape := ⟨2, ![1024, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S512x1024 .f32) (main_arg6 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  main_v33

def fn {F : FTy → Type} [FloatOps F] (main_arg0 : FVec F S64x512 .f32) (main_arg1 : FVec F S512x1024 .f32) (main_arg2 : FVec F S1024x512 .f32) (main_arg3 : FVec F S512x1024 .f32) (main_arg4 : FVec F S1024x512 .f32) (main_arg5 : FVec F S512x1024 .f32) (main_arg6 : FVec F S1024x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Pre_finite_inputs_ReferenceIdeal.lean ====
abbrev S64x512 : Shape := ⟨2, ![64, 512]⟩
abbrev S512x32768 : Shape := ⟨2, ![512, 32768]⟩
abbrev S32768x512 : Shape := ⟨2, ![32768, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x32768 : S_.BroadcastsInDim S512x32768 (![] : Fin 0 → Fin S512x32768.rank)
  reducesTo_S512x32768_S_d0_1 : S512x32768.ReducesTo [0, 1] S_
  bcast_S_S32768x512 : S_.BroadcastsInDim S32768x512 (![] : Fin 0 → Fin S32768x512.rank)
  reducesTo_S32768x512_S_d0_1 : S32768x512.ReducesTo [0, 1] S_

variable [Facts]

def fn_part1 {F : FTy → Type} [FloatOps F] (main_arg4 : FVec F S32768x512 .f32) (main_arg5 : FVec F S512x32768 .f32) (main_arg6 : FVec F S32768x512 .f32) (main_v13 : IVec S_ 1) (main_v16 : IVec S512x32768 1) : IVec S_ 1 :=
  let main_c_5 : IVec S_ 1 := constantI S_ 1 1#1
  let main_v17 : IVec S_ 1 := (fun x v => Host.reduce IntOp.andi x v reducesTo_S512x32768_S_d0_1 h_S_) main_v16 main_c_5
  let main_v18 : IVec S_ 1 := andi main_v13 main_v17
  let main_v19 : FVec F S32768x512 .f32 := Host.absf main_arg4
  let main_cst_6 : FVec F S_ .f32 := constant S_ .f32 0x7F800000#32
  let main_v20 : FVec F S32768x512 .f32 := broadcastInDim S32768x512 ![] bcast_S_S32768x512 main_cst_6
  let main_v21 : IVec S32768x512 1 := cmpf .olt main_v19 main_v20
  let main_c_7 : IVec S_ 1 := constantI S_ 1 1#1
  let main_v22 : IVec S_ 1 := (fun x v => Host.reduce IntOp.andi x v reducesTo_S32768x512_S_d0_1 h_S_) main_v21 main_c_7
  let main_v23 : IVec S_ 1 := andi main_v18 main_v22
  let main_v24 : FVec F S512x32768 .f32 := Host.absf main_arg5
  let main_cst_8 : FVec F S_ .f32 := constant S_ .f32 0x7F800000#32
  let main_v25 : FVec F S512x32768 .f32 := broadcastInDim S512x32768 ![] bcast_S_S512x32768 main_cst_8
  let main_v26 : IVec S512x32768 1 := cmpf .olt main_v24 main_v25
  let main_c_9 : IVec S_ 1 := constantI S_ 1 1#1
  let main_v27 : IVec S_ 1 := (fun x v => Host.reduce IntOp.andi x v reducesTo_S512x32768_S_d0_1 h_S_) main_v26 main_c_9
  let main_v28 : IVec S_ 1 := andi main_v23 main_v27
  let main_v29 : FVec F S32768x512 .f32 := Host.absf main_arg6
  let main_cst_10 : FVec F S_ .f32 := constant S_ .f32 0x7F800000#32
  let main_v30 : FVec F S32768x512 .f32 := broadcastInDim S32768x512 ![] bcast_S_S32768x512 main_cst_10
  let main_v31 : IVec S32768x512 1 := cmpf .olt main_v29 main_v30
  let main_c_11 : IVec S_ 1 := constantI S_ 1 1#1
  let main_v32 : IVec S_ 1 := (fun x v => Host.reduce IntOp.andi x v reducesTo_S32768x512_S_d0_1 h_S_) main_v31 main_c_11
  let main_v33 : IVec S_ 1 := andi main_v28 main_v32
  main_v33

def fn {F : FTy → Type} [FloatOps F] (main_arg0 : FVec F S64x512 .f32) (main_arg1 : FVec F S512x32768 .f32) (main_arg2 : FVec F S32768x512 .f32) (main_arg3 : FVec F S512x32768 .f32) (main_arg4 : FVec F S32768x512 .f32) (main_arg5 : FVec F S512x32768 .f32) (main_arg6 : FVec F S32768x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x32768 .f32 := Host.absf main_arg1
  let main_cst_0 : FVec F S_ .f32 := constant S_ .f32 0x7F800000#32
  let main_v5 : FVec F S512x32768 .f32 := broadcastInDim S512x32768 ![] bcast_S_S512x32768 main_cst_0
  let main_v6 : IVec S512x32768 1 := cmpf .olt main_v4 main_v5
  let main_c_1 : IVec S_ 1 := constantI S_ 1 1#1
  let main_v7 : IVec S_ 1 := (fun x v => Host.reduce IntOp.andi x v reducesTo_S512x32768_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x32768 .f32 := Host.absf main_arg3
  let main_cst_4 : FVec F S_ .f32 := constant S_ .f32 0x7F800000#32
  let main_v15 : FVec F S512x32768 .f32 := broadcastInDim S512x32768 ![] bcast_S_S512x32768 main_cst_4
  let main_v16 : IVec S512x32768 1 := cmpf .olt main_v14 main_v15
  fn_part1 (F := F) main_arg4 main_arg5 main_arg6 main_v13 main_v16
-- ==== Kernel.lean ====
abbrev S64x512 : Shape := ⟨2, ![64, 512]⟩
abbrev S512x1024 : Shape := ⟨2, ![512, 1024]⟩
abbrev S1024x512 : Shape := ⟨2, ![1024, 512]⟩
abbrev S3x5x64x512 : Shape := ⟨4, ![3, 5, 64, 512]⟩
abbrev S3x5 : Shape := ⟨2, ![3, 5]⟩
abbrev S_ : Shape := ⟨0, ![]⟩
abbrev S64x1024 : Shape := ⟨2, ![64, 1024]⟩
abbrev S1x1 : Shape := ⟨2, ![1, 1]⟩
abbrev S1x1x64x512 : Shape := ⟨4, ![1, 1, 64, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S64x512, .f32⟩
  | .local _ .vmem, ⟨9, _⟩ => ⟨S3x5x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  { ofTc nBuf bufTy 2 38 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_2 : BitVec 32 := 1#32
  let v9 : BitVec 32 := Scalar.muli v3 c1_i32_2
  let v10 : BitVec 32 := Scalar.addi c0_i32 v9
  v10.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_4 : BitVec 32 := 1#32
  let v11 : BitVec 32 := Scalar.muli v4 c1_i32_4
  let v12 : BitVec 32 := Scalar.addi c0_i32_5 v11
  v12.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_7 : BitVec 32 := 1#32
  let v13 : BitVec 32 := Scalar.muli v5 c1_i32_7
  let v14 : BitVec 32 := Scalar.addi c0_i32_8 v13
  v14.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_10 : BitVec 32 := 1#32
  let v15 : BitVec 32 := Scalar.muli v6 c1_i32_10
  let v16 : BitVec 32 := Scalar.addi c0_i32_11 v15
  v16.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_13 : BitVec 32 := 1#32
  let v17 : BitVec 32 := Scalar.muli v7 c1_i32_13
  let v18 : BitVec 32 := Scalar.addi c0_i32_14 v17
  v18.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_30 : BitVec 32 := 1#32
  let v36 : BitVec 32 := Scalar.muli v3 c1_i32_30
  let v37 : BitVec 32 := Scalar.addi c0_i32_31 v36
  v37.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_67 : BitVec 32 := 1#32
  let v61 : BitVec 32 := Scalar.muli v4 c1_i32_67
  let v62 : BitVec 32 := Scalar.addi c0_i32_68 v61
  v62.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_103 : BitVec 32 := 1#32
  let v86 : BitVec 32 := Scalar.muli v5 c1_i32_103
  let v87 : BitVec 32 := Scalar.addi c0_i32_104 v86
  v87.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_138 : BitVec 32 := 1#32
  let v111 : BitVec 32 := Scalar.muli v6 c1_i32_138
  let v112 : BitVec 32 := Scalar.addi c0_i32_139 v111
  v112.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_174 : BitVec 32 := 1#32
  let v136 : BitVec 32 := Scalar.muli v7 c1_i32_174
  let v137 : BitVec 32 := Scalar.addi c0_i32_175 v136
  v137.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_221 : BitVec 32 := 1#32
  let v177 : BitVec 32 := Scalar.muli v3 c1_i32_221
  let v178 : BitVec 32 := Scalar.addi c0_i32_222 v177
  v178.toNat
def k0_dev12 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_258 : BitVec 32 := 1#32
  let v202 : BitVec 32 := Scalar.muli v4 c1_i32_258
  let v203 : BitVec 32 := Scalar.addi c0_i32_259 v202
  v203.toNat
def k0_dev13 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_295 : BitVec 32 := 1#32
  let v227 : BitVec 32 := Scalar.muli v5 c1_i32_295
  let v228 : BitVec 32 := Scalar.addi c0_i32_296 v227
  v228.toNat
def k0_dev14 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_332 : BitVec 32 := 1#32
  let v252 : BitVec 32 := Scalar.muli v6 c1_i32_332
  let v253 : BitVec 32 := Scalar.addi c0_i32_333 v252
  v253.toNat
def k0_dev15 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_369 : BitVec 32 := 1#32
  let v277 : BitVec 32 := Scalar.muli v7 c1_i32_369
  let v278 : BitVec 32 := Scalar.addi c0_i32_370 v277
  v278.toNat
def k0_dev16 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_417 : BitVec 32 := 1#32
  let v318 : BitVec 32 := Scalar.muli v3 c1_i32_417
  let v319 : BitVec 32 := Scalar.addi c0_i32_418 v318
  v319.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_454 : BitVec 32 := 1#32
  let v343 : BitVec 32 := Scalar.muli v4 c1_i32_454
  let v344 : BitVec 32 := Scalar.addi c0_i32_455 v343
  v344.toNat
def k0_dev18 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_491 : BitVec 32 := 1#32
  let v368 : BitVec 32 := Scalar.muli v5 c1_i32_491
  let v369 : BitVec 32 := Scalar.addi c0_i32_492 v368
  v369.toNat
def k0_dev19 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_528 : BitVec 32 := 1#32
  let v393 : BitVec 32 := Scalar.muli v6 c1_i32_528
  let v394 : BitVec 32 := Scalar.addi c0_i32_529 v393
  v394.toNat
def k0_dev20 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_565 : BitVec 32 := 1#32
  let v418 : BitVec 32 := Scalar.muli v7 c1_i32_565
  let v419 : BitVec 32 := Scalar.addi c0_i32_566 v418
  v419.toNat
def k0_dev21 (d0 : Dev nD) : Nat :=
  let c0_i32_602_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_601_r0 : BitVec 32 := 1#32
  let v446_r0 : BitVec 32 := Scalar.muli v3 c1_i32_601_r0
  let v447_r0 : BitVec 32 := Scalar.addi c0_i32_602_r0 v446_r0
  v447_r0.toNat
def k0_dev22 (d0 : Dev nD) : Nat :=
  let c0_i32_605_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_604_r0 : BitVec 32 := 1#32
  let v448_r0 : BitVec 32 := Scalar.muli v4 c1_i32_604_r0
  let v449_r0 : BitVec 32 := Scalar.addi c0_i32_605_r0 v448_r0
  v449_r0.toNat
def k0_dev23 (d0 : Dev nD) : Nat :=
  let c0_i32_608_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_607_r0 : BitVec 32 := 1#32
  let v450_r0 : BitVec 32 := Scalar.muli v5 c1_i32_607_r0
  let v451_r0 : BitVec 32 := Scalar.addi c0_i32_608_r0 v450_r0
  v451_r0.toNat
def k0_dev24 (d0 : Dev nD) : Nat :=
  let c0_i32_611_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_610_r0 : BitVec 32 := 1#32
  let v452_r0 : BitVec 32 := Scalar.muli v6 c1_i32_610_r0
  let v453_r0 : BitVec 32 := Scalar.addi c0_i32_611_r0 v452_r0
  v453_r0.toNat
def k0_dev25 (d0 : Dev nD) : Nat :=
  let c0_i32_614_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_613_r0 : BitVec 32 := 1#32
  let v454_r0 : BitVec 32 := Scalar.muli v7 c1_i32_613_r0
  let v455_r0 : BitVec 32 := Scalar.addi c0_i32_614_r0 v454_r0
  v455_r0.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_5 : (5#32 : BitVec 32).msb = false
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S3x5_S1x1_0_0 : ∀ a, (![0, 0] : Fin 2 → Nat) a + S1x1.size a ≤ S3x5.size a
  squeezes_S1x1_S_ : S1x1.Squeezes S_
  inb_S3x5x64x512_S1x1x64x512_0_0_0_0 : ∀ a, (![0, 0, 0, 0] : Fin 4 → Nat) a + S1x1x64x512.size a ≤ S3x5x64x512.size a
  squeezes_S1x1x64x512_S64x512 : S1x1x64x512.Squeezes S64x512
  h_S1x1x64x512 : 0 < S1x1x64x512.numel
  shapeCasts_S1x1x64x512_S64x512 : S1x1x64x512.ShapeCasts S64x512
  inb_S3x5_S1x1_0_1 : ∀ a, (![0, 1] : Fin 2 → Nat) a + S1x1.size a ≤ S3x5.size a
  inb_S3x5x64x512_S1x1x64x512_0_1_0_0 : ∀ a, (![0, 1, 0, 0] : Fin 4 → Nat) a + S1x1x64x512.size a ≤ S3x5x64x512.size a
  inb_S3x5_S1x1_0_2 : ∀ a, (![0, 2] : Fin 2 → Nat) a + S1x1.size a ≤ S3x5.size a
  inb_S3x5x64x512_S1x1x64x512_0_2_0_0 : ∀ a, (![0, 2, 0, 0] : Fin 4 → Nat) a + S1x1x64x512.size a ≤ S3x5x64x512.size a
  inb_S3x5_S1x1_0_3 : ∀ a, (![0, 3] : Fin 2 → Nat) a + S1x1.size a ≤ S3x5.size a
  inb_S3x5x64x512_S1x1x64x512_0_3_0_0 : ∀ a, (![0, 3, 0, 0] : Fin 4 → Nat) a + S1x1x64x512.size a ≤ S3x5x64x512.size a
  inb_S3x5_S1x1_0_4 : ∀ a, (![0, 4] : Fin 2 → Nat) a + S1x1.size a ≤ S3x5.size a
  inb_S3x5x64x512_S1x1x64x512_0_4_0_0 : ∀ a, (![0, 4, 0, 0] : Fin 4 → Nat) a + S1x1x64x512.size a ≤ S3x5x64x512.size a
  inb_S3x5_S1x1_1_0 : ∀ a, (![1, 0] : Fin 2 → Nat) a + S1x1.size a ≤ S3x5.size a
  inb_S3x5x64x512_S1x1x64x512_1_0_0_0 : ∀ a, (![1, 0, 0, 0] : Fin 4 → Nat) a + S1x1x64x512.size a ≤ S3x5x64x512.size a
  inb_S3x5_S1x1_1_1 : ∀ a, (![1, 1] : Fin 2 → Nat) a + S1x1.size a ≤ S3x5.size a
  inb_S3x5x64x512_S1x1x64x512_1_1_0_0 : ∀ a, (![1, 1, 0, 0] : Fin 4 → Nat) a + S1x1x64x512.size a ≤ S3x5x64x512.size a
  inb_S3x5_S1x1_1_2 : ∀ a, (![1, 2] : Fin 2 → Nat) a + S1x1.size a ≤ S3x5.size a
  inb_S3x5x64x512_S1x1x64x512_1_2_0_0 : ∀ a, (![1, 2, 0, 0] : Fin 4 → Nat) a + S1x1x64x512.size a ≤ S3x5x64x512.size a
  inb_S3x5_S1x1_1_3 : ∀ a, (![1, 3] : Fin 2 → Nat) a + S1x1.size a ≤ S3x5.size a
  inb_S3x5x64x512_S1x1x64x512_1_3_0_0 : ∀ a, (![1, 3, 0, 0] : Fin 4 → Nat) a + S1x1x64x512.size a ≤ S3x5x64x512.size a
  inb_S3x5_S1x1_1_4 : ∀ a, (![1, 4] : Fin 2 → Nat) a + S1x1.size a ≤ S3x5.size a
  inb_S3x5x64x512_S1x1x64x512_1_4_0_0 : ∀ a, (![1, 4, 0, 0] : Fin 4 → Nat) a + S1x1x64x512.size a ≤ S3x5x64x512.size a
  inb_S3x5_S1x1_2_0 : ∀ a, (![2, 0] : Fin 2 → Nat) a + S1x1.size a ≤ S3x5.size a
  inb_S3x5x64x512_S1x1x64x512_2_0_0_0 : ∀ a, (![2, 0, 0, 0] : Fin 4 → Nat) a + S1x1x64x512.size a ≤ S3x5x64x512.size a
  inb_S3x5_S1x1_2_1 : ∀ a, (![2, 1] : Fin 2 → Nat) a + S1x1.size a ≤ S3x5.size a
  inb_S3x5x64x512_S1x1x64x512_2_1_0_0 : ∀ a, (![2, 1, 0, 0] : Fin 4 → Nat) a + S1x1x64x512.size a ≤ S3x5x64x512.size a
  inb_S3x5_S1x1_2_2 : ∀ a, (![2, 2] : Fin 2 → Nat) a + S1x1.size a ≤ S3x5.size a
  inb_S3x5x64x512_S1x1x64x512_2_2_0_0 : ∀ a, (![2, 2, 0, 0] : Fin 4 → Nat) a + S1x1x64x512.size a ≤ S3x5x64x512.size a
  inb_S3x5_S1x1_2_3 : ∀ a, (![2, 3] : Fin 2 → Nat) a + S1x1.size a ≤ S3x5.size a
  inb_S3x5x64x512_S1x1x64x512_2_3_0_0 : ∀ a, (![2, 3, 0, 0] : Fin 4 → Nat) a + S1x1x64x512.size a ≤ S3x5x64x512.size a
  inb_S3x5_S1x1_2_4 : ∀ a, (![2, 4] : Fin 2 → Nat) a + S1x1.size a ≤ S3x5.size a
  inb_S3x5x64x512_S1x1x64x512_2_4_0_0 : ∀ a, (![2, 4, 0, 0] : Fin 4 → Nat) a + S1x1x64x512.size a ≤ S3x5x64x512.size a
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  hcc0_scoped0 : 1 + S_.numel ≤ 2
  hcc0_scratch2 : 8 + S3x5.numel ≤ 38
  hcc0_scratch3 : 23 + S3x5.numel ≤ 38
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scoped0 : Sems sig S_ := SemArray.consecutive 1 S_ hcc0_scoped0
abbrev cc0_scratch2 : DmaSems sig S3x5 := SemArray.consecutive 8 S3x5 hcc0_scratch2
abbrev cc0_scratch3 : DmaSems sig S3x5 := SemArray.consecutive 23 S3x5 hcc0_scratch3
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512 : Shape := ⟨2, ![64, 512]⟩
abbrev S512x32768 : Shape := ⟨2, ![512, 32768]⟩
abbrev S32768x512 : Shape := ⟨2, ![32768, 512]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x32768, .f32⟩
  | .hbm, ⟨2, _⟩ => ⟨S32768x512, .f32⟩
  | .hbm, ⟨3, _⟩ => ⟨S512x32768, .f32⟩
  | .hbm, ⟨4, _⟩ => ⟨S32768x512, .f32⟩
  | .hbm, ⟨5, _⟩ => ⟨S512x32768, .f32⟩
  | .hbm, ⟨6, _⟩ => ⟨S32768x512, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x512, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x512, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x32768 : S_.BroadcastsInDim S64x32768 (![] : Fin 0 → Fin S64x32768.rank)
  dot_S64x512_S512x32768_S64x32768_1_0_0_1_n_n_wf : DotDims.WF S64x512 S512x32768 S64x32768 [1] [0] [0] [1] [] []
  dot_S64x32768_S32768x512_S64x512_1_0_0_1_n_n_wf : DotDims.WF S64x32768 S32768x512 S64x512 [1] [0] [0] [1] [] []

variable [Facts₀]

def dot_S64x512_S512x32768_S64x32768_1_0_0_1_n_n : DotDims S64x512 S512x32768 S64x32768 where
  lhsContracting := [1]
  rhsContracting := [0]
  lhsNonContracting := [0]
  rhsNonContracting := [1]
  lhsBatch := []
  rhsBatch := []
  wf := dot_S64x512_S512x32768_S64x32768_1_0_0_1_n_n_wf
def dot_S64x32768_S32768x512_S64x512_1_0_0_1_n_n : DotDims S64x32768 S32768x512 S64x512 where
  lhsContracting := [1]
  rhsContracting := [0]
  lhsNonContracting := [0]
  rhsNonContracting := [1]
  lhsBatch := []
  rhsBatch := []
  wf := dot_S64x32768_S32768x512_S64x512_1_0_0_1_n_n_wf

class Facts : Prop extends Facts₀ where

variable [Facts]
-- ==== Proof.Spec.lean ====
/-
  The values the butterfly all-reduce passes around, as pure functions of the devices' argument blocks.

  Thirty-two devices; device `c` holds the whole input `x c` and, per layer `l`, its column block `win l c` of the first
  weight and its row block `wout l c` of the second. A layer computes on each device the partial product
  `relu (inp · win) · wout` of its own blocks; five exchange steps follow, at step `k` device `c` adding to its accumulator
  the accumulator of the device whose index differs from `c` in bit `k`. After step `k` a device holds the sum over the
  `2^(k+1)` devices agreeing with it above bit `k`; after the fifth, the sum over all devices, which is the next layer's input.
-/
import proofs.«900382_g7700000000000383_dist_mlpseq_tp1d_rep_rep_b64_d512_h1024_v7x_i32_bf16_1_alg».proof.Proof.Gen.KernelIdeal
import proofs.«900382_g7700000000000383_dist_mlpseq_tp1d_rep_rep_b64_d512_h1024_v7x_i32_bf16_1_alg».proof.Proof.Gen.KernelIdeal.Skeleton

noncomputable section

namespace Cert.KernelIdeal.Spec

open Idealize.ShloMosaic Idealize.SL.Sem Cert.KernelIdeal Cert.KernelIdeal.Gen

variable {F : FTy → Type} [FloatOps F]

/-- The device whose index differs from `c`'s in bit `k` exactly. -/
def peer (k : Fin 5) (c : Dev nD) : Dev nD := ⟨(c.val ^^^ 2 ^ k.val) % 32, Nat.mod_lt _ (by decide)⟩

theorem peer_peer : ∀ (k : Fin 5) (c : Dev nD), peer k (peer k c) = c := by decide +kernel
theorem peer_ne : ∀ (k : Fin 5) (c : Dev nD), peer k c ≠ c := by decide +kernel
theorem peer_inj_k : ∀ (k k' : Fin 5) (c : Dev nD), peer k c = peer k' c → k = k' := by decide +kernel

/-- Flipping bit `k` is an involution of the devices. -/
def peerEquiv (k : Fin 5) : Dev nD ≃ Dev nD := ⟨peer k, peer k, peer_peer k, peer_peer k⟩

/-- A [64, 512] block seen as the [1, 1, 64, 512] piece a receive slot is read as. -/
def up (v : Vec F S64x512 .f32) : Vec F S1x1x64x512 .f32 := fun i => v (fun a => match a with | ⟨0, _⟩ => ⟨(i 2).val, (i 2).isLt⟩ | ⟨1, _⟩ => ⟨(i 3).val, (i 3).isLt⟩)

/-- One exchange step's sum: the accumulator plus the received block. -/
def addStep (a : Vec F S64x512 .f32) (b : Vec F S1x1x64x512 .f32) : FVec F S64x512 .f32 := k0_pay4 a b

section Values

variable (x : Dev nD → Vec F S64x512 .f32) (win : Fin 3 → Dev nD → Vec F S512x1024 .f32) (wout : Fin 3 → Dev nD → Vec F S1024x512 .f32)

/-- A layer's partial product on one device, from the layer's input there. -/
def part (l : Fin 3) (inp : Vec F S64x512 .f32) (c : Dev nD) : Vec F S64x512 .f32 :=
  match l with
  | ⟨0, _⟩ => k0_pay3 (k0_pay1 inp) (k0_pay2 (win 0 c)) (wout 0 c)
  | ⟨1, _⟩ => k0_pay10 (k0_pay9 inp (win 1 c)) (wout 1 c)
  | ⟨_ + 2, _⟩ => k0_pay18 (k0_pay16 inp (win 2 c)) k0_pay17 (wout 2 c)

/-- The accumulators after `k` exchange steps, from the accumulators before the first. -/
def fold (p : Dev nD → Vec F S64x512 .f32) : (k : ℕ) → Dev nD → Vec F S64x512 .f32
  | 0 => p
  | k + 1 => fun c => if h : k < 5 then addStep (fold p k c) (up (fold p k (peer ⟨k, h⟩ c))) else fold p k c

/-- Each device's input to layer `l`: the argument, then the previous layer's all-reduced sum. -/
def layerIn : (l : ℕ) → Dev nD → Vec F S64x512 .f32
  | 0 => x
  | l + 1 => fun c => if h : l < 3 then fold (fun d => part win wout ⟨l, h⟩ (layerIn l d) d) 5 c else layerIn l c

/-- The accumulator of device `c` in layer `l` after `k` of its exchange steps. -/
def acc (l : Fin 3) (k : ℕ) (c : Dev nD) : Vec F S64x512 .f32 := fold (fun d => part win wout l (layerIn x win wout l.val d) d) k c

/-- The result on device `c`. -/
def result (c : Dev nD) : Vec F S64x512 .f32 := acc x win wout 2 5 c

theorem acc_zero (l : Fin 3) (c : Dev nD) : acc x win wout l 0 c = part win wout l (layerIn x win wout l.val c) c := rfl

theorem acc_succ (l : Fin 3) (k : Fin 5) (c : Dev nD) :
    acc x win wout l (k.val + 1) c = addStep (acc x win wout l k.val c) (up (acc x win wout l k.val (peer k c))) := by
  unfold acc
  show (if h : k.val < 5 then _ else _) = _
  rw [dif_pos k.isLt]

theorem layerIn_succ (l : Fin 3) (c : Dev nD) : layerIn x win wout (l.val + 1) c = acc x win wout l 5 c := by
  unfold acc
  show (if h : l.val < 3 then _ else _) = _
  rw [dif_pos l.isLt]

end Values

end Cert.KernelIdeal.Spec

end
-- ==== Proof.Cells.lean ====
/-
  The cells and buffers of the exchange: per device the runtime's barrier semaphore, the exit semaphore, fifteen send and
  fifteen receive semaphores (one pair per layer and step), the accumulator and the fifteen receive slots.

  Exchange `j = 5·l + k` (layer `l`, step `k`) copies the sender's accumulator into slot `(l, k)` of the receive buffer of
  the device across bit `k`, crediting the sender's send semaphore `j` and the receiver's receive semaphore `j`. A slot is
  written once; after all exchanges a device's receive buffer holds, at slot `(l, k)`, the accumulator its partner across
  bit `k` had in layer `l` after `k` steps: ONE function of the buffer's index, stated here once (`rcvAll`).
-/
import proofs.«900382_g7700000000000383_dist_mlpseq_tp1d_rep_rep_b64_d512_h1024_v7x_i32_bf16_1_alg».proof.Proof.Spec
import proofs.«900382_g7700000000000383_dist_mlpseq_tp1d_rep_rep_b64_d512_h1024_v7x_i32_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the exchange's (duties named by a bit, `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Exchanges, layers, steps -/

/-- The step (bit) of exchange `j`. -/
def stepK (j : Fin 15) : Fin 5 := ⟨j.val % 5, Nat.mod_lt _ (by decide)⟩
/-- The layer of exchange `j`. -/
def stepL (j : Fin 15) : Fin 3 := ⟨j.val / 5, by have := j.isLt; omega⟩
/-- The partner of `c` in exchange `j`. -/
def partner (j : Fin 15) (c : Dev nD) : Dev nD := peer (stepK j) c

theorem partner_partner (j : Fin 15) (c : Dev nD) : partner j (partner j c) = c := peer_peer _ _

/-! ## The memrefs and cells -/

abbrev accM : Memref sig .tc .vmem S64x512 .f32 := Memref.whole cc0_scratch0
abbrev rcvM : Memref sig .tc .vmem S3x5x64x512 .f32 := Memref.whole cc0_scratch1

theorem slot_inb (j : Fin 15) : ∀ a, (![j.val / 5, j.val % 5, 0, 0] : Fin 4 → Nat) a + S1x1x64x512.size a ≤ S3x5x64x512.size a := by
  have := j.isLt
  intro a
  match a with
  | ⟨0, _⟩ => show j.val / 5 + 1 ≤ 3; omega
  | ⟨1, _⟩ => show j.val % 5 + 1 ≤ 5; omega
  | ⟨2, _⟩ => show 0 + 64 ≤ 64; omega
  | ⟨3, _⟩ => show 0 + 512 ≤ 512; omega

theorem sem_inb (j : Fin 15) : ∀ a, (![j.val / 5, j.val % 5] : Fin 2 → Nat) a + S1x1.size a ≤ S3x5.size a := by
  have := j.isLt
  intro a
  match a with
  | ⟨0, _⟩ => show j.val / 5 + 1 ≤ 3; omega
  | ⟨1, _⟩ => show j.val % 5 + 1 ≤ 5; omega

/-- The rectangle of slot `j` in the receive buffer. -/
abbrev slotRect (j : Fin 15) : Rect S3x5x64x512 := Rect.unit (s := S3x5x64x512) ![j.val / 5, j.val % 5, 0, 0] S1x1x64x512.size (slot_inb j)
/-- Slot `j` as the [64, 512] memref a copy lands in. -/
abbrev slotM (j : Fin 15) : Memref sig .tc .vmem S64x512 .f32 :=
  ((rcvM : Memref sig .tc .vmem S3x5x64x512 .f32).slice (slotRect j) (fun _ => rfl)).squeeze S64x512 squeezes_S1x1x64x512_S64x512

abbrev barS : Sem sig := (SemArray.scalar (sig.barrier 0 rfl) : Sems sig S_).sem
abbrev exitS : Sem sig := (cc0_scoped0 : Sems sig S_).sem
abbrev sendS (j : Fin 15) : DmaSem sig :=
  (((cc0_scratch2 : DmaSems sig S3x5).slice (Rect.unit (s := S3x5) ![j.val / 5, j.val % 5] S1x1.size (sem_inb j))).squeeze S_ squeezes_S1x1_S_).sem
abbrev recvS (j : Fin 15) : DmaSem sig :=
  (((cc0_scratch3 : DmaSems sig S3x5).slice (Rect.unit (s := S3x5) ![j.val / 5, j.val % 5] S1x1.size (sem_inb j))).squeeze S_ squeezes_S1x1_S_).sem

theorem sendS_val : ∀ j : Fin 15, (sendS j).val = 8 + j.val := by decide +kernel
theorem recvS_val : ∀ j : Fin 15, (recvS j).val = 23 + j.val := by decide +kernel
theorem barS_ne_exitS : barS ≠ exitS := by decide

abbrev barCell (c : Dev nD) : GSem nD τ sig := ((c : Thread nD τ), .reg barS)
abbrev exitCell (c : Dev nD) : GSem nD τ sig := ((c : Thread nD τ), .reg exitS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The units one [64, 512] copy credits. -/
abbrev N : ℕ := (accM : Memref sig .tc .vmem S64x512 .f32).view.dmaCredit
theorem N_pos : 0 < N := View.dmaCredit_pos _ (by decide)
theorem slot_credit (j : Fin 15) : (slotM j : Memref sig .tc .vmem S64x512 .f32).view.dmaCredit = N := rfl

/-! ## Contents -/

/-- Device `c`'s argument blocks as the kernel's staging buffers hold them. -/
def xs (c : Dev nD) : Vec F S64x512 .f32 := (win0_0.blk (0 : Fin 1)).view.read (Elt F) (m ((c : Thread nD τ).loc main_arg0))
def wins (l : Fin 3) (c : Dev nD) : Vec F S512x1024 .f32 :=
  match l with
  | ⟨0, _⟩ => (win0_1.blk (0 : Fin 1)).view.read (Elt F) (m ((c : Thread nD τ).loc main_arg1))
  | ⟨1, _⟩ => (win0_3.blk (0 : Fin 1)).view.read (Elt F) (m ((c : Thread nD τ).loc main_arg3))
  | ⟨_ + 2, _⟩ => (win0_5.blk (0 : Fin 1)).view.read (Elt F) (m ((c : Thread nD τ).loc main_arg5))
def wouts (l : Fin 3) (c : Dev nD) : Vec F S1024x512 .f32 :=
  match l with
  | ⟨0, _⟩ => (win0_2.blk (0 : Fin 1)).view.read (Elt F) (m ((c : Thread nD τ).loc main_arg2))
  | ⟨1, _⟩ => (win0_4.blk (0 : Fin 1)).view.read (Elt F) (m ((c : Thread nD τ).loc main_arg4))
  | ⟨_ + 2, _⟩ => (win0_6.blk (0 : Fin 1)).view.read (Elt F) (m ((c : Thread nD τ).loc main_arg6))

/-- Device `c`'s accumulator when exchange `j` starts: in layer `stepL j`, after `stepK j` steps. -/
def accAt (j : Fin 15) (c : Dev nD) : Vec F S64x512 .f32 := acc (xs m) (wins m) (wouts m) (stepL j) (stepK j).val c
/-- Device `c`'s accumulator when exchange `j` is done. -/
def accAfter (j : Fin 15) (c : Dev nD) : Vec F S64x512 .f32 := acc (xs m) (wins m) (wouts m) (stepL j) ((stepK j).val + 1) c
/-- The kernel's result on device `c`. -/
def outAt (c : Dev nD) : Vec F S64x512 .f32 := result (xs m) (wins m) (wouts m) c

theorem accAfter_eq (j : Fin 15) (c : Dev nD) : accAfter m j c = addStep (accAt m j c) (up (accAt m j (partner j c))) :=
  acc_succ (xs m) (wins m) (wouts m) (stepL j) (stepK j) c

/-- The exchange an index of the receive buffer belongs to. -/
def slotOf (i : S3x5x64x512.Idx) : Fin 15 := ⟨5 * (i 0).val + (i 1).val, by
  have h0 : (i 0).val < 3 := (i 0).isLt
  have h1 : (i 1).val < 5 := (i 1).isLt
  omega⟩
/-- An index of the receive buffer inside its slot. -/
def inSlot (i : S3x5x64x512.Idx) : S64x512.Idx := fun a => match a with | ⟨0, _⟩ => ⟨(i 2).val, (i 2).isLt⟩ | ⟨1, _⟩ => ⟨(i 3).val, (i 3).isLt⟩

/-- What device `c`'s receive buffer holds once every exchange has landed: slot `j` the accumulator its partner had when
    exchange `j` started. ONE function of the buffer's index. -/
def rcvAll (c : Dev nD) : (cc0_scratch1 : Ref sig .tc).ty.Contents (Elt F) := fun i => accAt m (slotOf i) (partner (slotOf i) c) (inSlot i)

/-! ## The buffers as assertions -/

/-- Device `c`'s accumulator at contents `f`. -/
def accPts (c : Dev nD) (f : Buf (Elt F) ((accM : Memref sig .tc .vmem S64x512 .f32).view.loc (c : Thread nD τ))) : sProp 𝕄 :=
  (accM : Memref sig .tc .vmem S64x512 .f32).view.loc (c : Thread nD τ) ↦[(accM : Memref sig .tc .vmem S64x512 .f32).view.set]{fullShare} f
/-- Slot `j` of device `c`'s receive buffer, the buffer's contents `f` there. -/
def slotPts (c : Dev nD) (j : Fin 15) (f : Buf (Elt F) ((slotM j : Memref sig .tc .vmem S64x512 .f32).view.loc (c : Thread nD τ))) : sProp 𝕄 :=
  (slotM j : Memref sig .tc .vmem S64x512 .f32).view.loc (c : Thread nD τ) ↦[(slotM j : Memref sig .tc .vmem S64x512 .f32).view.set]{fullShare} f

omit [FloatOps F] in
instance accPts_storable (c : Dev nD) (f) : BI.Storable (upEmb : UEmb _ 𝕄) (accPts (F := F) c f) := by unfold accPts; infer_instance
omit [FloatOps F] in
instance slotPts_storable (c : Dev nD) (j : Fin 15) (f) : BI.Storable (upEmb : UEmb _ 𝕄) (slotPts (F := F) c j f) := by unfold slotPts; infer_instance

omit [FloatOps F] in
theorem accPts_eq (c : Dev nD) (f : Buf (Elt F) ((c : Thread nD τ).loc cc0_scratch0)) :
    accPts c f = (((c : Thread nD τ).loc cc0_scratch0) ↦{fullShare} f : sProp 𝕄) := by unfold accPts; rw [View.set_whole]

end Cert.KernelIdeal.Proto

end
-- ==== Proof.Sched.lean ====
/-
  The schedule of the exchange under the rounds discipline, what each device owes, and the levels.

  Every cell has ONE round. A barrier cell and an exit cell have five duties, duty `k` paid by the partner across bit `k`
  with one unit; the barrier's duty `k` hands the owner its partner's three receive slots of step `k` (one per layer) and
  that the partner's three receive cells of step `k` are at their round: what the owner's copies into them need. A send cell
  has one duty, paid when the accumulator has been read out, handing the accumulator back; a receive cell one duty, paid by
  the partner's copy, handing the slot at the partner's accumulator.

  A device pays, in program order: its five barrier signals; its fifteen copies; its five exit signals. It waits on its
  barrier while owing the copies and exit signals, on receive cell `j` while owing the later copies and the exit signals, on
  the exit cell owing nothing: the levels put the barrier below every receive cell, receive cell `j` below `j + 1`, and all of
  them below the exit cell.
-/
import proofs.«900382_g7700000000000383_dist_mlpseq_tp1d_rep_rep_b64_d512_h1024_v7x_i32_bf16_1_alg».proof.Proof.Cells
import Mathlib.Algebra.Order.BigOperators.Group.LocallyFinite

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Exchange `5·l + k`. -/
def exch (l : Fin 3) (k : Fin 5) : Fin 15 := ⟨5 * l.val + k.val, by have := l.isLt; have := k.isLt; omega⟩

theorem stepK_exch (l : Fin 3) (k : Fin 5) : stepK (exch l k) = k := by
  apply Fin.ext; show (5 * l.val + k.val) % 5 = k.val; have := k.isLt; omega
theorem stepL_exch (l : Fin 3) (k : Fin 5) : stepL (exch l k) = l := by
  apply Fin.ext; show (5 * l.val + k.val) / 5 = l.val; have := k.isLt; omega

/-! ## Payloads -/

/-- What the partner across bit `k` hands device `c` with its barrier signal: its three receive slots of step `k` and
    that its three receive cells of step `k` have reached their round. -/
def barPay (c : Dev nD) (k : Fin 5) : sProp 𝕄 :=
  bigSep Finset.univ fun l : Fin 3 => iprop((∃ f, slotPts (peer k c) (exch l k) f) ∗ reached ER (recvCell (peer k c) (exch l k)) 0)
def recvPay (c : Dev nD) (j : Fin 15) : sProp 𝕄 := slotPts c j (rcvAll m c)
def sendPay (c : Dev nD) (j : Fin 15) : sProp 𝕄 := accPts c (accAt m j c)

/-- The duties of a cell, by its semaphore. -/
def cellDuties : SemLoc sig → Finset (Fin 5)
  | .reg s => if s = barS ∨ s = exitS then Finset.univ else ∅
  | .dma q => if 8 ≤ q.val then {0} else ∅

/-- A duty's payload, by the owner and the cell's semaphore. -/
def cellPay (c : Dev nD) : SemLoc sig → Fin 5 → sProp 𝕄
  | .reg s, d => if s = barS then barPay c d else iprop(emp)
  | .dma q, _ =>
    if h : 23 ≤ q.val then recvPay m c ⟨q.val - 23, by have : q.val < 38 := q.isLt; omega⟩
    else if h8 : 8 ≤ q.val then sendPay m c ⟨q.val - 8, by have : q.val < 38 := q.isLt; omega⟩
    else iprop(emp)

def cellAmount : SemLoc sig → ℕ
  | .reg _ => 1
  | .dma _ => N

theorem cellAmount_pos (s : SemLoc sig) : 0 < cellAmount s := by
  cases s with
  | reg _ => exact Nat.one_pos
  | dma _ => exact N_pos

/-- One round, round 0, on the TensorCores' cells. -/
def sched : Rounds.Schedule (GSem nD τ sig) (Fin 5) 𝕄 where
  duties g r := if r = 0 ∧ g.1.2 = .tc then cellDuties g.2 else ∅
  unitless _ := False
  amount g _ _ := cellAmount g.2
  payload g _ d := cellPay m g.1.1 g.2 d
  amount_pos g _ _ _ := cellAmount_pos g.2

instance sched_payload_storable (g : GSem nD τ sig) (r : ℕ) (d : Fin 5) :
    BI.Storable (upEmb : UEmb _ 𝕄) ((sched (F := F) m).payload g r d) := by
  show BI.Storable upEmb (cellPay m g.1.1 g.2 d)
  unfold cellPay
  split
  · unfold barPay; split <;> infer_instance
  · unfold recvPay sendPay; (repeat' split) <;> infer_instance

section Tables
variable (c : Dev nD) (j : Fin 15) (k : Fin 5)

theorem duties_bar : (sched (F := F) m).duties (barCell c) 0 = Finset.univ := by
  dsimp only [sched]; rw [if_pos ⟨rfl, rfl⟩]
  show (if barS = barS ∨ barS = exitS then (Finset.univ : Finset (Fin 5)) else ∅) = Finset.univ
  exact if_pos (Or.inl rfl)
theorem duties_exit : (sched (F := F) m).duties (exitCell c) 0 = Finset.univ := by
  dsimp only [sched]; rw [if_pos ⟨rfl, rfl⟩]
  show (if exitS = barS ∨ exitS = exitS then (Finset.univ : Finset (Fin 5)) else ∅) = Finset.univ
  exact if_pos (Or.inr rfl)
theorem duties_send : (sched (F := F) m).duties (sendCell c j) 0 = {0} := by
  dsimp only [sched]; rw [if_pos ⟨rfl, rfl⟩]; exact if_pos (by rw [sendS_val]; omega)
theorem duties_recv : (sched (F := F) m).duties (recvCell c j) 0 = {0} := by
  dsimp only [sched]; rw [if_pos ⟨rfl, rfl⟩]; exact if_pos (by rw [recvS_val]; omega)
theorem duties_later (g : GSem nD τ sig) : ∀ r, 1 ≤ r → (sched (F := F) m).duties g r = ∅ :=
  fun r hr => by dsimp only [sched]; rw [if_neg fun h => by omega]

theorem amount_bar (d : Fin 5) : (sched (F := F) m).amount (barCell c) 0 d = 1 := rfl
theorem amount_exit (d : Fin 5) : (sched (F := F) m).amount (exitCell c) 0 d = 1 := rfl
theorem amount_send (d : Fin 5) : (sched (F := F) m).amount (sendCell c j) 0 d = N := rfl
theorem amount_recv (d : Fin 5) : (sched (F := F) m).amount (recvCell c j) 0 d = N := rfl

theorem expect_bar : (sched (F := F) m).expect (barCell c) 0 = 5 := by
  unfold Schedule.expect Schedule.amountOf
  rw [duties_bar, Finset.sum_congr rfl fun d _ => amount_bar m c d, Finset.sum_const, Finset.card_univ, Fintype.card_fin, smul_eq_mul]
theorem expect_exit : (sched (F := F) m).expect (exitCell c) 0 = 5 := by
  unfold Schedule.expect Schedule.amountOf
  rw [duties_exit, Finset.sum_congr rfl fun d _ => amount_exit m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar : (sched (F := F) m).payload (barCell c) 0 k = barPay c k := by
  show cellPay m c (.reg barS) k = _; unfold cellPay; exact if_pos rfl
theorem payload_exit : (sched (F := F) m).payload (exitCell c) 0 k = iprop(emp) := by
  show cellPay m c (.reg exitS) k = _; unfold cellPay; exact if_neg (fun h => barS_ne_exitS h.symm)
theorem payload_recv (d : Fin 5) : (sched (F := F) m).payload (recvCell c j) 0 d = recvPay m c j := by
  show cellPay m c (.dma (recvS j)) d = _
  unfold cellPay; dsimp only
  have h : 23 ≤ (recvS j).val := by rw [recvS_val]; omega
  rw [dif_pos h]
  congr 1
  apply Fin.ext; show (recvS j).val - 23 = j.val; rw [recvS_val]; omega
theorem payload_send (d : Fin 5) : (sched (F := F) m).payload (sendCell c j) 0 d = sendPay m c j := by
  show cellPay m c (.dma (sendS j)) d = _
  unfold cellPay; dsimp only
  have h : ¬ 23 ≤ (sendS j).val := by rw [sendS_val]; have := j.isLt; omega
  have h8 : 8 ≤ (sendS j).val := by rw [sendS_val]; omega
  rw [dif_neg h, dif_pos h8]
  congr 1
  apply Fin.ext; show (sendS j).val - 8 = j.val; rw [sendS_val]; omega

theorem rest_bar : bigSep ((sched (F := F) m).duties (barCell c) 0 \ ∅) (fun d => (sched (F := F) m).payload (barCell c) 0 d) = bigSep Finset.univ (fun k => barPay (F := F) c k) := by
  rw [Finset.sdiff_empty, duties_bar]; exact bigSep_congr fun k _ => payload_bar m c k
theorem rest_exit : bigSep ((sched (F := F) m).duties (exitCell c) 0 \ ∅) (fun d => (sched (F := F) m).payload (exitCell c) 0 d) = bigSep Finset.univ (fun _ : Fin 5 => (iprop(emp) : sProp 𝕄)) := by
  rw [Finset.sdiff_empty, duties_exit]; exact bigSep_congr fun k _ => payload_exit m c k
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

/-! ## What a device owes, in the order it pays -/

/-- The cell device `c`'s `e`-th payment goes to: barrier signals `0 … 4`, copies `5 … 19`, exit signals `20 … 24`. -/
def payCell (c : Dev nD) (e : ℕ) : GSem nD τ sig :=
  if e < 5 then barCell (peer ⟨e % 5, Nat.mod_lt _ (by decide)⟩ c)
  else if e < 20 then recvCell (partner ⟨(e - 5) % 15, Nat.mod_lt _ (by decide)⟩ c) ⟨(e - 5) % 15, Nat.mod_lt _ (by decide)⟩
  else exitCell (peer ⟨(e - 20) % 5, Nat.mod_lt _ (by decide)⟩ c)
/-- Its amount. -/
def payAmt (e : ℕ) : ℕ := if e < 5 then 1 else if e < 20 then N else 1

/-- What device `c` still owes before its `n`-th payment. -/
def owedFrom (n : ℕ) (c : Dev nD) : CellTallies nD τ sig Unit := ∑ e ∈ Finset.Ico n 25, tallyAt (payCell c e) () (payAmt e)

theorem owedFrom_succ (n : ℕ) (c : Dev nD) (h : n < 25) : owedFrom n c = owedFrom (n + 1) c + tallyAt (payCell c n) () (payAmt n) := by
  unfold owedFrom; rw [Finset.sum_eq_sum_Ico_succ_bot h, add_comm]
theorem owedFrom_end (c : Dev nD) : owedFrom 25 c = 0 := by unfold owedFrom; rw [Finset.Ico_self, Finset.sum_empty]

theorem payCell_bar (c : Dev nD) (k : Fin 5) : payCell c k.val = barCell (peer k c) := by
  unfold payCell; rw [if_pos k.isLt]
  have e : (⟨k.val % 5, Nat.mod_lt _ (by decide)⟩ : Fin 5) = k := Fin.ext (Nat.mod_eq_of_lt k.isLt)
  rw [e]
theorem payCell_copy (c : Dev nD) (j : Fin 15) : payCell c (5 + j.val) = recvCell (partner j c) j := by
  have hj := j.isLt
  unfold payCell; rw [if_neg (by omega), if_pos (by omega)]
  have e : (⟨(5 + j.val - 5) % 15, Nat.mod_lt _ (by decide)⟩ : Fin 15) = j := Fin.ext (by show (5 + j.val - 5) % 15 = j.val; omega)
  rw [e]
theorem payCell_exit (c : Dev nD) (k : Fin 5) : payCell c (20 + k.val) = exitCell (peer k c) := by
  have hk := k.isLt
  unfold payCell; rw [if_neg (by omega), if_neg (by omega)]
  have e : (⟨(20 + k.val - 20) % 5, Nat.mod_lt _ (by decide)⟩ : Fin 5) = k := Fin.ext (by show (20 + k.val - 20) % 5 = k.val; omega)
  rw [e]
theorem payAmt_bar (k : Fin 5) : payAmt k.val = 1 := by unfold payAmt; rw [if_pos k.isLt]
theorem payAmt_copy (j : Fin 15) : payAmt (5 + j.val) = N := by have := j.isLt; unfold payAmt; rw [if_neg (by omega), if_pos (by omega)]
theorem payAmt_exit (k : Fin 5) : payAmt (20 + k.val) = 1 := by have := k.isLt; unfold payAmt; rw [if_neg (by omega), if_neg (by omega)]

/-! ## Levels -/

def L (g : GSem nD τ sig) : Finset Unit := if g.1.2 = .tc then {()} else ∅

/-- The barrier at 1, receive cell `j` at `2 + j`, the exit cell at 17, every other cell (the staging and send cells) at 0. -/
def lvS : SemLoc sig → ℕ
  | .reg s => if s = barS then 1 else if s = exitS then 17 else 0
  | .dma q => if 23 ≤ q.val then q.val - 23 + 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (.reg barS) = 1 := by
  show (if barS = barS then 1 else if barS = exitS then 17 else 0) = 1; exact if_pos rfl
theorem lvS_exit : lvS (.reg exitS) = 17 := by
  show (if exitS = barS then 1 else if exitS = exitS then 17 else 0) = 17
  rw [if_neg (fun h => barS_ne_exitS h.symm), if_pos rfl]
theorem lvS_recv (j : Fin 15) : lvS (.dma (recvS j)) = 2 + j.val := by
  show (if 23 ≤ (recvS j).val then (recvS j).val - 23 + 2 else 0) = 2 + j.val
  rw [if_pos (by rw [recvS_val]; omega), recvS_val]; omega
theorem lvS_send (j : Fin 15) : lvS (.dma (sendS j)) = 0 := by
  show (if 23 ≤ (sendS j).val then (sendS j).val - 23 + 2 else 0) = 0
  rw [if_neg (by rw [sendS_val]; have := j.isLt; omega)]

/-- The level of the cell a payment goes to. -/
theorem lv_payCell (c : Dev nD) (e : ℕ) (he : e < 25) :
    lvS (payCell c e).2 = if e < 5 then 1 else if e < 20 then 2 + (e - 5) else 17 := by
  unfold payCell
  by_cases h5 : e < 5
  · rw [if_pos h5, if_pos h5]; exact lvS_bar
  · rw [if_neg h5, if_neg h5]
    by_cases h20 : e < 20
    · rw [if_pos h20, if_pos h20]
      show lvS (.dma (recvS _)) = _
      rw [lvS_recv]; show 2 + (e - 5) % 15 = _; omega
    · rw [if_neg h20, if_neg h20]; exact lvS_exit

theorem owedFrom_pos {n : ℕ} {c : Dev nD} {g : GSem nD τ sig} {u : Unit} (h : 0 < owedFrom n c g u) :
    ∃ e, n ≤ e ∧ e < 25 ∧ g = payCell c e := by
  unfold owedFrom at h
  rw [Finset.sum_apply, Finsupp.finset_sum_apply] at h
  obtain ⟨e, he, hpos⟩ := Finset.exists_ne_zero_of_sum_ne_zero (Nat.pos_iff_ne_zero.mp h)
  rw [tallyAt_apply] at hpos
  have hm := Finset.mem_Ico.mp he
  by_cases hg : g = payCell c e ∧ u = ()
  · exact ⟨e, hm.1, hm.2, hg.1⟩
  · rw [if_neg hg] at hpos; exact absurd rfl hpos

/-- A wait on cell `s` of device `c` while it owes its payments from the `n`-th on, all of them to cells above `s`. -/
theorem mayWait_from (c : Dev nD) (n : ℕ) (s : SemLoc sig)
    (hlv : ∀ e, n ≤ e → e < 25 → lvS s < lvS (payCell c e).2) :
    (levAts L lv : sProp 𝕄) ⊢ MayWait (c : Thread nD τ) s () (owedFrom n c) :=
  MayOwe.of_cut (L := L) (lev := lv) (lvS s)
    (fun p hp => by rw [Finset.mem_singleton.mp hp, L_tc]; exact Finset.mem_singleton_self _)
    (fun g u hg => by
      obtain ⟨e, _, _, rfl⟩ := owedFrom_pos hg
      have : (payCell c e).1.2 = .tc := by unfold payCell; (repeat' split) <;> rfl
      unfold L; rw [if_pos this]; exact Finset.mem_singleton_self _)
    (fun p hp => by rw [Finset.mem_singleton.mp hp]; exact le_refl _)
    (fun g u hg => by
      obtain ⟨e, h1, h2, rfl⟩ := owedFrom_pos hg
      exact hlv e h1 h2)

end Cert.KernelIdeal.Proto

end
-- ==== Proof.Ghost.lean ====
/-
  The ghost state of the exchange and the pipeline's proof data.

  The records every device holds: the invariant of every exchange cell of every device, and that each is at its one round.
  What stays with device `c`: its positions on its own thirty-two cells, and the tokens of the duties IT pays — duty `k` of
  the barrier and exit cells of its partner across bit `k`, the one duty of the receive cell `j` of its partner in exchange
  `j`, the one duty of its own send cell `j`.
-/
import proofs.«900382_g7700000000000383_dist_mlpseq_tp1d_rep_rep_b64_d512_h1024_v7x_i32_bf16_1_alg».proof.Proof.Sched

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells -/

/-- A semaphore of the exchange: the barrier, the exit semaphore, a send or a receive semaphore (not a staging one). -/
def isExch : SemLoc sig → Bool
  | .reg s => decide (s = barS ∨ s = exitS)
  | .dma q => decide (8 ≤ q.val)

/-- The exchange's cells: those semaphores on every device's TensorCore. -/
def cells : Finset (GSem nD τ sig) := Finset.univ.filter fun g => g.1.2 = .tc ∧ isExch g.2 = true

theorem mem_cells_bar (c : Dev nD) : barCell c ∈ cells := by
  unfold cells; rw [Finset.mem_filter]; exact ⟨Finset.mem_univ _, rfl, by show decide (barS = barS ∨ barS = exitS) = true; exact decide_eq_true (Or.inl rfl)⟩
theorem mem_cells_exit (c : Dev nD) : exitCell c ∈ cells := by
  unfold cells; rw [Finset.mem_filter]; exact ⟨Finset.mem_univ _, rfl, by show decide (exitS = barS ∨ exitS = exitS) = true; exact decide_eq_true (Or.inr rfl)⟩
theorem mem_cells_send (c : Dev nD) (j : Fin 15) : sendCell c j ∈ cells := by
  unfold cells; rw [Finset.mem_filter]; exact ⟨Finset.mem_univ _, rfl, by show decide (8 ≤ (sendS j).val) = true; exact decide_eq_true (by rw [sendS_val]; omega)⟩
theorem mem_cells_recv (c : Dev nD) (j : Fin 15) : recvCell c j ∈ cells := by
  unfold cells; rw [Finset.mem_filter]; exact ⟨Finset.mem_univ _, rfl, by show decide (8 ≤ (recvS j).val) = true; exact decide_eq_true (by rw [recvS_val]; omega)⟩

/-! ## Records, positions, tokens -/

/-- Every exchange cell's invariant, cell `g`'s at name `K g`, and that each has reached its round. -/
def records (K : GSem nD τ sig → ℕ) : sProp 𝕄 :=
  iprop((bigSep cells fun g => cellInv ER (sched m) (K g) g) ∗ bigSep cells fun g => reached ER g 0)

instance records_persistent (K : GSem nD τ sig → ℕ) : BI.Persistent (records m K) := by unfold records; infer_instance

theorem inv_of_all (K : GSem nD τ sig → ℕ) {g : GSem nD τ sig} (hg : g ∈ cells) :
    (bigSep cells fun g => (cellInv ER (sched m) (K g) g : sProp 𝕄)) ⊢ cellInv ER (sched m) (K g) g := bigSep_elim hg
omit [FloatOps F] in
theorem reached_of_all {g : GSem nD τ sig} (hg : g ∈ cells) :
    (bigSep cells fun g => (reached ER g 0 : sProp 𝕄)) ⊢ reached ER g 0 := bigSep_elim hg
theorem inv_at (K : GSem nD τ sig → ℕ) {g : GSem nD τ sig} (hg : g ∈ cells) : records m K ⊢ cellInv ER (sched m) (K g) g := by
  unfold records; iintro ⟨#HI, -⟩; iapply (inv_of_all m K hg); iexact HI
theorem reached_at (K : GSem nD τ sig → ℕ) {g : GSem nD τ sig} (hg : g ∈ cells) : records m K ⊢ (reached ER g 0 : sProp 𝕄) := by
  unfold records; iintro ⟨-, #HR⟩; iapply (reached_of_all (F := F) hg); iexact HR

/-- Device `c`'s positions: round 0 of each of its cells, nothing consumed. -/
def positions (c : Dev nD) : sProp 𝕄 :=
  iprop(atPos ER (barCell c) 0 ∅ 0 ∗ atPos ER (exitCell c) 0 ∅ 0
    ∗ (bigSep Finset.univ fun j : Fin 15 => atPos ER (sendCell c j) 0 ∅ 0)
    ∗ (bigSep Finset.univ fun j : Fin 15 => atPos ER (recvCell c j) 0 ∅ 0))

/-- The tokens of the duties device `c` pays. -/
def payToks (c : Dev nD) : sProp 𝕄 :=
  iprop((bigSep Finset.univ fun k : Fin 5 => dutyTok ER (barCell (peer k c)) 0 k)
    ∗ (bigSep Finset.univ fun k : Fin 5 => dutyTok ER (exitCell (peer k c)) 0 k)
    ∗ (bigSep Finset.univ fun j : Fin 15 => dutyTok ER (recvCell (partner j c) j) 0 (0 : Fin 5))
    ∗ (bigSep Finset.univ fun j : Fin 15 => dutyTok ER (sendCell c j) 0 (0 : Fin 5)))

def ghost (K : GSem nD τ sig → ℕ) (c : Dev nD) : sProp 𝕄 := iprop(records m K ∗ positions c ∗ payToks c)

/-- The credit tokens device `c` is dealt at launch: its barrier's and exit cell's five units, each receive cell's copy. -/
def creds (c : Dev nD) : sProp 𝕄 :=
  iprop(cred (tallyAt (barCell c) () 5) ∗ cred (tallyAt (exitCell c) () 5)
    ∗ bigSep Finset.univ fun j : Fin 15 => cred (tallyAt (recvCell c j) () N))

/-- What device `c`'s body starts from. -/
def start (c : Dev nD) : sProp 𝕄 := iprop((∃ K, ghost m K c) ∗ creds c ∗ levAts L lv)

/-- The receive buffer whole, at contents `f`. -/
def rcvPts (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, accPts c f) ∗ (∃ f, rcvPts c f))

/-- The kernel's own semaphores back at zero. -/
def ownZero (c : Dev nD) : sProp 𝕄 :=
  iprop(semVal (exitCell c) 0 ∗ (bigSep Finset.univ fun j : Fin 15 => semVal (sendCell c j) 0) ∗ (bigSep Finset.univ fun j : Fin 15 => semVal (recvCell c j) 0))

def Φ₁ (c : Dev nD) : sProp 𝕄 := iprop((∃ f, accPts c f) ∗ (∃ f, rcvPts c f) ∗ ownZero c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wins m 0 c
    | ⟨2, _⟩ => wouts m 0 c
    | ⟨3, _⟩ => wins m 1 c
    | ⟨4, _⟩ => wouts m 1 c
    | ⟨5, _⟩ => wins m 2 c
    | ⟨6, _⟩ => wouts m 2 c
    | ⟨7, _⟩ => outAt m c
  Φ t := match t with
    | ⟨0, _⟩ => Φ₀ m c
    | ⟨_ + 1, _⟩ => Φ₁ c
  q _ := fullShare
  owed t := match t with
    | ⟨0, _⟩ => owedFrom 0 c
    | ⟨_ + 1, _⟩ => 0

abbrev 𝒱₀ : Variants := Variants.none

end Cert.KernelIdeal.Proto

end
-- ==== Proof.Slots.lean ====
/-
  The receive buffer seen as fifteen slots.

  The [3, 5, 64, 512] buffer is the disjoint union of fifteen [64, 512] slots, slot `j = 5·l + k` at leading
  coordinates `(l, k)`. Reading a slot off the buffer's final contents gives the partner's accumulator; writing the
  partner's accumulator through a slot leaves the final contents there.
-/
import proofs.«900382_g7700000000000383_dist_mlpseq_tp1d_rep_rep_b64_d512_h1024_v7x_i32_bf16_1_alg».proof.Proof.Cells
import Idealize.ShloMosaic.Lib.ValueIdx
import Idealize.ShloMosaic.Lib.ValueLayout

noncomputable section

namespace Cert.KernelIdeal.Proto

open Cert.KernelIdeal Cert.KernelIdeal.Gen Cert.KernelIdeal.Spec
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading a slot -/

omit [FloatOps F] in
/-- The element of the buffer under coordinate `x` of slot `j`'s rectangle belongs to exchange `j`. -/
theorem slotOf_idx (j : Fin 15) (x : S1x1x64x512.Idx) : slotOf ((slotRect j).toLoadRect.idx x) = j := by
  apply Fin.ext
  have h0 : (x 0).val < 1 := (x 0).isLt
  have h1 : (x 1).val < 1 := (x 1).isLt
  show 5 * (j.val / 5 + 1 * (x 0).val) + (j.val % 5 + 1 * (x 1).val) = j.val
  omega

omit [FloatOps F] in
/-- Inside its slot it sits at the rectangle's last two coordinates. -/
theorem inSlot_idx (j : Fin 15) (x : S1x1x64x512.Idx) :
    inSlot ((slotRect j).toLoadRect.idx x)
      = (fun a => match a with | ⟨0, _⟩ => ⟨(x 2).val, (x 2).isLt⟩ | ⟨1, _⟩ => ⟨(x 3).val, (x 3).isLt⟩ : S64x512.Idx) := by
  funext a
  match a with
  | ⟨0, _⟩ => apply Fin.ext; show 0 + 1 * (x 2).val = (x 2).val; omega
  | ⟨1, _⟩ => apply Fin.ext; show 0 + 1 * (x 3).val = (x 3).val; omega

/-- Slot `j` of the final contents, loaded through the whole buffer, is the partner's accumulator of exchange `j`. -/
theorem read_slot (j : Fin 15) (c : Dev nD) :
    (rcvM : Memref sig .tc .vmem S3x5x64x512 .f32).view.readAt (Elt F) (slotRect j).toLoadRect (rcvAll m c)
      = Spec.up (accAt m j (partner j c)) := by
  funext x
  show rcvAll m c ((slotRect j).toLoadRect.idx x) = _
  unfold rcvAll Spec.up
  rw [slotOf_idx, inSlot_idx]
  rfl

/-! ## A slot's elements -/

omit [FloatOps F] in
/-- Slot `j`'s elements are the buffer's elements under slot `j`'s rectangle. -/
theorem slot_set (j : Fin 15) :
    (slotM j : Memref sig .tc .vmem S64x512 .f32).view.set
      = (rcvM : Memref sig .tc .vmem S3x5x64x512 .f32).view.setOn (slotRect j).toLoadRect.set := by
  show (((rcvM : Memref sig .tc .vmem S3x5x64x512 .f32).view.slice (slotRect j)).reshape S64x512 _).set = _
  rw [View.set_reshape, View.set_slice]
  rfl

omit [FloatOps F] in
/-- A load of slot `j` through the whole buffer touches only slot `j`'s elements. -/
theorem slot_load_sub (j : Fin 15) :
    (rcvM : Memref sig .tc .vmem S3x5x64x512 .f32).view.setOn (slotRect j).toLoadRect.set
      ⊆ (slotM j : Memref sig .tc .vmem S64x512 .f32).view.set :=
  (slot_set j).ge

/-! ## What a copy into a slot leaves -/

omit [FloatOps F] in
/-- Coordinate `y` of slot `j` sits in the buffer under slot `j`'s rectangle at `y` matched with [1, 1, 64, 512]. -/
theorem slot_emb (j : Fin 15) (y : S64x512.Idx) :
    (slotM j : Memref sig .tc .vmem S64x512 .f32).view.emb y
      = (slotRect j).toLoadRect.idx (Shape.reshapeEquiv squeezes_S1x1x64x512_S64x512.numel_eq y) := rfl

omit [FloatOps F] in
/-- It belongs to exchange `j`, -/
theorem slotOf_emb (j : Fin 15) (y : S64x512.Idx) :
    slotOf ((slotM j : Memref sig .tc .vmem S64x512 .f32).view.emb y) = j := by
  rw [slot_emb, slotOf_idx]

omit [FloatOps F] in
/-- at `y` inside the slot. -/
theorem inSlot_emb (j : Fin 15) (y : S64x512.Idx) :
    inSlot ((slotM j : Memref sig .tc .vmem S64x512 .f32).view.emb y) = y := by
  obtain ⟨p, q, rfl⟩ : ∃ (p : Fin 64) (q : Fin 512), y = ix2 p q := ⟨y 0, y 1, eq_ix2 y⟩
  rw [slot_emb, inSlot_idx, reshapeEquiv_ix2_11ab]
  funext a
  match a with
  | ⟨0, _⟩ => rfl
  | ⟨1, _⟩ => rfl

/-- The final contents at slot `j`'s coordinate `y`: the partner's accumulator of exchange `j` there. -/
theorem rcvAll_emb (j : Fin 15) (c : Dev nD) (y : S64x512.Idx) :
    rcvAll m c ((slotM j : Memref sig .tc .vmem S64x512 .f32).view.emb y) = accAt m j (partner j c) y := by
  unfold rcvAll
  rw [slotOf_emb, inSlot_emb]

/-- A copy of the partner's accumulator of exchange `j` into slot `j` leaves the final contents there. -/
theorem slot_landed (j : Fin 15) (c : Dev nD)
    (fd : Buf (Elt F) ((slotM j : Memref sig .tc .vmem S64x512 .f32).view.loc (c : Thread nD τ)))
    (fs : Buf (Elt F) ((accM : Memref sig .tc .vmem S64x512 .f32).view.loc ((partner j c : Dev nD) : Thread nD τ)))
    (hfs : fs = accAt m j (partner j c)) :
    slotPts c j ((slotM j : Memref sig .tc .vmem S64x512 .f32).view.write (Elt F) fd
        ((accM : Memref sig .tc .vmem S64x512 .f32).view.read (Elt F) fs) Finset.univ)
      = (slotPts c j (rcvAll m c) : sProp 𝕄) := by
  subst hfs
  unfold slotPts
  refine Region.is_congr fun i hi => ?_
  obtain ⟨y, rfl⟩ := View.exists_emb_of_mem_set (slotM j : Memref sig .tc .vmem S64x512 .f32).view hi
  rw [View.write_emb_of_mem _ _ (Finset.mem_univ y), rcvAll_emb]
  rfl

end Cert.KernelIdeal.Proto

end
-- ==== Proof.Step.lean ====
/-
  One exchange, at a symbolic place: device `c` copies its accumulator into slot `j` of its partner's receive buffer, waits
  until the accumulator has been read out (its send cell) and until its own slot `j` has been written by the partner's copy
  (its receive cell), and adds the slot to the accumulator.

  The copy pays the one duty of the partner's receive cell `j` — the slot, which the partner's barrier signal handed over, now at
  this device's accumulator — and of the own send cell `j`. The send wait is below everything still owed (level 0); the
  receive wait sits at level `2 + j`, below the later copies' cells and the exit cells. Both cells are then closed: their
  counters are the device's again, at zero.
-/
import proofs.«900382_g7700000000000383_dist_mlpseq_tp1d_rep_rep_b64_d512_h1024_v7x_i32_bf16_1_alg».proof.Proof.Ghost
import proofs.«900382_g7700000000000383_dist_mlpseq_tp1d_rep_rep_b64_d512_h1024_v7x_i32_bf16_1_alg».proof.Proof.Slots

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel addresses -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 0 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 3 c := by decide +kernel
theorem dev10_eq : ∀ c : Dev nD, (⟨k0_dev10 c, k0_dev10_lt c⟩ : Dev nD) = peer 4 c := by decide +kernel
theorem dev11_eq : ∀ c : Dev nD, (⟨k0_dev11 c, k0_dev11_lt c⟩ : Dev nD) = peer 0 c := by decide +kernel
theorem dev12_eq : ∀ c : Dev nD, (⟨k0_dev12 c, k0_dev12_lt c⟩ : Dev nD) = peer 1 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 4 c := by decide +kernel
theorem dev16_eq : ∀ c : Dev nD, (⟨k0_dev16 c, k0_dev16_lt c⟩ : Dev nD) = peer 0 c := by decide +kernel
theorem dev17_eq : ∀ c : Dev nD, (⟨k0_dev17 c, k0_dev17_lt c⟩ : Dev nD) = peer 1 c := by decide +kernel
theorem dev18_eq : ∀ c : Dev nD, (⟨k0_dev18 c, k0_dev18_lt c⟩ : Dev nD) = peer 2 c := by decide +kernel
theorem dev19_eq : ∀ c : Dev nD, (⟨k0_dev19 c, k0_dev19_lt c⟩ : Dev nD) = peer 3 c := by decide +kernel
theorem dev20_eq : ∀ c : Dev nD, (⟨k0_dev20 c, k0_dev20_lt c⟩ : Dev nD) = peer 4 c := by decide +kernel
theorem dev21_eq : ∀ c : Dev nD, (⟨k0_dev21 c, k0_dev21_lt c⟩ : Dev nD) = peer 0 c := by decide +kernel
theorem dev22_eq : ∀ c : Dev nD, (⟨k0_dev22 c, k0_dev22_lt c⟩ : Dev nD) = peer 1 c := by decide +kernel
theorem dev23_eq : ∀ c : Dev nD, (⟨k0_dev23 c, k0_dev23_lt c⟩ : Dev nD) = peer 2 c := by decide +kernel
theorem dev24_eq : ∀ c : Dev nD, (⟨k0_dev24 c, k0_dev24_lt c⟩ : Dev nD) = peer 3 c := by decide +kernel
theorem dev25_eq : ∀ c : Dev nD, (⟨k0_dev25 c, k0_dev25_lt c⟩ : Dev nD) = peer 4 c := by decide +kernel

/-! ## The accumulator read and written whole -/

abbrev r0 : Rect S64x512 := Rect.unit (s := S64x512) ![0, 0] S64x512.size inb_S64x512_S64x512_0_0

omit [FloatOps F] in
theorem hz2 : (![0, 0] : Fin 2 → Nat) = fun _ => 0 := funext fun a => by fin_cases a <;> rfl
omit [FloatOps F] in
theorem read_acc (f : (cc0_scratch0 : Ref sig .tc).ty.Contents (Elt F)) : (accM : Memref sig .tc .vmem S64x512 .f32).view.readAt (Elt F) r0.toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S64x512 .f32).access r0 : View sig .tc _ _ _).write (Elt F) f w Finset.univ = w :=
  Memref.write_access_unit_zero_univ (Elt F) cc0_scratch0 hz2 _ f w

/-! ## The levels of the two waits -/

theorem lv_after_send (c : Dev nD) (j : Fin 15) : ∀ e, 5 + j.val + 1 ≤ e → e < 25 → lvS (.dma (sendS j)) < lvS (payCell c e).2 := by
  intro e h1 h2
  rw [lvS_send, lv_payCell c e h2]
  split
  · omega
  · split <;> omega
theorem lv_after_recv (c : Dev nD) (j : Fin 15) : ∀ e, 5 + j.val + 1 ≤ e → e < 25 → lvS (.dma (recvS j)) < lvS (payCell c e).2 := by
  intro e h1 h2
  have := j.isLt
  rw [lvS_recv, lv_payCell c e h2]
  split
  · omega
  · split <;> omega

/-! ## The exchange -/

section Step

variable (K : GSem nD τ sig → ℕ)

/-- The send and receive duties' payloads, spelt down to the buffers they hand over. -/
theorem payload_send_pts (c : Dev nD) (j : Fin 15) (d : Fin 5) : (sched (F := F) m).payload (sendCell c j) 0 d
    = ((accM : Memref sig .tc .vmem S64x512 .f32).view.loc (c : Thread nD τ) ↦[(accM : Memref sig .tc .vmem S64x512 .f32).view.set]{fullShare} accAt m j c : sProp 𝕄) := payload_send m c j d
theorem payload_recv_pts (c : Dev nD) (j : Fin 15) (d : Fin 5) : (sched (F := F) m).payload (recvCell c j) 0 d
    = ((slotM j : Memref sig .tc .vmem S64x512 .f32).view.loc (c : Thread nD τ) ↦[(slotM j : Memref sig .tc .vmem S64x512 .f32).view.set]{fullShare} rcvAll m c : sProp 𝕄) := payload_recv m c j d

attribute [local sl_rounds] duties_send duties_recv amount_send amount_recv expect_send expect_recv payload_send_pts payload_recv_pts

set_option maxHeartbeats 1600000 in
theorem step (c n : Dev nD) (j : Fin 15) (hn : n = partner j c)
    {hsc : (slotM j : Memref sig (Dev.tc n : Thread nD τ).2.kind .vmem S64x512 .f32).view.ref.isScScratch = false}
    {hsrc : (accM : Memref sig .tc .vmem S64x512 .f32).view.WordExact} {hdst : (slotM j : Memref sig .tc .vmem S64x512 .f32).view.WordExact}
    {hsem : DmaTarget.Typed .vmem (.dma (recvS j)) (.remote (Dev.tc n : Thread nD τ) (slotM j : Memref sig .tc .vmem S64x512 .f32) (.dma (sendS j)) hsc)}
    {hw1a : (slotM j : Memref sig .tc .vmem S64x512 .f32).view.WordExact} {hw1b : (accM : Memref sig .tc .vmem S64x512 .f32).view.WordExact}
    {hw2a : (accM : Memref sig .tc .vmem S64x512 .f32).view.WordExact} {hw2b : (slotM j : Memref sig .tc .vmem S64x512 .f32).view.WordExact}
    {hl0 : (accM : Memref sig .tc .vmem S64x512 .f32).view.LoadsAt r0.toLoadRect}
    {hl1 : (rcvM : Memref sig .tc .vmem S3x5x64x512 .f32).view.LoadsAt (slotRect j).toLoadRect}
    {hl2 : (accM : Memref sig .tc .vmem S64x512 .f32).view.LoadsAt r0.toLoadRect}
    {hx : ((accM : Memref sig .tc .vmem S64x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} (W : Waits sig Unit) :
    iprop(records m K ∗ levAts L lv
        ∗ owes (c : Thread nD τ) (owedFrom (5 + j.val) c) W
        ∗ accPts c (accAt m j c) ∗ (∃ f, slotPts (partner j c) j f)
        ∗ atPos ER (sendCell c j) 0 ∅ 0 ∗ atPos ER (recvCell c j) 0 ∅ 0
        ∗ dutyTok ER (sendCell c j) 0 (0 : Fin 5) ∗ dutyTok ER (recvCell (partner j c) j) 0 (0 : Fin 5)
        ∗ cred (tallyAt (recvCell c j) () N))
      ⊢ iprop(((owes (c : Thread nD τ) (owedFrom (5 + j.val + 1) c) (insert (SemLoc.dma (recvS j), ()) (insert (SemLoc.dma (sendS j), ()) W))
              ∗ accPts c (accAfter m j c) ∗ slotPts c j (rcvAll m c) ∗ semVal (sendCell c j) 0 ∗ semVal (recvCell c j) 0)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma accM (.remote (Dev.tc n : Thread nD τ) (slotM j) (.dma (sendS j)) hsc) (.dma (recvS j)) hsrc hdst hsem) fun _ =>
           .op (.waitDma2 (sendS j) (slotM j) accM hw1a hw1b) fun _ =>
           .op (.waitDma2 (recvS j) accM (slotM j) hw2a hw2b) fun _ =>
           .op (.load accM r0.toLoadRect hl0) fun v54 =>
           .op (.load rcvM (slotRect j).toLoadRect hl1) fun v55 =>
           .op (.load accM r0.toLoadRect hl2) fun v58 =>
           .op (.store accM r0 (k0_pay4 v54 v55) Finset.univ hx hm) k) Q) := by
  subst hn
  iintro ⟨#HR, #Hlev, HO, Hacc, ⟨%fn, Hslot⟩, HatS, HatV, HtS, HtV, HcV⟩ Hk
  ihave #HIsnd := (inv_at m K (mem_cells_send c j)) $$ HR
  ihave #HIrcv := (inv_at m K (mem_cells_recv c j)) $$ HR
  ihave #HIrcvN := (inv_at m K (mem_cells_recv (partner j c) j)) $$ HR
  ihave #HrS := (reached_at m K (mem_cells_send c j)) $$ HR
  ihave #HrVN := (reached_at m K (mem_cells_recv (partner j c) j)) $$ HR
  have hmw1 := mayWait_from (F := F) c (5 + j.val + 1) (.dma (sendS j)) (lv_after_send c j)
  have hmw2 := mayWait_from (F := F) c (5 + j.val + 1) (.dma (recvS j)) (lv_after_recv c j)
  -- the copy into the partner's slot
  unfold accPts slotPts
  iapply (Rounds.wp_send_pointsTo 𝒱₀ ER (sched m) (c : Thread nD τ) none (κ₁ := K (sendCell c j)) (κ₂ := K (recvCell (partner j c) j))
      (r₁ := 0) (r₂ := 0) (d₁ := (0 : Fin 5)) (d₂ := (0 : Fin 5)) (fd := fn) (O₀ := owedFrom (5 + j.val) c)
      (by rw [duties_send]; exact Finset.mem_singleton_self _) (by rw [duties_recv]; exact Finset.mem_singleton_self _)
      () () N rfl (amount_send m c j 0) (amount_recv m (partner j c) j 0) (owedFrom (5 + j.val + 1) c)
      (by rw [owedFrom_succ (5 + j.val) c (by have := j.isLt; omega), payCell_copy, payAmt_copy]) (W := W)
      (by rw [payload_send]; exact BI.Entails.refl _)
      (by
        rw [payload_recv]; unfold recvPay
        have h := slot_landed m j (partner j c) fn (accAt m j c) (by rw [partner_partner])
        exact Entails.of_eq h)) $$ [Hacc Hslot HO HtS HtV]
  · isplitr; · iexact HIsnd
    isplitr; · iexact HIrcvN
    isplitl [Hacc]; · iexact Hacc
    isplitl [Hslot]; · iexact Hslot
    isplitl [HO]; · iexact HO
    isplitl [HtS]; · iexact HtS
    isplitr; · iexact HrS
    isplitl [HtV]; · iexact HtV
    iexact HrVN
  iintro ⟨HcS, HO⟩
  sl_exec
  -- the two cells close
  imod (Rounds.cell_close ER (sched m) (Set.mem_univ (K (sendCell c j))) (fun h => h) (R := 1) (duties_later m (sendCell c j))) $$ [HatS] with HzS
  · isplitr; · iexact HIsnd
    iexact HatS
  imod (Rounds.cell_close ER (sched m) (Set.mem_univ (K (recvCell c j))) (fun h => h) (R := 1) (duties_later m (recvCell c j))) $$ [HatV] with HzV
  · isplitr; · iexact HIrcv
    iexact HatV
  rw [View.writes_singleton, read_acc, read_slot m j c]
  iapply Hk
  isplitl [HO]; · iexact HO
  isplitl [HatS_pay1]
  · rw [accAfter_eq]; unfold addStep
    rw [write_acc]
    iexact HatS_pay1
  isplitl [HatV_pay1]; · iexact HatV_pay1
  isplitl [HzS]; · iexact HzS
  iexact HzV

end Step

end Cert.KernelIdeal.Proto

end
-- ==== Proof.Phases.lean ====
/-
  The two handshakes, at a symbolic place.

  Entry: device `c` signals the barrier cell of each partner, its signal across bit `k` handing the partner the three slots of
  step `k` of ITS OWN receive buffer (one per layer) and that its receive cells of step `k` are at their round — what the
  partner's three copies into them will need —, then waits for the five signals to itself, which bring the five partners'
  slots. The wait sits below everything the device still owes. Exit: five signals that hand over nothing, and a wait owing
  nothing; the exit cell is then closed.
-/
import proofs.«900382_g7700000000000383_dist_mlpseq_tp1d_rep_rep_b64_d512_h1024_v7x_i32_bf16_1_alg».proof.Proof.Ghost

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem lv_after_bar (c : Dev nD) : ∀ e, 5 ≤ e → e < 25 → lvS (.reg barS) < lvS (payCell c e).2 := by
  intro e h1 h2
  rw [lvS_bar, lv_payCell c e h2]
  split
  · omega
  · split <;> omega

/-! ## The signals -/

section Signals

variable (K : GSem nD τ sig → ℕ)

/-- The barrier duty's payload at the cell device `c` signals, spelt down to its leaves. -/
theorem payload_bar_peer (c : Dev nD) (k : Fin 5) : (sched (F := F) m).payload (barCell (peer k c)) 0 k
    = iprop(((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0)
        ∗ ((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0)
        ∗ ((∃ f, (slotM (exch 2 k) : Memref sig .tc .vmem S64x512 .f32).view.loc (c : Thread nD τ) ↦[(slotM (exch 2 k) : Memref sig .tc .vmem S64x512 .f32).view.set]{fullShare} f) ∗ reached ER (recvCell c (exch 2 k)) 0)) := by
  rw [payload_bar]; unfold barPay; rw [bigSep_fin3, peer_peer]; rfl

attribute [local sl_rounds] duties_bar duties_exit amount_bar amount_exit expect_bar expect_exit payload_bar_peer payload_exit

/-- The entry signal across bit `k`: it hands the partner this device's three slots of step `k` and that its receive cells of step `k` are at their round. -/
theorem sig_bar (c n : Dev nD) (k : Fin 5) (hn : n = peer k c)
    {α : Type} {Q : α → sProp 𝕄} {k' : PUnit → Prog (TpuEff nD τ sig (Elt F) Λ₀ .tc) α} (W : Waits sig Unit) :
    iprop(records m K ∗ owes (c : Thread nD τ) (owedFrom k.val c) W ∗ dutyTok ER (barCell (peer k c)) 0 k
        ∗ (∃ f, slotPts c (exch 0 k) f) ∗ (∃ f, slotPts c (exch 1 k) f) ∗ (∃ f, slotPts c (exch 2 k) f))
      ⊢ iprop((owes (c : Thread nD τ) (owedFrom (k.val + 1) c) W -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) barS 1) k') Q) := by
  subst hn
  iintro ⟨#HR, HO, Htok, Hs0, Hs1, Hs2⟩ Hk
  ihave #HI := (inv_at m K (mem_cells_bar (peer k c))) $$ HR
  ihave #Hr := (reached_at m K (mem_cells_bar (peer k c))) $$ HR
  ihave #Hr0 := (reached_at m K (mem_cells_recv c (exch 0 k))) $$ HR
  ihave #Hr1 := (reached_at m K (mem_cells_recv c (exch 1 k))) $$ HR
  ihave #Hr2 := (reached_at m K (mem_cells_recv c (exch 2 k))) $$ HR
  have hpeel : owedFrom k.val c = owedFrom (k.val + 1) c + tallyAt (barCell (peer k c)) () 1 := by
    rw [owedFrom_succ k.val c (by have := k.isLt; omega), payCell_bar, payAmt_bar]
  unfold slotPts
  have e0 : (iprop((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0) : sProp 𝕄)
      ⊢ iprop((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0) := BI.Entails.refl _
  ihave Hq0 := e0 $$ [Hs0]
  · isplitl [Hs0]; · iexact Hs0
    iexact Hr0
  have e1 : (iprop((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0) : sProp 𝕄)
      ⊢ iprop((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0) := BI.Entails.refl _
  ihave Hq1 := e1 $$ [Hs1]
  · isplitl [Hs1]; · iexact Hs1
    iexact Hr1
  rw [hpeel]
  sl_exec
  iapply Hk
  iexact HO

/-- The exit signal across bit `k`: it hands over nothing. -/
theorem sig_exit (c n : Dev nD) (k : Fin 5) (hn : n = peer k c)
    {α : Type} {Q : α → sProp 𝕄} {k' : PUnit → Prog (TpuEff nD τ sig (Elt F) Λ₀ .tc) α} (W : Waits sig Unit) :
    iprop(records m K ∗ owes (c : Thread nD τ) (owedFrom (20 + k.val) c) W ∗ dutyTok ER (exitCell (peer k c)) 0 k)
      ⊢ iprop((owes (c : Thread nD τ) (owedFrom (20 + k.val + 1) c) W -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) exitS 1) k') Q) := by
  subst hn
  iintro ⟨#HR, HO, Htok⟩ Hk
  ihave #HI := (inv_at m K (mem_cells_exit (peer k c))) $$ HR
  ihave #Hr := (reached_at m K (mem_cells_exit (peer k c))) $$ HR
  have hpeel : owedFrom (20 + k.val) c = owedFrom (20 + k.val + 1) c + tallyAt (exitCell (peer k c)) () 1 := by
    rw [owedFrom_succ (20 + k.val) c (by have := k.isLt; omega), payCell_exit, payAmt_exit]
  rw [hpeel]
  sl_exec
  iapply Hk
  iexact HO

end Signals

/-! ## The waits -/

section Waits

variable (K : GSem nD τ sig → ℕ)

attribute [local sl_rounds] duties_bar duties_exit amount_bar amount_exit expect_bar expect_exit payload_bar payload_exit

/-- The entry wait: the five partners' slots come with it. -/
theorem wait_bar (c : Dev nD)
    {α : Type} {Q : α → sProp 𝕄} {k' : PUnit → Prog (TpuEff nD τ sig (Elt F) Λ₀ .tc) α} (W : Waits sig Unit) :
    iprop(records m K ∗ levAts L lv ∗ owes (c : Thread nD τ) (owedFrom 5 c) W ∗ cred (tallyAt (barCell c) () 5) ∗ atPos ER (barCell c) 0 ∅ 0)
      ⊢ iprop(((owes (c : Thread nD τ) (owedFrom 5 c) (insert (SemLoc.reg barS, ()) W) ∗ bigSep Finset.univ (fun k : Fin 5 => barPay (F := F) c k))
            -∗ wp frame (wpE (defs₀ (F := F)) 𝒱₀ (c : Thread nD τ) none) Set.univ (k' ⟨⟩) Q)
        -∗ wp frame (wpE (defs₀ (F := F)) 𝒱₀ (c : Thread nD τ) none) Set.univ (.op (.semWait barS 5) k') Q) := by
  iintro ⟨#HR, #Hlev, HO, Hc, Hat⟩ Hk
  ihave #HI := (inv_at m K (mem_cells_bar c)) $$ HR
  have hmw := mayWait_from (F := F) c 5 (.reg barS) (lv_after_bar c)
  sl_exec
  iapply Hk
  isplitl [HO]; · iexact HO
  iexact Hat_pay1

/-- The exit wait, owing nothing; the exit cell closes. -/
theorem wait_exit (c : Dev nD)
    {α : Type} {Q : α → sProp 𝕄} {k' : PUnit → Prog (TpuEff nD τ sig (Elt F) Λ₀ .tc) α} (W : Waits sig Unit) :
    iprop(records m K ∗ owes (c : Thread nD τ) 0 W ∗ cred (tallyAt (exitCell c) () 5) ∗ atPos ER (exitCell c) 0 ∅ 0)
      ⊢ iprop(((owes (c : Thread nD τ) 0 (insert (SemLoc.reg exitS, ()) W) ∗ semVal (exitCell c) 0)
            -∗ wp frame (wpE (defs₀ (F := F)) 𝒱₀ (c : Thread nD τ) none) Set.univ (k' ⟨⟩) Q)
        -∗ wp frame (wpE (defs₀ (F := F)) 𝒱₀ (c : Thread nD τ) none) Set.univ (.op (.semWait exitS 5) k') Q) := by
  iintro ⟨#HR, HO, Hc, Hat⟩ Hk
  ihave #HI := (inv_at m K (mem_cells_exit c)) $$ HR
  sl_exec
  imod (Rounds.cell_close ER (sched m) (Set.mem_univ (K (exitCell c))) (fun h => h) (R := 1) (duties_later m (exitCell c))) $$ [Hat] with Hz
  · isplitr; · iexact HI
    iexact Hat
  iapply Hk
  isplitl [HO]; · iexact HO
  iexact Hz

end Waits

end Cert.KernelIdeal.Proto

end
-- ==== Proof.SlotsSplit.lean ====
/-
  Owning the [3, 5, 64, 512] receive buffer is owning its fifteen [64, 512] slots: an element of the buffer lies in
  slot `j` exactly when its two leading coordinates `(l, k)` have `5·l + k = j`, so the slots' element sets are pairwise
  disjoint and cover the buffer, and ownership of a disjoint union splits.
-/
import proofs.«900382_g7700000000000383_dist_mlpseq_tp1d_rep_rep_b64_d512_h1024_v7x_i32_bf16_1_alg».proof.Proof.Slots
import Idealize.ShloMosaic.Lib.ValueIdx
import Idealize.ShloMosaic.Lib.ValueLayout

noncomputable section

namespace Cert.KernelIdeal.Proto

open Cert.KernelIdeal Cert.KernelIdeal.Gen Cert.KernelIdeal.Spec
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffer is its fifteen slots -/

omit [FloatOps F] in
/-- An element of the buffer lies under slot `j`'s rectangle exactly when it belongs to exchange `j`. -/
theorem mem_slotRect (j : Fin 15) (i : S3x5x64x512.Idx) : i ∈ (slotRect j).toLoadRect.set ↔ slotOf i = j := by
  have b0 : (i 0).val < 3 := (i 0).isLt
  have b1 : (i 1).val < 5 := (i 1).isLt
  have b2 : (i 2).val < 64 := (i 2).isLt
  have b3 : (i 3).val < 512 := (i 3).isLt
  refine Rect.mem_set_unit.trans ⟨fun h => ?_, fun h a => ?_⟩
  · have h0 : j.val / 5 ≤ (i 0).val ∧ (i 0).val < j.val / 5 + 1 := h 0
    have h1 : j.val % 5 ≤ (i 1).val ∧ (i 1).val < j.val % 5 + 1 := h 1
    apply Fin.ext
    show 5 * (i 0).val + (i 1).val = j.val
    omega
  · have hj : 5 * (i 0).val + (i 1).val = j.val := congrArg Fin.val h
    match a with
    | ⟨0, _⟩ => show j.val / 5 ≤ (i 0).val ∧ (i 0).val < j.val / 5 + 1; omega
    | ⟨1, _⟩ => show j.val % 5 ≤ (i 1).val ∧ (i 1).val < j.val % 5 + 1; omega
    | ⟨2, _⟩ => show 0 ≤ (i 2).val ∧ (i 2).val < 0 + 64; omega
    | ⟨3, _⟩ => show 0 ≤ (i 3).val ∧ (i 3).val < 0 + 512; omega

omit [FloatOps F] in
/-- Different slots share no element. -/
theorem slotRect_disjoint {j j' : Fin 15} (h : j ≠ j') :
    Disjoint (slotRect j).toLoadRect.set (slotRect j').toLoadRect.set :=
  Finset.disjoint_left.mpr fun i hi hi' => h (((mem_slotRect j i).mp hi).symm.trans ((mem_slotRect j' i).mp hi'))

omit [FloatOps F] in
/-- Every element of the buffer is in slot 0 or in one of the others. -/
theorem slotRect_cover :
    (slotRect (0 : Fin 15)).toLoadRect.set ∪ (Finset.univ.erase (0 : Fin 15)).biUnion (fun j => (slotRect j).toLoadRect.set)
      = (Finset.univ : Finset S3x5x64x512.Idx) := by
  refine Finset.eq_univ_iff_forall.mpr fun i => ?_
  by_cases h : slotOf i = 0
  · exact Finset.mem_union_left _ ((mem_slotRect 0 i).mpr h)
  · exact Finset.mem_union_right _
      (Finset.mem_biUnion.mpr ⟨slotOf i, Finset.mem_erase.mpr ⟨h, Finset.mem_univ _⟩, (mem_slotRect _ i).mpr rfl⟩)

omit [FloatOps F] in
/-- Owning the elements of a set `T` and of finitely many sets, all pairwise disjoint, is owning each. -/
theorem pointsTo_biUnion {ι : Type} [DecidableEq ι] (ℓ : Loc nD τ sig) (f : Buf (Elt F) ℓ) (A : ι → Finset (Idx ℓ)) (s : Finset ι) :
    ∀ T : Finset (Idx ℓ), (∀ i ∈ s, Disjoint T (A i)) → (∀ i ∈ s, ∀ i' ∈ s, i ≠ i' → Disjoint (A i) (A i')) →
      (ℓ ↦[T ∪ s.biUnion A]{fullShare} f : sProp 𝕄)
        = BI.sep (ℓ ↦[T]{fullShare} f) (bigSep s fun i => (ℓ ↦[A i]{fullShare} f : sProp 𝕄)) := by
  induction s using Finset.induction_on with
  | empty =>
    intro T _ _
    rw [Finset.biUnion_empty, Finset.union_empty, bigSep_empty]
    exact Idealize.SL.BI.Entails.antisymm Idealize.SL.BI.sep_emp_intro Idealize.SL.BI.sep_emp_elim
  | insert i s hi ih =>
    intro T hT hd
    have hTi : Disjoint T (A i) := hT i (Finset.mem_insert_self i s)
    have h1 : (ℓ ↦[T ∪ A i]{fullShare} f : sProp 𝕄) = BI.sep (ℓ ↦[T]{fullShare} f) (ℓ ↦[A i]{fullShare} f) :=
      Idealize.SL.BI.Entails.antisymm (Region.is_union hTi).1 (Region.is_union hTi).2
    rw [Finset.biUnion_insert, ← Finset.union_assoc, ih (T ∪ A i) ?_ ?_, bigSep_insert hi, h1]
    · exact Idealize.SL.BI.Entails.antisymm Idealize.SL.BI.sep_assoc Idealize.SL.BI.sep_assoc'
    · intro i' hi'
      exact Finset.disjoint_union_left.mpr ⟨hT i' (Finset.mem_insert_of_mem hi'),
        hd i (Finset.mem_insert_self i s) i' (Finset.mem_insert_of_mem hi') (fun h => hi (h ▸ hi'))⟩
    · intro a ha b hb hab
      exact hd a (Finset.mem_insert_of_mem ha) b (Finset.mem_insert_of_mem hb) hab

omit [FloatOps F] in
/-- Slot `j`'s elements, as a set of the buffer's indices: those under slot `j`'s rectangle. -/
theorem slot_set' (j : Fin 15) :
    (slotM j : Memref sig .tc .vmem S64x512 .f32).view.set = ((slotRect j).toLoadRect.set : Finset S3x5x64x512.Idx) := by
  rw [slot_set]
  exact Finset.map_refl

omit [FloatOps F] in
/-- Slot `j` of the buffer at contents `f`, as the buffer's elements under slot `j`'s rectangle. -/
theorem slotPts_eq (c : Dev nD) (j : Fin 15) (f : Buf (Elt F) ((c : Thread nD τ).loc cc0_scratch1)) :
    slotPts c j f = (((c : Thread nD τ).loc cc0_scratch1) ↦[(slotRect j).toLoadRect.set]{fullShare} f : sProp 𝕄) := by
  unfold slotPts
  rw [slot_set']

omit [FloatOps F] in
/-- Owning the receive buffer is owning its fifteen slots. -/
theorem rcv_split_eq (c : Dev nD) (f : Buf (Elt F) ((c : Thread nD τ).loc cc0_scratch1)) :
    ((((c : Thread nD τ).loc cc0_scratch1) ↦{fullShare} f : sProp 𝕄))
      = bigSep Finset.univ (fun j : Fin 15 => slotPts c j f) := by
  calc ((((c : Thread nD τ).loc cc0_scratch1) ↦{fullShare} f : sProp 𝕄))
      = (((c : Thread nD τ).loc cc0_scratch1)
          ↦[(slotRect (0 : Fin 15)).toLoadRect.set ∪ (Finset.univ.erase (0 : Fin 15)).biUnion (fun j => (slotRect j).toLoadRect.set)]{fullShare} f) := by
        rw [slotRect_cover]
    _ = BI.sep (((c : Thread nD τ).loc cc0_scratch1) ↦[(slotRect (0 : Fin 15)).toLoadRect.set]{fullShare} f)
          (bigSep (Finset.univ.erase (0 : Fin 15)) fun j => ((((c : Thread nD τ).loc cc0_scratch1) ↦[(slotRect j).toLoadRect.set]{fullShare} f : sProp 𝕄))) :=
        pointsTo_biUnion _ f (fun j : Fin 15 => (slotRect j).toLoadRect.set) _ _
          (fun j hj => slotRect_disjoint (Finset.ne_of_mem_erase hj).symm)
          (fun j _ j' _ h => slotRect_disjoint h)
    _ = bigSep Finset.univ (fun j : Fin 15 => ((((c : Thread nD τ).loc cc0_scratch1) ↦[(slotRect j).toLoadRect.set]{fullShare} f : sProp 𝕄))) :=
        (bigSep_univ_split (0 : Fin 15)
          (Φ := fun j : Fin 15 => ((((c : Thread nD τ).loc cc0_scratch1) ↦[(slotRect j).toLoadRect.set]{fullShare} f : sProp 𝕄)))).symm
    _ = bigSep Finset.univ (fun j : Fin 15 => slotPts c j f) := bigSep_congr fun j _ => (slotPts_eq c j f).symm

omit [FloatOps F] in
theorem rcv_split (c : Dev nD) (f : Buf (Elt F) ((c : Thread nD τ).loc cc0_scratch1)) :
    ((((c : Thread nD τ).loc cc0_scratch1) ↦{fullShare} f : sProp 𝕄)) ⊣⊢ bigSep Finset.univ (fun j : Fin 15 => slotPts c j f) :=
  BiEntails.of_eq (rcv_split_eq c f)

end Cert.KernelIdeal.Proto

end
-- ==== Proof.Body.lean ====
/-
  One device's body, from its share of the ghost state to the kernel's own cells closed and the result in the output's
  staging buffer: the entry handshake, then per layer the partial product into the accumulator and five exchanges, the
  accumulator copied to the output, and the exit handshake. Each stretch is the lemma for it at this device; what carries from
  one to the next is the accumulator's contents, the slots not yet written, and what the device still owes.
-/
import proofs.«900382_g7700000000000383_dist_mlpseq_tp1d_rep_rep_b64_d512_h1024_v7x_i32_bf16_1_alg».proof.Proof.Step
import proofs.«900382_g7700000000000383_dist_mlpseq_tp1d_rep_rep_b64_d512_h1024_v7x_i32_bf16_1_alg».proof.Proof.Phases
import proofs.«900382_g7700000000000383_dist_mlpseq_tp1d_rep_rep_b64_d512_h1024_v7x_i32_bf16_1_alg».proof.Proof.SlotsSplit
import proofs.«900382_g7700000000000383_dist_mlpseq_tp1d_rep_rep_b64_d512_h1024_v7x_i32_bf16_1_alg».proof.Proof.Gen.KernelIdeal.Points

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev t₀ : Fin cfg0.N := t0_0

/-! ## The accumulator at the layers' boundaries -/

theorem accAt_l0 (c : Dev nD) : accAt m 0 c = k0_pay3 (k0_pay1 (xs m c)) (k0_pay2 (wins m 0 c)) (wouts m 0 c) := rfl
theorem accAt_l1 (c : Dev nD) : accAt m 5 c = k0_pay10 (k0_pay9 (accAfter m 4 c) (wins m 1 c)) (wouts m 1 c) := rfl
theorem accAt_l2 (c : Dev nD) : accAt m 10 c = k0_pay18 (k0_pay16 (accAfter m 9 c) (wins m 2 c)) k0_pay17 (wouts m 2 c) := rfl
theorem outAt_eq (c : Dev nD) : outAt m c = accAfter m 14 c := rfl

/-! ## A staging buffer whole at given contents -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The staging buffers read and written whole -/

abbrev rW1 : Rect S512x1024 := Rect.unit (s := S512x1024) ![0, 0] S512x1024.size inb_S512x1024_S512x1024_0_0
abbrev rW2 : Rect S1024x512 := Rect.unit (s := S1024x512) ![0, 0] S1024x512.size inb_S1024x512_S1024x512_0_0
omit [FloatOps F] in
theorem read_stg0 (f : (cc0_stg0_0 : Ref sig .tc).ty.Contents (Elt F)) :
    (Memref.whole cc0_stg0_0 : Memref sig .tc .vmem S64x512 .f32).view.readAt (Elt F) r0.toLoadRect f = f :=
  Memref.readAt_unit_zero (Elt F) cc0_stg0_0 hz2 _ f
omit [FloatOps F] in
theorem read_stg1 (f : (cc0_stg1_0 : Ref sig .tc).ty.Contents (Elt F)) :
    (Memref.whole cc0_stg1_0 : Memref sig .tc .vmem S512x1024 .f32).view.readAt (Elt F) rW1.toLoadRect f = f :=
  Memref.readAt_unit_zero (Elt F) cc0_stg1_0 hz2 _ f
omit [FloatOps F] in
theorem read_stg2 (f : (cc0_stg2_0 : Ref sig .tc).ty.Contents (Elt F)) :
    (Memref.whole cc0_stg2_0 : Memref sig .tc .vmem S1024x512 .f32).view.readAt (Elt F) rW2.toLoadRect f = f :=
  Memref.readAt_unit_zero (Elt F) cc0_stg2_0 hz2 _ f
omit [FloatOps F] in
theorem read_stg3 (f : (cc0_stg3_0 : Ref sig .tc).ty.Contents (Elt F)) :
    (Memref.whole cc0_stg3_0 : Memref sig .tc .vmem S512x1024 .f32).view.readAt (Elt F) rW1.toLoadRect f = f :=
  Memref.readAt_unit_zero (Elt F) cc0_stg3_0 hz2 _ f
omit [FloatOps F] in
theorem read_stg4 (f : (cc0_stg4_0 : Ref sig .tc).ty.Contents (Elt F)) :
    (Memref.whole cc0_stg4_0 : Memref sig .tc .vmem S1024x512 .f32).view.readAt (Elt F) rW2.toLoadRect f = f :=
  Memref.readAt_unit_zero (Elt F) cc0_stg4_0 hz2 _ f
omit [FloatOps F] in
theorem read_stg5 (f : (cc0_stg5_0 : Ref sig .tc).ty.Contents (Elt F)) :
    (Memref.whole cc0_stg5_0 : Memref sig .tc .vmem S512x1024 .f32).view.readAt (Elt F) rW1.toLoadRect f = f :=
  Memref.readAt_unit_zero (Elt F) cc0_stg5_0 hz2 _ f
omit [FloatOps F] in
theorem read_stg6 (f : (cc0_stg6_0 : Ref sig .tc).ty.Contents (Elt F)) :
    (Memref.whole cc0_stg6_0 : Memref sig .tc .vmem S1024x512 .f32).view.readAt (Elt F) rW2.toLoadRect f = f :=
  Memref.readAt_unit_zero (Elt F) cc0_stg6_0 hz2 _ f
omit [FloatOps F] in
theorem write_stg7 (f w : (cc0_stg7_0 : Ref sig .tc).ty.Contents (Elt F)) :
    ((Memref.whole cc0_stg7_0 : Memref sig .tc .vmem S64x512 .f32).access r0 : View sig .tc _ _ _).write (Elt F) f w Finset.univ = w :=
  Memref.write_access_unit_zero_univ (Elt F) cc0_stg7_0 hz2 _ f w

section Body

variable (K : GSem nD τ sig → ℕ)

def bodyPre (c : Dev nD) : sProp 𝕄 :=
  iprop((ghost m K c ∗ creds c ∗ levAts L lv ∗ (∃ f, accPts c f) ∗ (∃ f, rcvPts c f))
    ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(Φ₁ c ∗ (dats m ρ 0 c).owesAt () t₀.succ
    ∗ stg c cc0_stg0_0 (xs m c)
    ∗ stg c cc0_stg1_0 (wins m 0 c)
    ∗ stg c cc0_stg2_0 (wouts m 0 c)
    ∗ stg c cc0_stg3_0 (wins m 1 c)
    ∗ stg c cc0_stg4_0 (wouts m 1 c)
    ∗ stg c cc0_stg5_0 (wins m 2 c)
    ∗ stg c cc0_stg6_0 (wouts m 2 c)
    ∗ stg c cc0_stg7_0 (outAt m c))

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem toNat1 : (1#32 : BitVec 32).toNat = 1 := rfl
theorem toNat5 : (5#32 : BitVec 32).toNat = 5 := rfl

set_option maxHeartbeats 16000000 in
set_option maxRecDepth 65536 in
/-- The body, from the device's share of the ghost state, one lemma per stretch in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scoped0) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId, toNat1, toNat5]
  unfold bodyPre ghost positions payToks creds
  simp only [bigSep_fin5, bigSep_fin15]
  iintro ⟨⟨⟨⟨#HR, ⟨HaB, HaE, ⟨HaS0, HaS1, HaS2, HaS3, HaS4, HaS5, HaS6, HaS7, HaS8, HaS9, HaS10, HaS11, HaS12, HaS13, HaS14⟩, ⟨HaV0, HaV1, HaV2, HaV3, HaV4, HaV5, HaV6, HaV7, HaV8, HaV9, HaV10, HaV11, HaV12, HaV13, HaV14⟩⟩, ⟨⟨HtB0, HtB1, HtB2, HtB3, HtB4⟩, ⟨HtE0, HtE1, HtE2, HtE3, HtE4⟩, ⟨HtV0, HtV1, HtV2, HtV3, HtV4, HtV5, HtV6, HtV7, HtV8, HtV9, HtV10, HtV11, HtV12, HtV13, HtV14⟩, ⟨HtS0, HtS1, HtS2, HtS3, HtS4, HtS5, HtS6, HtS7, HtS8, HtS9, HtS10, HtS11, HtS12, HtS13, HtS14⟩⟩⟩, ⟨HcB, HcE, ⟨HcV0, HcV1, HcV2, HcV3, HcV4, HcV5, HcV6, HcV7, HcV8, HcV9, HcV10, HcV11, HcV12, HcV13, HcV14⟩⟩, #Hlev, ⟨%fa, Hacc⟩, ⟨%fr, Hrcv⟩⟩,
    Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩, ⟨%d5, %g5, %hg5, Hx5⟩, ⟨%d6, %g6, %hg6, Hx6⟩, ⟨%d7, %g7, %hg7, Hx7⟩⟩, Hk⟩
  have hx0 : g0 = xs m c := by rw [hg0]; unfold Dat.before; rw [if_pos (fetch0_0 t₀)]; rfl
  subst hx0
  have hx1 : g1 = wins m 0 c := by rw [hg1]; unfold Dat.before; rw [if_pos (fetch0_1 t₀)]; rfl
  subst hx1
  have hx2 : g2 = wouts m 0 c := by rw [hg2]; unfold Dat.before; rw [if_pos (fetch0_2 t₀)]; rfl
  subst hx2
  have hx3 : g3 = wins m 1 c := by rw [hg3]; unfold Dat.before; rw [if_pos (fetch0_3 t₀)]; rfl
  subst hx3
  have hx4 : g4 = wouts m 1 c := by rw [hg4]; unfold Dat.before; rw [if_pos (fetch0_4 t₀)]; rfl
  subst hx4
  have hx5 : g5 = wins m 2 c := by rw [hg5]; unfold Dat.before; rw [if_pos (fetch0_5 t₀)]; rfl
  subst hx5
  have hx6 : g6 = wouts m 2 c := by rw [hg6]; unfold Dat.before; rw [if_pos (fetch0_6 t₀)]; rfl
  subst hx6
  unfold Dat.owesAt Pipeline.owesWithin
  icases Ho with ⟨%W, %hW, HO⟩
  rw [show (dats m ρ 0 c).owed t₀.castSucc = owedFrom 0 c from rfl]
  unfold rcvPts
  ihave Hsl := (rcv_split (F := F) c fr).mp $$ Hrcv
  simp only [bigSep_fin15]
  icases Hsl with ⟨Hs0, Hs1, Hs2, Hs3, Hs4, Hs5, Hs6, Hs7, Hs8, Hs9, Hs10, Hs11, Hs12, Hs13, Hs14⟩
  -- the entry signal across bit 0
  iapply (sig_bar m K c _ (0 : Fin 5) (dev1_eq c) W) $$ [HO HtB0 Hs0 Hs5 Hs10]
  · isplitr; · iexact HR
    isplitl [HO]; · iexact HO
    isplitl [HtB0]; · iexact HtB0
    isplitl [Hs0]; · iexists fr; iexact Hs0
    isplitl [Hs5]; · iexists fr; iexact Hs5
    iexists fr; iexact Hs10
  iintro HO
  -- the entry signal across bit 1
  iapply (sig_bar m K c _ (1 : Fin 5) (dev2_eq c) W) $$ [HO HtB1 Hs1 Hs6 Hs11]
  · isplitr; · iexact HR
    isplitl [HO]; · iexact HO
    isplitl [HtB1]; · iexact HtB1
    isplitl [Hs1]; · iexists fr; iexact Hs1
    isplitl [Hs6]; · iexists fr; iexact Hs6
    iexists fr; iexact Hs11
  iintro HO
  -- the entry signal across bit 2
  iapply (sig_bar m K c _ (2 : Fin 5) (dev3_eq c) W) $$ [HO HtB2 Hs2 Hs7 Hs12]
  · isplitr; · iexact HR
    isplitl [HO]; · iexact HO
    isplitl [HtB2]; · iexact HtB2
    isplitl [Hs2]; · iexists fr; iexact Hs2
    isplitl [Hs7]; · iexists fr; iexact Hs7
    iexists fr; iexact Hs12
  iintro HO
  -- the entry signal across bit 3
  iapply (sig_bar m K c _ (3 : Fin 5) (dev4_eq c) W) $$ [HO HtB3 Hs3 Hs8 Hs13]
  · isplitr; · iexact HR
    isplitl [HO]; · iexact HO
    isplitl [HtB3]; · iexact HtB3
    isplitl [Hs3]; · iexists fr; iexact Hs3
    isplitl [Hs8]; · iexists fr; iexact Hs8
    iexists fr; iexact Hs13
  iintro HO
  -- the entry signal across bit 4
  iapply (sig_bar m K c _ (4 : Fin 5) (dev5_eq c) W) $$ [HO HtB4 Hs4 Hs9 Hs14]
  · isplitr; · iexact HR
    isplitl [HO]; · iexact HO
    isplitl [HtB4]; · iexact HtB4
    isplitl [Hs4]; · iexists fr; iexact Hs4
    isplitl [Hs9]; · iexists fr; iexact Hs9
    iexists fr; iexact Hs14
  iintro HO
  -- the entry wait
  iapply (wait_bar m K c W) $$ [HO HcB HaB]
  · isplitr; · iexact HR
    isplitr; · iexact Hlev
    isplitl [HO]; · iexact HO
    isplitl [HcB]; · iexact HcB
    iexact HaB
  iintro ⟨HO, Hpay⟩
  unfold barPay
  simp only [bigSep_fin5, bigSep_fin3]
  icases Hpay with ⟨⟨⟨Hp0, -⟩, ⟨Hp5, -⟩, ⟨Hp10, -⟩⟩, ⟨⟨Hp1, -⟩, ⟨Hp6, -⟩, ⟨Hp11, -⟩⟩, ⟨⟨Hp2, -⟩, ⟨Hp7, -⟩, ⟨Hp12, -⟩⟩, ⟨⟨Hp3, -⟩, ⟨Hp8, -⟩, ⟨Hp13, -⟩⟩, ⟨⟨Hp4, -⟩, ⟨Hp9, -⟩, ⟨Hp14, -⟩⟩⟩
  -- layer 0: the partial product into the accumulator
  iapply (wp_load 𝒱₀ (c : Thread nD τ) none Set.univ (m := (Memref.whole cc0_stg0_0 : Memref sig .tc .vmem _ .f32)) (Finset.subset_univ _)) $$ Hx0; iintro Hx0
  rw [read_stg0]
  iapply (wp_load 𝒱₀ (c : Thread nD τ) none Set.univ (m := (Memref.whole cc0_stg1_0 : Memref sig .tc .vmem _ .f32)) (Finset.subset_univ _)) $$ Hx1; iintro Hx1
  rw [read_stg1]
  iapply (wp_load 𝒱₀ (c : Thread nD τ) none Set.univ (m := (Memref.whole cc0_stg2_0 : Memref sig .tc .vmem _ .f32)) (Finset.subset_univ _)) $$ Hx2; iintro Hx2
  rw [read_stg2]
  ihave Hacc := (Entails.of_eq (accPts_eq (F := F) c fa)) $$ Hacc
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l0 m c]
  ihave Hacc := (Entails.of_eq (accPts_eq (F := F) c _).symm) $$ Hacc
  -- exchange 0
  iapply (step m K c _ (0 : Fin 15) (dev6_eq c) (insert (SemLoc.reg barS, ()) W)) $$ [HO Hacc Hp0 HaS0 HaV0 HtS0 HtV0 HcV0]
  · isplitr; · iexact HR
    isplitr; · iexact Hlev
    isplitl [HO]; · iexact HO
    isplitl [Hacc]; · iexact Hacc
    isplitl [Hp0]; · iexact Hp0
    isplitl [HaS0]; · iexact HaS0
    isplitl [HaV0]; · iexact HaV0
    isplitl [HtS0]; · iexact HtS0
    isplitl [HtV0]; · iexact HtV0
    iexact HcV0
  iintro ⟨HO, Hacc, Hown0, HzS0, HzV0⟩
  -- exchange 1
  iapply (step m K c _ (1 : Fin 15) (dev7_eq c) (insert (SemLoc.dma (recvS (0 : Fin 15)), ()) (insert (SemLoc.dma (sendS (0 : Fin 15)), ()) (insert (SemLoc.reg barS, ()) W)))) $$ [HO Hacc Hp1 HaS1 HaV1 HtS1 HtV1 HcV1]
  · isplitr; · iexact HR
    isplitr; · iexact Hlev
    isplitl [HO]; · iexact HO
    isplitl [Hacc]; · iexact Hacc
    isplitl [Hp1]; · iexact Hp1
    isplitl [HaS1]; · iexact HaS1
    isplitl [HaV1]; · iexact HaV1
    isplitl [HtS1]; · iexact HtS1
    isplitl [HtV1]; · iexact HtV1
    iexact HcV1
  iintro ⟨HO, Hacc, Hown1, HzS1, HzV1⟩
  -- exchange 2
  iapply (step m K c _ (2 : Fin 15) (dev8_eq c) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))) $$ [HO Hacc Hp2 HaS2 HaV2 HtS2 HtV2 HcV2]
  · isplitr; · iexact HR
    isplitr; · iexact Hlev
    isplitl [HO]; · iexact HO
    isplitl [Hacc]; · iexact Hacc
    isplitl [Hp2]; · iexact Hp2
    isplitl [HaS2]; · iexact HaS2
    isplitl [HaV2]; · iexact HaV2
    isplitl [HtS2]; · iexact HtS2
    isplitl [HtV2]; · iexact HtV2
    iexact HcV2
  iintro ⟨HO, Hacc, Hown2, HzS2, HzV2⟩
  -- exchange 3
  iapply (step m K c _ (3 : Fin 15) (dev9_eq c) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))) $$ [HO Hacc Hp3 HaS3 HaV3 HtS3 HtV3 HcV3]
  · isplitr; · iexact HR
    isplitr; · iexact Hlev
    isplitl [HO]; · iexact HO
    isplitl [Hacc]; · iexact Hacc
    isplitl [Hp3]; · iexact Hp3
    isplitl [HaS3]; · iexact HaS3
    isplitl [HaV3]; · iexact HaV3
    isplitl [HtS3]; · iexact HtS3
    isplitl [HtV3]; · iexact HtV3
    iexact HcV3
  iintro ⟨HO, Hacc, Hown3, HzS3, HzV3⟩
  -- exchange 4
  iapply (step m K c _ (4 : Fin 15) (dev10_eq c) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))) $$ [HO Hacc Hp4 HaS4 HaV4 HtS4 HtV4 HcV4]
  · isplitr; · iexact HR
    isplitr; · iexact Hlev
    isplitl [HO]; · iexact HO
    isplitl [Hacc]; · iexact Hacc
    isplitl [Hp4]; · iexact Hp4
    isplitl [HaS4]; · iexact HaS4
    isplitl [HaV4]; · iexact HaV4
    isplitl [HtS4]; · iexact HtS4
    isplitl [HtV4]; · iexact HtV4
    iexact HcV4
  iintro ⟨HO, Hacc, Hown4, HzS4, HzV4⟩
  -- layer 1: the partial product of the all-reduced sum into the accumulator
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg3_0 : Memref sig .tc .vmem _ .f32)) (Finset.subset_univ _)) $$ Hx3; iintro Hx3
  rw [read_stg3]
  iapply (wp_load 𝒱₀ (c : Thread nD τ) none Set.univ (m := (Memref.whole cc0_stg4_0 : Memref sig .tc .vmem _ .f32)) (Finset.subset_univ _)) $$ Hx4; iintro Hx4
  rw [read_stg4]
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l1 m c]
  ihave Hacc := (Entails.of_eq (accPts_eq (F := F) c _).symm) $$ Hacc
  -- exchange 5
  iapply (step m K c _ (5 : Fin 15) (dev11_eq c) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))) $$ [HO Hacc Hp5 HaS5 HaV5 HtS5 HtV5 HcV5]
  · isplitr; · iexact HR
    isplitr; · iexact Hlev
    isplitl [HO]; · iexact HO
    isplitl [Hacc]; · iexact Hacc
    isplitl [Hp5]; · iexact Hp5
    isplitl [HaS5]; · iexact HaS5
    isplitl [HaV5]; · iexact HaV5
    isplitl [HtS5]; · iexact HtS5
    isplitl [HtV5]; · iexact HtV5
    iexact HcV5
  iintro ⟨HO, Hacc, Hown5, HzS5, HzV5⟩
  -- exchange 6
  iapply (step m K c _ (6 : Fin 15) (dev12_eq c) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))) $$ [HO Hacc Hp6 HaS6 HaV6 HtS6 HtV6 HcV6]
  · isplitr; · iexact HR
    isplitr; · iexact Hlev
    isplitl [HO]; · iexact HO
    isplitl [Hacc]; · iexact Hacc
    isplitl [Hp6]; · iexact Hp6
    isplitl [HaS6]; · iexact HaS6
    isplitl [HaV6]; · iexact HaV6
    isplitl [HtS6]; · iexact HtS6
    isplitl [HtV6]; · iexact HtV6
    iexact HcV6
  iintro ⟨HO, Hacc, Hown6, HzS6, HzV6⟩
  -- exchange 7
  iapply (step m K c _ (7 : Fin 15) (dev13_eq c) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))) $$ [HO Hacc Hp7 HaS7 HaV7 HtS7 HtV7 HcV7]
  · isplitr; · iexact HR
    isplitr; · iexact Hlev
    isplitl [HO]; · iexact HO
    isplitl [Hacc]; · iexact Hacc
    isplitl [Hp7]; · iexact Hp7
    isplitl [HaS7]; · iexact HaS7
    isplitl [HaV7]; · iexact HaV7
    isplitl [HtS7]; · iexact HtS7
    isplitl [HtV7]; · iexact HtV7
    iexact HcV7
  iintro ⟨HO, Hacc, Hown7, HzS7, HzV7⟩
  -- exchange 8
  iapply (step m K c _ (8 : Fin 15) (dev14_eq c) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))) $$ [HO Hacc Hp8 HaS8 HaV8 HtS8 HtV8 HcV8]
  · isplitr; · iexact HR
    isplitr; · iexact Hlev
    isplitl [HO]; · iexact HO
    isplitl [Hacc]; · iexact Hacc
    isplitl [Hp8]; · iexact Hp8
    isplitl [HaS8]; · iexact HaS8
    isplitl [HaV8]; · iexact HaV8
    isplitl [HtS8]; · iexact HtS8
    isplitl [HtV8]; · iexact HtV8
    iexact HcV8
  iintro ⟨HO, Hacc, Hown8, HzS8, HzV8⟩
  -- exchange 9
  iapply (step m K c _ (9 : Fin 15) (dev15_eq c) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))) $$ [HO Hacc Hp9 HaS9 HaV9 HtS9 HtV9 HcV9]
  · isplitr; · iexact HR
    isplitr; · iexact Hlev
    isplitl [HO]; · iexact HO
    isplitl [Hacc]; · iexact Hacc
    isplitl [Hp9]; · iexact Hp9
    isplitl [HaS9]; · iexact HaS9
    isplitl [HaV9]; · iexact HaV9
    isplitl [HtS9]; · iexact HtS9
    isplitl [HtV9]; · iexact HtV9
    iexact HcV9
  iintro ⟨HO, Hacc, Hown9, HzS9, HzV9⟩
  -- layer 2: the partial product of the all-reduced sum into the accumulator
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg5_0 : Memref sig .tc .vmem _ .f32)) (Finset.subset_univ _)) $$ Hx5; iintro Hx5
  rw [read_stg5]
  iapply (wp_load 𝒱₀ (c : Thread nD τ) none Set.univ (m := (Memref.whole cc0_stg6_0 : Memref sig .tc .vmem _ .f32)) (Finset.subset_univ _)) $$ Hx6; iintro Hx6
  rw [read_stg6]
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l2 m c]
  ihave Hacc := (Entails.of_eq (accPts_eq (F := F) c _).symm) $$ Hacc
  -- exchange 10
  iapply (step m K c _ (10 : Fin 15) (dev16_eq c) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))) $$ [HO Hacc Hp10 HaS10 HaV10 HtS10 HtV10 HcV10]
  · isplitr; · iexact HR
    isplitr; · iexact Hlev
    isplitl [HO]; · iexact HO
    isplitl [Hacc]; · iexact Hacc
    isplitl [Hp10]; · iexact Hp10
    isplitl [HaS10]; · iexact HaS10
    isplitl [HaV10]; · iexact HaV10
    isplitl [HtS10]; · iexact HtS10
    isplitl [HtV10]; · iexact HtV10
    iexact HcV10
  iintro ⟨HO, Hacc, Hown10, HzS10, HzV10⟩
  -- exchange 11
  iapply (step m K c _ (11 : Fin 15) (dev17_eq c) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))) $$ [HO Hacc Hp11 HaS11 HaV11 HtS11 HtV11 HcV11]
  · isplitr; · iexact HR
    isplitr; · iexact Hlev
    isplitl [HO]; · iexact HO
    isplitl [Hacc]; · iexact Hacc
    isplitl [Hp11]; · iexact Hp11
    isplitl [HaS11]; · iexact HaS11
    isplitl [HaV11]; · iexact HaV11
    isplitl [HtS11]; · iexact HtS11
    isplitl [HtV11]; · iexact HtV11
    iexact HcV11
  iintro ⟨HO, Hacc, Hown11, HzS11, HzV11⟩
  -- exchange 12
  iapply (step m K c _ (12 : Fin 15) (dev18_eq c) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))) $$ [HO Hacc Hp12 HaS12 HaV12 HtS12 HtV12 HcV12]
  · isplitr; · iexact HR
    isplitr; · iexact Hlev
    isplitl [HO]; · iexact HO
    isplitl [Hacc]; · iexact Hacc
    isplitl [Hp12]; · iexact Hp12
    isplitl [HaS12]; · iexact HaS12
    isplitl [HaV12]; · iexact HaV12
    isplitl [HtS12]; · iexact HtS12
    isplitl [HtV12]; · iexact HtV12
    iexact HcV12
  iintro ⟨HO, Hacc, Hown12, HzS12, HzV12⟩
  -- exchange 13
  iapply (step m K c _ (13 : Fin 15) (dev19_eq c) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))) $$ [HO Hacc Hp13 HaS13 HaV13 HtS13 HtV13 HcV13]
  · isplitr; · iexact HR
    isplitr; · iexact Hlev
    isplitl [HO]; · iexact HO
    isplitl [Hacc]; · iexact Hacc
    isplitl [Hp13]; · iexact Hp13
    isplitl [HaS13]; · iexact HaS13
    isplitl [HaV13]; · iexact HaV13
    isplitl [HtS13]; · iexact HtS13
    isplitl [HtV13]; · iexact HtV13
    iexact HcV13
  iintro ⟨HO, Hacc, Hown13, HzS13, HzV13⟩
  -- exchange 14
  iapply (step m K c _ (14 : Fin 15) (dev20_eq c) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))) $$ [HO Hacc Hp14 HaS14 HaV14 HtS14 HtV14 HcV14]
  · isplitr; · iexact HR
    isplitr; · iexact Hlev
    isplitl [HO]; · iexact HO
    isplitl [Hacc]; · iexact Hacc
    isplitl [Hp14]; · iexact Hp14
    isplitl [HaS14]; · iexact HaS14
    isplitl [HaV14]; · iexact HaV14
    isplitl [HtS14]; · iexact HtS14
    isplitl [HtV14]; · iexact HtV14
    iexact HcV14
  iintro ⟨HO, Hacc, Hown14, HzS14, HzV14⟩
  -- the result into the output's staging buffer
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg7_0 : Memref sig .tc .vmem _ .f32)) (Finset.subset_univ _)) $$ Hx7; iintro Hx7
  iapply (wp_store 𝒱₀ (c : Thread nD τ) none Set.univ (m := (Memref.whole cc0_stg7_0 : Memref sig .tc .vmem _ .f32)) (r := r0) (Mk := Finset.univ) (Finset.subset_univ _)) $$ Hx7; iintro Hx7
  rw [write_stg7]
  -- the exit signal across bit 0
  iapply (sig_exit m K c _ (0 : Fin 5) (dev21_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE0]
  · isplitr; · iexact HR
    isplitl [HO]; · iexact HO
    iexact HtE0
  iintro HO
  -- the exit signal across bit 1
  iapply (sig_exit m K c _ (1 : Fin 5) (dev22_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE1]
  · isplitr; · iexact HR
    isplitl [HO]; · iexact HO
    iexact HtE1
  iintro HO
  -- the exit signal across bit 2
  iapply (sig_exit m K c _ (2 : Fin 5) (dev23_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE2]
  · isplitr; · iexact HR
    isplitl [HO]; · iexact HO
    iexact HtE2
  iintro HO
  -- the exit signal across bit 3
  iapply (sig_exit m K c _ (3 : Fin 5) (dev24_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE3]
  · isplitr; · iexact HR
    isplitl [HO]; · iexact HO
    iexact HtE3
  iintro HO
  -- the exit signal across bit 4
  iapply (sig_exit m K c _ (4 : Fin 5) (dev25_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE4]
  · isplitr; · iexact HR
    isplitl [HO]; · iexact HO
    iexact HtE4
  iintro HO
  -- the exit wait
  have h25 : owedFrom (20 + (4 : Fin 5).val + 1) c = 0 := owedFrom_end c
  rw [h25]
  iapply (wait_exit m K c (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HcE HaE]
  · isplitr; · iexact HR
    isplitl [HO]; · iexact HO
    isplitl [HcE]; · iexact HcE
    iexact HaE
  iintro ⟨HO, HzE⟩
  rw [wp_ret]; imodintro
  iapply Hk
  unfold bodyPost Φ₁ ownZero rcvPts Dat.owesAt Pipeline.owesWithin
  rw [show (dats m ρ 0 c).owed t₀.succ = 0 from rfl]
  isplitl [Hacc Hown0 Hown1 Hown2 Hown3 Hown4 Hown5 Hown6 Hown7 Hown8 Hown9 Hown10 Hown11 Hown12 Hown13 Hown14 HzE HzS0 HzS1 HzS2 HzS3 HzS4 HzS5 HzS6 HzS7 HzS8 HzS9 HzS10 HzS11 HzS12 HzS13 HzS14 HzV0 HzV1 HzV2 HzV3 HzV4 HzV5 HzV6 HzV7 HzV8 HzV9 HzV10 HzV11 HzV12 HzV13 HzV14]
  · isplitl [Hacc]
    · iexists (accAfter m 14 c)
      ihave H := (Entails.of_eq (accPts_eq (F := F) c (accAfter m 14 c)).symm) $$ Hacc
      iexact H
    isplitl [Hown0 Hown1 Hown2 Hown3 Hown4 Hown5 Hown6 Hown7 Hown8 Hown9 Hown10 Hown11 Hown12 Hown13 Hown14]
    · iexists (rcvAll m c)
      iapply (rcv_split (F := F) c (rcvAll m c)).mpr
      simp only [bigSep_fin15]
      isplitl [Hown0]; · iexact Hown0
      isplitl [Hown1]; · iexact Hown1
      isplitl [Hown2]; · iexact Hown2
      isplitl [Hown3]; · iexact Hown3
      isplitl [Hown4]; · iexact Hown4
      isplitl [Hown5]; · iexact Hown5
      isplitl [Hown6]; · iexact Hown6
      isplitl [Hown7]; · iexact Hown7
      isplitl [Hown8]; · iexact Hown8
      isplitl [Hown9]; · iexact Hown9
      isplitl [Hown10]; · iexact Hown10
      isplitl [Hown11]; · iexact Hown11
      isplitl [Hown12]; · iexact Hown12
      isplitl [Hown13]; · iexact Hown13
      iexact Hown14
    isplitl [HzE]; · iexact HzE
    simp only [bigSep_fin15]
    isplitl [HzS0 HzS1 HzS2 HzS3 HzS4 HzS5 HzS6 HzS7 HzS8 HzS9 HzS10 HzS11 HzS12 HzS13 HzS14]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      iexact HzS14
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    isplitl [HzV7]; · iexact HzV7
    isplitl [HzV8]; · iexact HzV8
    isplitl [HzV9]; · iexact HzV9
    isplitl [HzV10]; · iexact HzV10
    isplitl [HzV11]; · iexact HzV11
    isplitl [HzV12]; · iexact HzV12
    isplitl [HzV13]; · iexact HzV13
    iexact HzV14
  isplitl [HO]
  · iexists (insert (SemLoc.reg exitS, ()) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W))))))))))))))))))))))))))))))))
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  iexists _; isplitr; · (ipureintro; rfl)
  iexact Hx7

end Body

set_option maxRecDepth 8000 in
def bodyPre' (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxHeartbeats 4000000 in
set_option maxRecDepth 65536 in
/-- The pipeline's body obligation on device `c`, at its one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scoped0) (fun _ => bodyPost m ρ c)
  unfold bodyPre' Φ₀ start
  iintro ⟨⟨⟨⟨%K, Hg⟩, Hcr, Hlev⟩, Hacc, Hrcv⟩, Ho, Hx0, Hx1, Hx2, Hx3, Hx4, Hx5, Hx6, Hx7⟩
  iapply (sound_body m ρ K c fun _ => bodyPost m ρ c)
  unfold bodyPre
  isplitr []
  · isplitl [Hg Hcr Hlev Hacc Hrcv]
    · isplitl [Hg]; · iexact Hg
      isplitl [Hcr]; · iexact Hcr
      isplitl [Hlev]; · iexact Hlev
      isplitl [Hacc]; · iexact Hacc
      iexact Hrcv
    isplitl [Ho]; · iexact Ho
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  · iintro H; iexact H

end Cert.KernelIdeal.Proto

end
-- ==== Proof.LaunchAlloc.lean ====
/-
  The launch of the exchange, first part: the ghost state every device starts from.

  The exchange's cells are, per device, the barrier cell, the exit cell, fifteen send and fifteen receive cells. The launch
  element holds every cell at its launch state and one token per duty; the tokens are minted per OWNER and dealt to the
  PAYERS: duty `k` of a barrier or exit cell to the partner across bit `k`, a receive cell's duty to the partner of its
  exchange. Each device then turns its own cells' counters at zero and round states into the cells' invariants; all the
  invariants together are the records every device holds.
-/
import proofs.«900382_g7700000000000383_dist_mlpseq_tp1d_rep_rep_b64_d512_h1024_v7x_i32_bf16_1_alg».proof.Proof.Ghost

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the exchange's cells, indexed -/

/-- The kernel's own (scoped) semaphores: the exit semaphore, the send and the receive semaphores. -/
abbrev OK : Type := Unit ⊕ (Fin 15 ⊕ Fin 15)
abbrev osem : OK → SemLoc sig
  | .inl _ => .reg exitS
  | .inr (.inl j) => .dma (sendS j)
  | .inr (.inr j) => .dma (recvS j)

/-- All of the exchange's semaphores: the barrier and the own ones. -/
abbrev KX : Type := Unit ⊕ OK
abbrev csem : KX → SemLoc sig
  | .inl _ => .reg barS
  | .inr k => osem k
abbrev kcell (ck : Dev nD × KX) : GSem nD τ sig := ((ck.1 : Thread nD τ), csem ck.2)

theorem send_inj {j j' : Fin 15} (h : sendS j = sendS j') : j = j' := by
  have h' := congrArg Fin.val h
  rw [sendS_val, sendS_val] at h'
  exact Fin.ext (by omega)
theorem recv_inj {j j' : Fin 15} (h : recvS j = recvS j') : j = j' := by
  have h' := congrArg Fin.val h
  rw [recvS_val, recvS_val] at h'
  exact Fin.ext (by omega)
theorem send_ne_recv (j j' : Fin 15) : sendS j ≠ recvS j' := fun h => by
  have h' := congrArg Fin.val h
  rw [sendS_val, recvS_val] at h'
  have := j.isLt
  omega

theorem ownSemFacts : Pipeline.OwnSemFacts cfg0.spec osem := by decide

theorem csem_injective : Function.Injective csem := by
  intro a b h
  rcases a with u | u | j | j <;> rcases b with u' | u' | j' | j'
  all_goals first
    | rfl
    | exact absurd (SemLoc.reg.inj h) barS_ne_exitS
    | exact absurd (SemLoc.reg.inj h).symm barS_ne_exitS
    | exact congrArg (fun j => Sum.inr (Sum.inr (Sum.inl j))) (send_inj (SemLoc.dma.inj h))
    | exact congrArg (fun j => Sum.inr (Sum.inr (Sum.inr j))) (recv_inj (SemLoc.dma.inj h))
    | exact absurd (SemLoc.dma.inj h) (send_ne_recv _ _)
    | exact absurd (SemLoc.dma.inj h).symm (send_ne_recv _ _)
    | cases h

theorem kcell_injective : Function.Injective (kcell : Dev nD × KX → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The exchange's cells are the indexed ones. -/
theorem cells_eq : (cells : Finset (GSem nD τ sig)) = Finset.univ.map ⟨kcell, kcell_injective⟩ := by
  ext g
  rw [Finset.mem_map]
  constructor
  · intro hg
    unfold cells at hg
    rw [Finset.mem_filter] at hg
    obtain ⟨-, htc, hex⟩ := hg
    obtain ⟨⟨d, p⟩, s⟩ := g
    have hp : p = .tc := htc
    subst hp
    cases s with
    | reg s =>
      have hs : s = barS ∨ s = exitS := of_decide_eq_true hex
      rcases hs with rfl | rfl
      · exact ⟨(d, .inl ()), Finset.mem_univ _, rfl⟩
      · exact ⟨(d, .inr (.inl ())), Finset.mem_univ _, rfl⟩
    | dma q =>
      have h8 : 8 ≤ q.val := of_decide_eq_true hex
      have h38 : q.val < 38 := q.isLt
      by_cases h23 : q.val < 23
      · have e : sendS ⟨q.val - 8, by omega⟩ = q := Fin.ext (by rw [sendS_val]; show 8 + (q.val - 8) = q.val; omega)
        exact ⟨(d, .inr (.inr (.inl ⟨q.val - 8, by omega⟩))), Finset.mem_univ _,
          congrArg (fun q' : DmaSem sig => (((d, Proc.tc) : Thread nD τ), SemLoc.dma q')) e⟩
      · have e : recvS ⟨q.val - 23, by omega⟩ = q := Fin.ext (by rw [recvS_val]; show 23 + (q.val - 23) = q.val; omega)
        exact ⟨(d, .inr (.inr (.inr ⟨q.val - 23, by omega⟩))), Finset.mem_univ _,
          congrArg (fun q' : DmaSem sig => (((d, Proc.tc) : Thread nD τ), SemLoc.dma q')) e⟩
  · rintro ⟨⟨c, k⟩, -, rfl⟩
    rcases k with u | u | j | j
    · exact mem_cells_bar c
    · exact mem_cells_exit c
    · exact mem_cells_send c j
    · exact mem_cells_recv c j

omit [FloatOps F] in
theorem bigSep_KX (Φ : KX → sProp 𝕄) :
    bigSep Finset.univ Φ = iprop(Φ (.inl ()) ∗ Φ (.inr (.inl ())) ∗ (bigSep Finset.univ fun j : Fin 15 => Φ (.inr (.inr (.inl j))))
      ∗ (bigSep Finset.univ fun j : Fin 15 => Φ (.inr (.inr (.inr j))))) := by
  rw [bigSep_univ_sum, bigSep_univ_sum, bigSep_univ_sum, bigSep_univ_of_subsingleton (), bigSep_univ_of_subsingleton ()]
  rfl

omit [FloatOps F] in
/-- Over the exchange's cells, device by device. -/
theorem bigSep_cells (Φ : GSem nD τ sig → sProp 𝕄) :
    bigSep cells Φ = bigSep Finset.univ fun c : Dev nD => bigSep Finset.univ fun k : KX => Φ (kcell (c, k)) := by
  rw [cells_eq, bigSep_map, bigSep_univ_prod]; rfl

/-! ## The tokens as minted -/

/-- A device's own cells' duties: the barrier's five, the exit cell's five, each send and each receive cell's one. -/
abbrev TK : Type := (Fin 5 ⊕ Fin 5) ⊕ (Fin 15 ⊕ Fin 15)
abbrev tokOf (ct : Dev nD × TK) : GSem nD τ sig × ℕ × Fin 5 := match ct.2 with
  | .inl (.inl k) => (barCell ct.1, 0, k)
  | .inl (.inr k) => (exitCell ct.1, 0, k)
  | .inr (.inl j) => (sendCell ct.1 j, 0, 0)
  | .inr (.inr j) => (recvCell ct.1 j, 0, 0)
theorem tokOf_injective : Function.Injective (tokOf : Dev nD × TK → GSem nD τ sig × ℕ × Fin 5) := by
  rintro ⟨c, t⟩ ⟨c', t'⟩ h
  have hc : c = c' := by
    have h1 := congrArg (fun x : GSem nD τ sig × ℕ × Fin 5 => x.1.1.1) h
    rcases t with (k | k) | (j | j) <;> rcases t' with (k' | k') | (j' | j') <;> exact h1
  subst hc
  have hs := congrArg (fun x : GSem nD τ sig × ℕ × Fin 5 => x.1.2) h
  have hd := congrArg (fun x : GSem nD τ sig × ℕ × Fin 5 => x.2.2) h
  rcases t with (k | k) | (j | j) <;> rcases t' with (k' | k') | (j' | j')
  all_goals first
    | exact congrArg (fun k : Fin 5 => ((c, Sum.inl (Sum.inl k)) : Dev nD × TK)) hd
    | exact congrArg (fun k : Fin 5 => ((c, Sum.inl (Sum.inr k)) : Dev nD × TK)) hd
    | exact congrArg (fun j : Fin 15 => ((c, Sum.inr (Sum.inl j)) : Dev nD × TK)) (send_inj (SemLoc.dma.inj hs))
    | exact congrArg (fun j : Fin 15 => ((c, Sum.inr (Sum.inr j)) : Dev nD × TK)) (recv_inj (SemLoc.dma.inj hs))
    | exact absurd (SemLoc.reg.inj hs) barS_ne_exitS
    | exact absurd (SemLoc.reg.inj hs).symm barS_ne_exitS
    | exact absurd (SemLoc.dma.inj hs) (send_ne_recv _ _)
    | exact absurd (SemLoc.dma.inj hs).symm (send_ne_recv _ _)
    | cases hs
def allToks : Finset (GSem nD τ sig × ℕ × Fin 5) := Finset.univ.map ⟨tokOf, tokOf_injective⟩

def u₀ : UU :=
  (initOf (Pipeline.cells cfgs cellOf_inj) (Pipeline.launchToks cfgs cellOf_inj), initOf cells allToks)

/-- The duty tokens of device `c`'s own cells. -/
def toks (c : Dev nD) : sProp 𝕄 :=
  iprop(((bigSep Finset.univ fun k : Fin 5 => dutyTok ER (barCell c) 0 k) ∗ (bigSep Finset.univ fun k : Fin 5 => dutyTok ER (exitCell c) 0 k))
    ∗ ((bigSep Finset.univ fun j : Fin 15 => dutyTok ER (sendCell c j) 0 (0 : Fin 5)) ∗ (bigSep Finset.univ fun j : Fin 15 => dutyTok ER (recvCell c j) 0 (0 : Fin 5))))

/-- What the launch element deals device `c`. -/
def G (c : Dev nD) : sProp 𝕄 :=
  iprop((bigSep Finset.univ fun k : KX => roundState ER (sched m) (kcell (c, k)) 0)
    ∗ (bigSep Finset.univ fun k : KX => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf cells allToks)) ⊢ (|==> bigSep Finset.univ (G m) : sProp 𝕄) := by
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum, bigSep_univ_sum]; rfl
  iintro HX
  imod (Rounds.fund ER (sched m) cells allToks) $$ HX with ⟨Hst, Hr, Hat, Htok⟩
  imodintro
  ihave Hst' := (Entails.of_eq (bigSep_cells fun g => roundState ER (sched m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the exit, send and receive counters at zero; -/
theorem ownSems0_eq (c : Dev nD) : (Pipeline.ownSems0 (Ix := Unit) (Name := ℕ) (U := UU) (Lvl := ℕ) (Val := Elt F) (τ := τ) osem c : sProp 𝕄) = ownZero c := by
  unfold Pipeline.ownSems0 ownZero
  rw [bigSep_univ_sum, bigSep_univ_sum, bigSep_univ_of_subsingleton ()]
  rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Device `c`'s exchange counters at zero: the unscoped one and the own ones. -/
theorem sems0_eq (c : Dev nD) :
    (bigSep Finset.univ fun k : KX => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_of_subsingleton ()]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KX => iprop(∃ κ : ℕ, cellInv ER (sched m) κ (kcell (c, k))))
          ∗ (bigSep Finset.univ fun k : KX => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KX => semVal (kcell (c, k)) 0) ∗ bigSep Finset.univ fun k : KX => roundState ER (sched m) (kcell (c, k)) 0)
      ⊢ (|={Set.univ}=> bigSep Finset.univ fun k : KX => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over (device, duty) re-dealt along one permutation of the devices per duty. -/
theorem deal {J : Type} [Fintype J] (f : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (f j c) j :=
  (bigSep_univ_comm Φ).trans ((bigSep_congr fun j _ => bigSep_univ_equiv (f j) (fun c => Φ c j)).trans
    (bigSep_univ_comm (fun c j => Φ (f j c) j)).symm)

omit [FloatOps F] in
/-- The tokens dealt to their payers: duty `k` of a barrier or exit cell across bit `k`, a receive cell's duty to the
    partner of its exchange; a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun k : Fin 5 => peerEquiv k) (fun c k => (dutyTok ER (barCell c) 0 k : sProp 𝕄)),
    deal (fun k : Fin 5 => peerEquiv k) (fun c k => (dutyTok ER (exitCell c) 0 k : sProp 𝕄)),
    deal (fun j : Fin 15 => peerEquiv (stepK j)) (fun c j => (dutyTok ER (recvCell c j) 0 (0 : Fin 5) : sProp 𝕄))]
  iintro ⟨⟨H1, H2⟩, H3, H4⟩
  isplitl [H1]; · iexact H1
  isplitl [H2]; · iexact H2
  isplitl [H4]; · iexact H4
  iexact H3

omit [FloatOps F] in
theorem positions_eq (c : Dev nD) : (bigSep Finset.univ fun k : KX => (atPos ER (kcell (c, k)) 0 ∅ 0 : sProp 𝕄)) = positions c := by
  unfold positions; rw [bigSep_KX]

theorem ghost_intro (K : GSem nD τ sig → ℕ) (c : Dev nD) : iprop(records m K ∗ (positions c ∗ payToks c)) ⊢ G' m c := by
  unfold G' ghost
  iintro ⟨#HR, Hp, Ht⟩
  iexists K
  isplitr; · iexact HR
  isplitl [Hp] <;> iassumption

theorem regroup :
    (bigSep Finset.univ fun c : Dev nD => iprop((bigSep Finset.univ fun k : KX => iprop(∃ κ : ℕ, cellInv ER (sched m) κ (kcell (c, k))))
          ∗ (bigSep Finset.univ fun k : KX => iprop(atPos ER (kcell (c, k)) 0 ∅ 0 ∗ reached ER (kcell (c, k)) 0)) ∗ toks c) : sProp 𝕄)
      ⊢ bigSep Finset.univ (G' m) := by
  rw [bigSep_sep', bigSep_sep', ← bigSep_cells (fun g => iprop(∃ κ : ℕ, cellInv ER (sched m) κ g)),
    bigSep_congr (s := Finset.univ) (fun (c : Dev nD) _ => bigSep_sep' Finset.univ (fun k : KX => (atPos ER (kcell (c, k)) 0 ∅ 0 : sProp 𝕄)) (fun k => reached ER (kcell (c, k)) 0)),
    bigSep_sep', ← bigSep_cells (fun g => (reached ER g 0 : sProp 𝕄))]
  iintro ⟨HI, ⟨Hat, #HR⟩, Htok⟩
  ihave HK := (BI.bigSep_exists_pi cells (fun (g : GSem nD τ sig) (κ : ℕ) => (cellInv ER (sched m) κ g : sProp 𝕄))) $$ HI
  icases HK with ⟨%K, #HI⟩
  ihave Htk := (toks_around (F := F)) $$ Htok
  iapply (BI.bigSep_with_persistent (R := records m K) (Φ := fun c : Dev nD => iprop(positions c ∗ payToks c)) fun c _ => ghost_intro m K c)
  isplitr
  · unfold records; isplitl; · iexact HI
    iexact HR
  · iapply ((Entails.of_eq (bigSep_sep' Finset.univ (fun c : Dev nD => bigSep Finset.univ fun k : KX => (atPos ER (kcell (c, k)) 0 ∅ 0 : sProp 𝕄)) payToks).symm).trans
      (bigSep_mono fun c _ => show iprop((bigSep Finset.univ fun k : KX => (atPos ER (kcell (c, k)) 0 ∅ 0 : sProp 𝕄)) ∗ payToks c) ⊢ iprop(positions c ∗ payToks c) from
        Entails.of_eq (by rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.LaunchCredit.lean ====
/-
  The launch of the exchange, second part: the credit each device is dealt at launch, and the pipeline's own waits.

  Device `d` owes, at launch, one unit to the barrier cell of each partner `peer k d`, a copy's units to receive cell `j` of
  `partner j d`, and one unit to the exit cell of each `peer k d`. Since `peer k` is an involution, what all devices
  together owe device `c`'s barrier cell is one unit per bit: five; likewise its exit cell; and its receive cell `j` one copy.
-/
import proofs.«900382_g7700000000000383_dist_mlpseq_tp1d_rep_rep_b64_d512_h1024_v7x_i32_bf16_1_alg».proof.Proof.Ghost
import Mathlib.Algebra.BigOperators.Intervals

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A sum over `n` consecutive numbers from `a`, by offset. -/
theorem sum_Ico_fin {M : Type} [AddCommMonoid M] (f : ℕ → M) (a n : ℕ) : ∑ e ∈ Finset.Ico a (a + n), f e = ∑ j : Fin n, f (a + j.val) := by
  rw [Finset.sum_Ico_eq_sum_range, Nat.add_sub_cancel_left, Finset.sum_range]

/-- What device `d` owes at launch, by kind of payment: its barrier signals, its copies, its exit signals. -/
theorem owed_split (d : Dev nD) :
    owedFrom 0 d = ((∑ k : Fin 5, tallyAt (barCell (peer k d)) () 1) + ∑ j : Fin 15, tallyAt (recvCell (partner j d) j) () N)
      + ∑ k : Fin 5, tallyAt (exitCell (peer k d)) () 1 := by
  unfold owedFrom
  rw [← Finset.sum_Ico_consecutive _ (show 0 ≤ 20 by omega) (show 20 ≤ 25 by omega),
    ← Finset.sum_Ico_consecutive _ (show 0 ≤ 5 by omega) (show 5 ≤ 20 by omega)]
  have e0 := sum_Ico_fin (fun e => (tallyAt (payCell d e) () (payAmt e) : CellTallies nD τ sig Unit)) 0 5
  have e1 := sum_Ico_fin (fun e => (tallyAt (payCell d e) () (payAmt e) : CellTallies nD τ sig Unit)) 5 15
  have e2 := sum_Ico_fin (fun e => (tallyAt (payCell d e) () (payAmt e) : CellTallies nD τ sig Unit)) 20 5
  refine congrArg₂ (· + ·) (congrArg₂ (· + ·) (e0.trans ?_) (e1.trans ?_)) (e2.trans ?_)
  · exact Finset.sum_congr rfl fun k _ => by
      show tallyAt (payCell d (0 + k.val)) () (payAmt (0 + k.val)) = _
      rw [Nat.zero_add, payCell_bar, payAmt_bar]
  · exact Finset.sum_congr rfl fun j _ => by
      show tallyAt (payCell d (5 + j.val)) () (payAmt (5 + j.val)) = _
      rw [payCell_copy, payAmt_copy]
  · exact Finset.sum_congr rfl fun k _ => by
      show tallyAt (payCell d (20 + k.val)) () (payAmt (20 + k.val)) = _
      rw [payCell_exit, payAmt_exit]

omit [FloatOps F] in
/-- Five one-unit credits on a cell are its five units. -/
theorem five_units (g : GSem nD τ sig) : (bigSep Finset.univ fun _ : Fin 5 => (cred (tallyAt g () 1) : sProp 𝕄)) ⊢ cred (tallyAt g () 5) := by
  rw [← Pipeline.cred_finsetSum, Fin.sum_univ_five, tallyAt_add, tallyAt_add, tallyAt_add, tallyAt_add]

omit [FloatOps F] in
/-- The launch credit of device `c`: one unit on its barrier cell from each partner, a copy on each receive cell from that
    exchange's partner, one unit on its exit cell from each partner. -/
theorem creds_intro (c : Dev nD) : (Pipeline.launchCred (owedFrom 0) c : sProp 𝕄) ⊢ creds c := by
  have e : (owedFrom 0 : Dev nD → CellTallies nD τ sig Unit)
      = fun d => ((∑ k : Fin 5, tallyAt (barCell (peer k d)) () 1) + ∑ j : Fin 15, tallyAt (recvCell (partner j d) j) () N)
        + ∑ k : Fin 5, tallyAt (exitCell (peer k d)) () 1 := funext owed_split
  have hB : (bigSep Finset.univ fun k : Fin 5 => Pipeline.launchCred (fun d => tallyAt (barCell (peer k d)) () 1) c : sProp 𝕄)
      ⊢ bigSep Finset.univ fun _ : Fin 5 => cred (tallyAt (barCell c) () 1) :=
    bigSep_mono fun k _ => Pipeline.launchCred_tallyAt (.reg barS) (peer k) (peer k) (peer_peer k) (peer_peer k) () 1 c
  have hE : (bigSep Finset.univ fun k : Fin 5 => Pipeline.launchCred (fun d => tallyAt (exitCell (peer k d)) () 1) c : sProp 𝕄)
      ⊢ bigSep Finset.univ fun _ : Fin 5 => cred (tallyAt (exitCell c) () 1) :=
    bigSep_mono fun k _ => Pipeline.launchCred_tallyAt (.reg exitS) (peer k) (peer k) (peer_peer k) (peer_peer k) () 1 c
  have hR : (bigSep Finset.univ fun j : Fin 15 => Pipeline.launchCred (fun d => tallyAt (recvCell (partner j d) j) () N) c : sProp 𝕄)
      ⊢ bigSep Finset.univ fun j : Fin 15 => cred (tallyAt (recvCell c j) () N) :=
    bigSep_mono fun j _ => Pipeline.launchCred_tallyAt (.dma (recvS j)) (partner j) (partner j) (partner_partner j) (partner_partner j) () N c
  rw [e,
    Pipeline.launchCred_add (fun d => (∑ k : Fin 5, tallyAt (barCell (peer k d)) () 1) + ∑ j : Fin 15, tallyAt (recvCell (partner j d) j) () N)
      (fun d => ∑ k : Fin 5, tallyAt (exitCell (peer k d)) () 1) c,
    Pipeline.launchCred_add (fun d => ∑ k : Fin 5, tallyAt (barCell (peer k d)) () 1) (fun d => ∑ j : Fin 15, tallyAt (recvCell (partner j d) j) () N) c,
    Pipeline.launchCred_sum Finset.univ (fun (k : Fin 5) d => (tallyAt (barCell (peer k d)) () 1 : CellTallies nD τ sig Unit)) c,
    Pipeline.launchCred_sum Finset.univ (fun (j : Fin 15) d => (tallyAt (recvCell (partner j d) j) () N : CellTallies nD τ sig Unit)) c,
    Pipeline.launchCred_sum Finset.univ (fun (k : Fin 5) d => (tallyAt (exitCell (peer k d)) () 1 : CellTallies nD τ sig Unit)) c]
  unfold creds
  iintro ⟨⟨HB, HR⟩, HE⟩
  isplitl [HB]
  · iapply (five_units (F := F) (barCell c)); iapply hB; iexact HB
  isplitl [HE]
  · iapply (five_units (F := F) (exitCell c)); iapply hE; iexact HE
  iapply hR; iexact HR

/-- A staging semaphore may be waited on while owing everything, or nothing: every payment goes to a cell above level 0. -/
theorem mayWait_stage (c : Dev nD) (q : DmaSem sig) (hq : q.val < 8) (O : CellTallies nD τ sig Unit) (hO : O = owedFrom 0 c ∨ O = 0) :
    (levAts L lv : sProp 𝕄) ⊢ MayWait (c : Thread nD τ) (.dma q) () O := by
  rcases hO with rfl | rfl
  · refine mayWait_from c 0 (.dma q) fun e _ he => ?_
    have h0 : lvS (.dma q) = 0 := by
      show (if 23 ≤ q.val then q.val - 23 + 2 else 0) = 0
      rw [if_neg (by omega)]
    rw [h0, lv_payCell c e he]
    split_ifs <;> omega
  · rw [MayWait_zero]; iintro -; iempintro

end Cert.KernelIdeal.Proto

end
-- ==== Proof.Launch.lean ====
/-
  The launch of the exchange, last part: the launch theorem's side conditions and the run of the whole program.
-/
import proofs.«900382_g7700000000000383_dist_mlpseq_tp1d_rep_rep_b64_d512_h1024_v7x_i32_bf16_1_alg».proof.Proof.LaunchAlloc
import proofs.«900382_g7700000000000383_dist_mlpseq_tp1d_rep_rep_b64_d512_h1024_v7x_i32_bf16_1_alg».proof.Proof.LaunchCredit
import proofs.«900382_g7700000000000383_dist_mlpseq_tp1d_rep_rep_b64_d512_h1024_v7x_i32_bf16_1_alg».proof.Proof.Gen.KernelIdeal.Points

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedFrom 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Ha⟩, ⟨%g, Hr⟩⟩
  isplitl [Hs]; · iexact Hs
  isplitl [Ha]
  · iexists f; rw [accPts_eq]; iexact Ha
  · iexists g; unfold rcvPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Ha⟩, ⟨%g, Hr⟩, Hz⟩
  isplitr; · iempintro
  isplitl [Hz]; · iexact Hz
  isplitl [Ha]
  · iexists f; rw [← accPts_eq]; iexact Ha
  · iexists g; unfold rcvPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given the body
    obligation on every device, every weakly fair execution of the program terminates, and every final state has each
    device's arrays at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := owedFrom 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_in (c : Dev nD) (w : Fin cfg0.W) (hw : w.val < 7) :
    finalA m ρ c w = (s₀ m ρ).mem ((cfg0.win w).arr.view.loc (c : Thread nD τ)) :=
  (dats (F := F) m ρ 0 c).arrAt_in w (by fin_cases w <;> first | rfl | exact absurd hw (by decide)) _

/-- The output array after the run is the body's result block: its one block is the whole array, written back at the one point. -/
theorem finalA_out (c : Dev nD) : finalA m ρ c (7 : Fin 8) = outAt m c := by
  have h := (dats (F := F) m ρ 0 c).arrAt_succ (7 : Fin 8) t0_0
  rw [if_pos (flush0_7 t0_0)] at h
  refine (show finalA m ρ c (7 : Fin 8) = (dats m ρ 0 c).arrAt (7 : Fin 8) (t0_0.val + 1) from rfl).trans (h.trans ?_)
  exact Memref.write_access_unit_zero_univ (Elt F) main_v1 (funext fun a => Nat.zero_mul _) _ _ _

end Cert.KernelIdeal.Proto

end
-- ==== Proof.Run.lean ====
/-
  The kernel's run with every device's result named: from any memory with every counter at zero, every weakly fair
  execution of the thirty-two devices' programs terminates without a fault, each device's result array holding the
  all-reduced three-layer value of the devices' argument blocks, each argument array what it held.
-/
import proofs.«900382_g7700000000000383_dist_mlpseq_tp1d_rep_rep_b64_d512_h1024_v7x_i32_bf16_1_alg».proof.Proof.Body
import proofs.«900382_g7700000000000383_dist_mlpseq_tp1d_rep_rep_b64_d512_h1024_v7x_i32_bf16_1_alg».proof.Proof.Launch

noncomputable section

namespace Cert.KernelIdeal.Proto

open Cert.KernelIdeal Cert.KernelIdeal.Gen Cert.KernelIdeal.Spec
open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxRecDepth 8000 in
theorem kernel_run :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := F)) _ _).mono (fun r h c =>
    ⟨(h c (7 : Fin 8)).trans (finalA_out m ρ c),
     (h c (0 : Fin 8)).trans (finalA_in m ρ c (0 : Fin 8) (by decide)),
     (h c (1 : Fin 8)).trans (finalA_in m ρ c (1 : Fin 8) (by decide)),
     (h c (2 : Fin 8)).trans (finalA_in m ρ c (2 : Fin 8) (by decide)),
     (h c (3 : Fin 8)).trans (finalA_in m ρ c (3 : Fin 8) (by decide)),
     (h c (4 : Fin 8)).trans (finalA_in m ρ c (4 : Fin 8) (by decide)),
     (h c (5 : Fin 8)).trans (finalA_in m ρ c (5 : Fin 8) (by decide)),
     (h c (6 : Fin 8)).trans (finalA_in m ρ c (6 : Fin 8) (by decide))⟩)
    (run_main m ρ (body_obligation m ρ))

end Cert.KernelIdeal.Proto

end
-- ==== Proof.Bits.Spec.lean ====
/-
  The values the butterfly all-reduce passes around, as pure functions of the devices' argument blocks.

  Thirty-two devices; device `c` holds the whole input `x c` and, per layer `l`, its column block `win l c` of the first
  weight and its row block `wout l c` of the second. A layer computes on each device the partial product
  `relu (inp · win) · wout` of its own blocks; five exchange steps follow, at step `k` device `c` adding to its accumulator
  the accumulator of the device whose index differs from `c` in bit `k`. After step `k` a device holds the sum over the
  `2^(k+1)` devices agreeing with it above bit `k`; after the fifth, the sum over all devices, which is the next layer's input.
-/
import proofs.«900382_g7700000000000383_dist_mlpseq_tp1d_rep_rep_b64_d512_h1024_v7x_i32_bf16_1_alg».proof.Proof.Gen.Kernel
import proofs.«900382_g7700000000000383_dist_mlpseq_tp1d_rep_rep_b64_d512_h1024_v7x_i32_bf16_1_alg».proof.Proof.Gen.Kernel.Skeleton

noncomputable section

namespace Cert.Kernel.Spec

open Idealize.ShloMosaic Idealize.SL.Sem Cert.Kernel Cert.Kernel.Gen

variable {F : FTy → Type} [FloatOps F]

/-- The device whose index differs from `c`'s in bit `k` exactly. -/
def peer (k : Fin 5) (c : Dev nD) : Dev nD := ⟨(c.val ^^^ 2 ^ k.val) % 32, Nat.mod_lt _ (by decide)⟩

theorem peer_peer : ∀ (k : Fin 5) (c : Dev nD), peer k (peer k c) = c := by decide +kernel
theorem peer_ne : ∀ (k : Fin 5) (c : Dev nD), peer k c ≠ c := by decide +kernel
theorem peer_inj_k : ∀ (k k' : Fin 5) (c : Dev nD), peer k c = peer k' c → k = k' := by decide +kernel

/-- Flipping bit `k` is an involution of the devices. -/
def peerEquiv (k : Fin 5) : Dev nD ≃ Dev nD := ⟨peer k, peer k, peer_peer k, peer_peer k⟩

/-- A [64, 512] block seen as the [1, 1, 64, 512] piece a receive slot is read as. -/
def up (v : Vec F S64x512 .f32) : Vec F S1x1x64x512 .f32 := fun i => v (fun a => match a with | ⟨0, _⟩ => ⟨(i 2).val, (i 2).isLt⟩ | ⟨1, _⟩ => ⟨(i 3).val, (i 3).isLt⟩)

/-- One exchange step's sum: the accumulator plus the received block. -/
def addStep (a : Vec F S64x512 .f32) (b : Vec F S1x1x64x512 .f32) : FVec F S64x512 .f32 := k0_pay4 a b

section Values

variable (x : Dev nD → Vec F S64x512 .f32) (win : Fin 3 → Dev nD → Vec F S512x1024 .f32) (wout : Fin 3 → Dev nD → Vec F S1024x512 .f32)

/-- A layer's partial product on one device, from the layer's input there. -/
def part (l : Fin 3) (inp : Vec F S64x512 .f32) (c : Dev nD) : Vec F S64x512 .f32 :=
  match l with
  | ⟨0, _⟩ => k0_pay3 (k0_pay1 inp) (k0_pay2 (win 0 c)) (wout 0 c)
  | ⟨1, _⟩ => k0_pay10 (k0_pay9 inp (win 1 c)) (wout 1 c)
  | ⟨_ + 2, _⟩ => k0_pay18 (k0_pay16 inp (win 2 c)) k0_pay17 (wout 2 c)

/-- The accumulators after `k` exchange steps, from the accumulators before the first. -/
def fold (p : Dev nD → Vec F S64x512 .f32) : (k : ℕ) → Dev nD → Vec F S64x512 .f32
  | 0 => p
  | k + 1 => fun c => if h : k < 5 then addStep (fold p k c) (up (fold p k (peer ⟨k, h⟩ c))) else fold p k c

/-- Each device's input to layer `l`: the argument, then the previous layer's all-reduced sum. -/
def layerIn : (l : ℕ) → Dev nD → Vec F S64x512 .f32
  | 0 => x
  | l + 1 => fun c => if h : l < 3 then fold (fun d => part win wout ⟨l, h⟩ (layerIn l d) d) 5 c else layerIn l c

/-- The accumulator of device `c` in layer `l` after `k` of its exchange steps. -/
def acc (l : Fin 3) (k : ℕ) (c : Dev nD) : Vec F S64x512 .f32 := fold (fun d => part win wout l (layerIn x win wout l.val d) d) k c

/-- The result on device `c`. -/
def result (c : Dev nD) : Vec F S64x512 .f32 := acc x win wout 2 5 c

theorem acc_zero (l : Fin 3) (c : Dev nD) : acc x win wout l 0 c = part win wout l (layerIn x win wout l.val c) c := rfl

theorem acc_succ (l : Fin 3) (k : Fin 5) (c : Dev nD) :
    acc x win wout l (k.val + 1) c = addStep (acc x win wout l k.val c) (up (acc x win wout l k.val (peer k c))) := by
  unfold acc
  show (if h : k.val < 5 then _ else _) = _
  rw [dif_pos k.isLt]

theorem layerIn_succ (l : Fin 3) (c : Dev nD) : layerIn x win wout (l.val + 1) c = acc x win wout l 5 c := by
  unfold acc
  show (if h : l.val < 3 then _ else _) = _
  rw [dif_pos l.isLt]

end Values

end Cert.Kernel.Spec

end
-- ==== Proof.Bits.Cells.lean ====
/-
  The cells and buffers of the exchange: per device the runtime's barrier semaphore, the exit semaphore, fifteen send and
  fifteen receive semaphores (one pair per layer and step), the accumulator and the fifteen receive slots.

  Exchange `j = 5·l + k` (layer `l`, step `k`) copies the sender's accumulator into slot `(l, k)` of the receive buffer of
  the device across bit `k`, crediting the sender's send semaphore `j` and the receiver's receive semaphore `j`. A slot is
  written once; after all exchanges a device's receive buffer holds, at slot `(l, k)`, the accumulator its partner across
  bit `k` had in layer `l` after `k` steps: ONE function of the buffer's index, stated here once (`rcvAll`).
-/
import proofs.«900382_g7700000000000383_dist_mlpseq_tp1d_rep_rep_b64_d512_h1024_v7x_i32_bf16_1_alg».proof.Proof.Bits.Spec
import proofs.«900382_g7700000000000383_dist_mlpseq_tp1d_rep_rep_b64_d512_h1024_v7x_i32_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the exchange's (duties named by a bit, `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Exchanges, layers, steps -/

/-- The step (bit) of exchange `j`. -/
def stepK (j : Fin 15) : Fin 5 := ⟨j.val % 5, Nat.mod_lt _ (by decide)⟩
/-- The layer of exchange `j`. -/
def stepL (j : Fin 15) : Fin 3 := ⟨j.val / 5, by have := j.isLt; omega⟩
/-- The partner of `c` in exchange `j`. -/
def partner (j : Fin 15) (c : Dev nD) : Dev nD := peer (stepK j) c

theorem partner_partner (j : Fin 15) (c : Dev nD) : partner j (partner j c) = c := peer_peer _ _

/-! ## The memrefs and cells -/

abbrev accM : Memref sig .tc .vmem S64x512 .f32 := Memref.whole cc0_scratch0
abbrev rcvM : Memref sig .tc .vmem S3x5x64x512 .f32 := Memref.whole cc0_scratch1

theorem slot_inb (j : Fin 15) : ∀ a, (![j.val / 5, j.val % 5, 0, 0] : Fin 4 → Nat) a + S1x1x64x512.size a ≤ S3x5x64x512.size a := by
  have := j.isLt
  intro a
  match a with
  | ⟨0, _⟩ => show j.val / 5 + 1 ≤ 3; omega
  | ⟨1, _⟩ => show j.val % 5 + 1 ≤ 5; omega
  | ⟨2, _⟩ => show 0 + 64 ≤ 64; omega
  | ⟨3, _⟩ => show 0 + 512 ≤ 512; omega

theorem sem_inb (j : Fin 15) : ∀ a, (![j.val / 5, j.val % 5] : Fin 2 → Nat) a + S1x1.size a ≤ S3x5.size a := by
  have := j.isLt
  intro a
  match a with
  | ⟨0, _⟩ => show j.val / 5 + 1 ≤ 3; omega
  | ⟨1, _⟩ => show j.val % 5 + 1 ≤ 5; omega

/-- The rectangle of slot `j` in the receive buffer. -/
abbrev slotRect (j : Fin 15) : Rect S3x5x64x512 := Rect.unit (s := S3x5x64x512) ![j.val / 5, j.val % 5, 0, 0] S1x1x64x512.size (slot_inb j)
/-- Slot `j` as the [64, 512] memref a copy lands in. -/
abbrev slotM (j : Fin 15) : Memref sig .tc .vmem S64x512 .f32 :=
  ((rcvM : Memref sig .tc .vmem S3x5x64x512 .f32).slice (slotRect j) (fun _ => rfl)).squeeze S64x512 squeezes_S1x1x64x512_S64x512

abbrev barS : Sem sig := (SemArray.scalar (sig.barrier 0 rfl) : Sems sig S_).sem
abbrev exitS : Sem sig := (cc0_scoped0 : Sems sig S_).sem
abbrev sendS (j : Fin 15) : DmaSem sig :=
  (((cc0_scratch2 : DmaSems sig S3x5).slice (Rect.unit (s := S3x5) ![j.val / 5, j.val % 5] S1x1.size (sem_inb j))).squeeze S_ squeezes_S1x1_S_).sem
abbrev recvS (j : Fin 15) : DmaSem sig :=
  (((cc0_scratch3 : DmaSems sig S3x5).slice (Rect.unit (s := S3x5) ![j.val / 5, j.val % 5] S1x1.size (sem_inb j))).squeeze S_ squeezes_S1x1_S_).sem

theorem sendS_val : ∀ j : Fin 15, (sendS j).val = 8 + j.val := by decide +kernel
theorem recvS_val : ∀ j : Fin 15, (recvS j).val = 23 + j.val := by decide +kernel
theorem barS_ne_exitS : barS ≠ exitS := by decide

abbrev barCell (c : Dev nD) : GSem nD τ sig := ((c : Thread nD τ), .reg barS)
abbrev exitCell (c : Dev nD) : GSem nD τ sig := ((c : Thread nD τ), .reg exitS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The units one [64, 512] copy credits. -/
abbrev N : ℕ := (accM : Memref sig .tc .vmem S64x512 .f32).view.dmaCredit
theorem N_pos : 0 < N := View.dmaCredit_pos _ (by decide)
theorem slot_credit (j : Fin 15) : (slotM j : Memref sig .tc .vmem S64x512 .f32).view.dmaCredit = N := rfl

/-! ## Contents -/

/-- Device `c`'s argument blocks as the kernel's staging buffers hold them. -/
def xs (c : Dev nD) : Vec F S64x512 .f32 := (win0_0.blk (0 : Fin 1)).view.read (Elt F) (m ((c : Thread nD τ).loc main_arg0))
def wins (l : Fin 3) (c : Dev nD) : Vec F S512x1024 .f32 :=
  match l with
  | ⟨0, _⟩ => (win0_1.blk (0 : Fin 1)).view.read (Elt F) (m ((c : Thread nD τ).loc main_arg1))
  | ⟨1, _⟩ => (win0_3.blk (0 : Fin 1)).view.read (Elt F) (m ((c : Thread nD τ).loc main_arg3))
  | ⟨_ + 2, _⟩ => (win0_5.blk (0 : Fin 1)).view.read (Elt F) (m ((c : Thread nD τ).loc main_arg5))
def wouts (l : Fin 3) (c : Dev nD) : Vec F S1024x512 .f32 :=
  match l with
  | ⟨0, _⟩ => (win0_2.blk (0 : Fin 1)).view.read (Elt F) (m ((c : Thread nD τ).loc main_arg2))
  | ⟨1, _⟩ => (win0_4.blk (0 : Fin 1)).view.read (Elt F) (m ((c : Thread nD τ).loc main_arg4))
  | ⟨_ + 2, _⟩ => (win0_6.blk (0 : Fin 1)).view.read (Elt F) (m ((c : Thread nD τ).loc main_arg6))

/-- Device `c`'s accumulator when exchange `j` starts: in layer `stepL j`, after `stepK j` steps. -/
def accAt (j : Fin 15) (c : Dev nD) : Vec F S64x512 .f32 := acc (xs m) (wins m) (wouts m) (stepL j) (stepK j).val c
/-- Device `c`'s accumulator when exchange `j` is done. -/
def accAfter (j : Fin 15) (c : Dev nD) : Vec F S64x512 .f32 := acc (xs m) (wins m) (wouts m) (stepL j) ((stepK j).val + 1) c
/-- The kernel's result on device `c`. -/
def outAt (c : Dev nD) : Vec F S64x512 .f32 := result (xs m) (wins m) (wouts m) c

theorem accAfter_eq (j : Fin 15) (c : Dev nD) : accAfter m j c = addStep (accAt m j c) (up (accAt m j (partner j c))) :=
  acc_succ (xs m) (wins m) (wouts m) (stepL j) (stepK j) c

/-- The exchange an index of the receive buffer belongs to. -/
def slotOf (i : S3x5x64x512.Idx) : Fin 15 := ⟨5 * (i 0).val + (i 1).val, by
  have h0 : (i 0).val < 3 := (i 0).isLt
  have h1 : (i 1).val < 5 := (i 1).isLt
  omega⟩
/-- An index of the receive buffer inside its slot. -/
def inSlot (i : S3x5x64x512.Idx) : S64x512.Idx := fun a => match a with | ⟨0, _⟩ => ⟨(i 2).val, (i 2).isLt⟩ | ⟨1, _⟩ => ⟨(i 3).val, (i 3).isLt⟩

/-- What device `c`'s receive buffer holds once every exchange has landed: slot `j` the accumulator its partner had when
    exchange `j` started. ONE function of the buffer's index. -/
def rcvAll (c : Dev nD) : (cc0_scratch1 : Ref sig .tc).ty.Contents (Elt F) := fun i => accAt m (slotOf i) (partner (slotOf i) c) (inSlot i)

/-! ## The buffers as assertions -/

/-- Device `c`'s accumulator at contents `f`. -/
def accPts (c : Dev nD) (f : Buf (Elt F) ((accM : Memref sig .tc .vmem S64x512 .f32).view.loc (c : Thread nD τ))) : sProp 𝕄 :=
  (accM : Memref sig .tc .vmem S64x512 .f32).view.loc (c : Thread nD τ) ↦[(accM : Memref sig .tc .vmem S64x512 .f32).view.set]{fullShare} f
/-- Slot `j` of device `c`'s receive buffer, the buffer's contents `f` there. -/
def slotPts (c : Dev nD) (j : Fin 15) (f : Buf (Elt F) ((slotM j : Memref sig .tc .vmem S64x512 .f32).view.loc (c : Thread nD τ))) : sProp 𝕄 :=
  (slotM j : Memref sig .tc .vmem S64x512 .f32).view.loc (c : Thread nD τ) ↦[(slotM j : Memref sig .tc .vmem S64x512 .f32).view.set]{fullShare} f

omit [FloatOps F] in
instance accPts_storable (c : Dev nD) (f) : BI.Storable (upEmb : UEmb _ 𝕄) (accPts (F := F) c f) := by unfold accPts; infer_instance
omit [FloatOps F] in
instance slotPts_storable (c : Dev nD) (j : Fin 15) (f) : BI.Storable (upEmb : UEmb _ 𝕄) (slotPts (F := F) c j f) := by unfold slotPts; infer_instance

omit [FloatOps F] in
theorem accPts_eq (c : Dev nD) (f : Buf (Elt F) ((c : Thread nD τ).loc cc0_scratch0)) :
    accPts c f = (((c : Thread nD τ).loc cc0_scratch0) ↦{fullShare} f : sProp 𝕄) := by unfold accPts; rw [View.set_whole]

end Cert.Kernel.Proto

end
-- ==== Proof.Bits.Sched.lean ====
/-
  The schedule of the exchange under the rounds discipline, what each device owes, and the levels.

  Every cell has ONE round. A barrier cell and an exit cell have five duties, duty `k` paid by the partner across bit `k`
  with one unit; the barrier's duty `k` hands the owner its partner's three receive slots of step `k` (one per layer) and
  that the partner's three receive cells of step `k` are at their round: what the owner's copies into them need. A send cell
  has one duty, paid when the accumulator has been read out, handing the accumulator back; a receive cell one duty, paid by
  the partner's copy, handing the slot at the partner's accumulator.

  A device pays, in program order: its five barrier signals; its fifteen copies; its five exit signals. It waits on its
  barrier while owing the copies and exit signals, on receive cell `j` while owing the later copies and the exit signals, on
  the exit cell owing nothing: the levels put the barrier below every receive cell, receive cell `j` below `j + 1`, and all of
  them below the exit cell.
-/
import proofs.«900382_g7700000000000383_dist_mlpseq_tp1d_rep_rep_b64_d512_h1024_v7x_i32_bf16_1_alg».proof.Proof.Bits.Cells
import Mathlib.Algebra.Order.BigOperators.Group.LocallyFinite

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Exchange `5·l + k`. -/
def exch (l : Fin 3) (k : Fin 5) : Fin 15 := ⟨5 * l.val + k.val, by have := l.isLt; have := k.isLt; omega⟩

theorem stepK_exch (l : Fin 3) (k : Fin 5) : stepK (exch l k) = k := by
  apply Fin.ext; show (5 * l.val + k.val) % 5 = k.val; have := k.isLt; omega
theorem stepL_exch (l : Fin 3) (k : Fin 5) : stepL (exch l k) = l := by
  apply Fin.ext; show (5 * l.val + k.val) / 5 = l.val; have := k.isLt; omega

/-! ## Payloads -/

/-- What the partner across bit `k` hands device `c` with its barrier signal: its three receive slots of step `k` and
    that its three receive cells of step `k` have reached their round. -/
def barPay (c : Dev nD) (k : Fin 5) : sProp 𝕄 :=
  bigSep Finset.univ fun l : Fin 3 => iprop((∃ f, slotPts (peer k c) (exch l k) f) ∗ reached ER (recvCell (peer k c) (exch l k)) 0)
def recvPay (c : Dev nD) (j : Fin 15) : sProp 𝕄 := slotPts c j (rcvAll m c)
def sendPay (c : Dev nD) (j : Fin 15) : sProp 𝕄 := accPts c (accAt m j c)

/-- The duties of a cell, by its semaphore. -/
def cellDuties : SemLoc sig → Finset (Fin 5)
  | .reg s => if s = barS ∨ s = exitS then Finset.univ else ∅
  | .dma q => if 8 ≤ q.val then {0} else ∅

/-- A duty's payload, by the owner and the cell's semaphore. -/
def cellPay (c : Dev nD) : SemLoc sig → Fin 5 → sProp 𝕄
  | .reg s, d => if s = barS then barPay c d else iprop(emp)
  | .dma q, _ =>
    if h : 23 ≤ q.val then recvPay m c ⟨q.val - 23, by have : q.val < 38 := q.isLt; omega⟩
    else if h8 : 8 ≤ q.val then sendPay m c ⟨q.val - 8, by have : q.val < 38 := q.isLt; omega⟩
    else iprop(emp)

def cellAmount : SemLoc sig → ℕ
  | .reg _ => 1
  | .dma _ => N

theorem cellAmount_pos (s : SemLoc sig) : 0 < cellAmount s := by
  cases s with
  | reg _ => exact Nat.one_pos
  | dma _ => exact N_pos

/-- One round, round 0, on the TensorCores' cells. -/
def sched : Rounds.Schedule (GSem nD τ sig) (Fin 5) 𝕄 where
  duties g r := if r = 0 ∧ g.1.2 = .tc then cellDuties g.2 else ∅
  unitless _ := False
  amount g _ _ := cellAmount g.2
  payload g _ d := cellPay m g.1.1 g.2 d
  amount_pos g _ _ _ := cellAmount_pos g.2

instance sched_payload_storable (g : GSem nD τ sig) (r : ℕ) (d : Fin 5) :
    BI.Storable (upEmb : UEmb _ 𝕄) ((sched (F := F) m).payload g r d) := by
  show BI.Storable upEmb (cellPay m g.1.1 g.2 d)
  unfold cellPay
  split
  · unfold barPay; split <;> infer_instance
  · unfold recvPay sendPay; (repeat' split) <;> infer_instance

section Tables
variable (c : Dev nD) (j : Fin 15) (k : Fin 5)

theorem duties_bar : (sched (F := F) m).duties (barCell c) 0 = Finset.univ := by
  dsimp only [sched]; rw [if_pos ⟨rfl, rfl⟩]
  show (if barS = barS ∨ barS = exitS then (Finset.univ : Finset (Fin 5)) else ∅) = Finset.univ
  exact if_pos (Or.inl rfl)
theorem duties_exit : (sched (F := F) m).duties (exitCell c) 0 = Finset.univ := by
  dsimp only [sched]; rw [if_pos ⟨rfl, rfl⟩]
  show (if exitS = barS ∨ exitS = exitS then (Finset.univ : Finset (Fin 5)) else ∅) = Finset.univ
  exact if_pos (Or.inr rfl)
theorem duties_send : (sched (F := F) m).duties (sendCell c j) 0 = {0} := by
  dsimp only [sched]; rw [if_pos ⟨rfl, rfl⟩]; exact if_pos (by rw [sendS_val]; omega)
theorem duties_recv : (sched (F := F) m).duties (recvCell c j) 0 = {0} := by
  dsimp only [sched]; rw [if_pos ⟨rfl, rfl⟩]; exact if_pos (by rw [recvS_val]; omega)
theorem duties_later (g : GSem nD τ sig) : ∀ r, 1 ≤ r → (sched (F := F) m).duties g r = ∅ :=
  fun r hr => by dsimp only [sched]; rw [if_neg fun h => by omega]

theorem amount_bar (d : Fin 5) : (sched (F := F) m).amount (barCell c) 0 d = 1 := rfl
theorem amount_exit (d : Fin 5) : (sched (F := F) m).amount (exitCell c) 0 d = 1 := rfl
theorem amount_send (d : Fin 5) : (sched (F := F) m).amount (sendCell c j) 0 d = N := rfl
theorem amount_recv (d : Fin 5) : (sched (F := F) m).amount (recvCell c j) 0 d = N := rfl

theorem expect_bar : (sched (F := F) m).expect (barCell c) 0 = 5 := by
  unfold Schedule.expect Schedule.amountOf
  rw [duties_bar, Finset.sum_congr rfl fun d _ => amount_bar m c d, Finset.sum_const, Finset.card_univ, Fintype.card_fin, smul_eq_mul]
theorem expect_exit : (sched (F := F) m).expect (exitCell c) 0 = 5 := by
  unfold Schedule.expect Schedule.amountOf
  rw [duties_exit, Finset.sum_congr rfl fun d _ => amount_exit m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar : (sched (F := F) m).payload (barCell c) 0 k = barPay c k := by
  show cellPay m c (.reg barS) k = _; unfold cellPay; exact if_pos rfl
theorem payload_exit : (sched (F := F) m).payload (exitCell c) 0 k = iprop(emp) := by
  show cellPay m c (.reg exitS) k = _; unfold cellPay; exact if_neg (fun h => barS_ne_exitS h.symm)
theorem payload_recv (d : Fin 5) : (sched (F := F) m).payload (recvCell c j) 0 d = recvPay m c j := by
  show cellPay m c (.dma (recvS j)) d = _
  unfold cellPay; dsimp only
  have h : 23 ≤ (recvS j).val := by rw [recvS_val]; omega
  rw [dif_pos h]
  congr 1
  apply Fin.ext; show (recvS j).val - 23 = j.val; rw [recvS_val]; omega
theorem payload_send (d : Fin 5) : (sched (F := F) m).payload (sendCell c j) 0 d = sendPay m c j := by
  show cellPay m c (.dma (sendS j)) d = _
  unfold cellPay; dsimp only
  have h : ¬ 23 ≤ (sendS j).val := by rw [sendS_val]; have := j.isLt; omega
  have h8 : 8 ≤ (sendS j).val := by rw [sendS_val]; omega
  rw [dif_neg h, dif_pos h8]
  congr 1
  apply Fin.ext; show (sendS j).val - 8 = j.val; rw [sendS_val]; omega

theorem rest_bar : bigSep ((sched (F := F) m).duties (barCell c) 0 \ ∅) (fun d => (sched (F := F) m).payload (barCell c) 0 d) = bigSep Finset.univ (fun k => barPay (F := F) c k) := by
  rw [Finset.sdiff_empty, duties_bar]; exact bigSep_congr fun k _ => payload_bar m c k
theorem rest_exit : bigSep ((sched (F := F) m).duties (exitCell c) 0 \ ∅) (fun d => (sched (F := F) m).payload (exitCell c) 0 d) = bigSep Finset.univ (fun _ : Fin 5 => (iprop(emp) : sProp 𝕄)) := by
  rw [Finset.sdiff_empty, duties_exit]; exact bigSep_congr fun k _ => payload_exit m c k
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

/-! ## What a device owes, in the order it pays -/

/-- The cell device `c`'s `e`-th payment goes to: barrier signals `0 … 4`, copies `5 … 19`, exit signals `20 … 24`. -/
def payCell (c : Dev nD) (e : ℕ) : GSem nD τ sig :=
  if e < 5 then barCell (peer ⟨e % 5, Nat.mod_lt _ (by decide)⟩ c)
  else if e < 20 then recvCell (partner ⟨(e - 5) % 15, Nat.mod_lt _ (by decide)⟩ c) ⟨(e - 5) % 15, Nat.mod_lt _ (by decide)⟩
  else exitCell (peer ⟨(e - 20) % 5, Nat.mod_lt _ (by decide)⟩ c)
/-- Its amount. -/
def payAmt (e : ℕ) : ℕ := if e < 5 then 1 else if e < 20 then N else 1

/-- What device `c` still owes before its `n`-th payment. -/
def owedFrom (n : ℕ) (c : Dev nD) : CellTallies nD τ sig Unit := ∑ e ∈ Finset.Ico n 25, tallyAt (payCell c e) () (payAmt e)

theorem owedFrom_succ (n : ℕ) (c : Dev nD) (h : n < 25) : owedFrom n c = owedFrom (n + 1) c + tallyAt (payCell c n) () (payAmt n) := by
  unfold owedFrom; rw [Finset.sum_eq_sum_Ico_succ_bot h, add_comm]
theorem owedFrom_end (c : Dev nD) : owedFrom 25 c = 0 := by unfold owedFrom; rw [Finset.Ico_self, Finset.sum_empty]

theorem payCell_bar (c : Dev nD) (k : Fin 5) : payCell c k.val = barCell (peer k c) := by
  unfold payCell; rw [if_pos k.isLt]
  have e : (⟨k.val % 5, Nat.mod_lt _ (by decide)⟩ : Fin 5) = k := Fin.ext (Nat.mod_eq_of_lt k.isLt)
  rw [e]
theorem payCell_copy (c : Dev nD) (j : Fin 15) : payCell c (5 + j.val) = recvCell (partner j c) j := by
  have hj := j.isLt
  unfold payCell; rw [if_neg (by omega), if_pos (by omega)]
  have e : (⟨(5 + j.val - 5) % 15, Nat.mod_lt _ (by decide)⟩ : Fin 15) = j := Fin.ext (by show (5 + j.val - 5) % 15 = j.val; omega)
  rw [e]
theorem payCell_exit (c : Dev nD) (k : Fin 5) : payCell c (20 + k.val) = exitCell (peer k c) := by
  have hk := k.isLt
  unfold payCell; rw [if_neg (by omega), if_neg (by omega)]
  have e : (⟨(20 + k.val - 20) % 5, Nat.mod_lt _ (by decide)⟩ : Fin 5) = k := Fin.ext (by show (20 + k.val - 20) % 5 = k.val; omega)
  rw [e]
theorem payAmt_bar (k : Fin 5) : payAmt k.val = 1 := by unfold payAmt; rw [if_pos k.isLt]
theorem payAmt_copy (j : Fin 15) : payAmt (5 + j.val) = N := by have := j.isLt; unfold payAmt; rw [if_neg (by omega), if_pos (by omega)]
theorem payAmt_exit (k : Fin 5) : payAmt (20 + k.val) = 1 := by have := k.isLt; unfold payAmt; rw [if_neg (by omega), if_neg (by omega)]

/-! ## Levels -/

def L (g : GSem nD τ sig) : Finset Unit := if g.1.2 = .tc then {()} else ∅

/-- The barrier at 1, receive cell `j` at `2 + j`, the exit cell at 17, every other cell (the staging and send cells) at 0. -/
def lvS : SemLoc sig → ℕ
  | .reg s => if s = barS then 1 else if s = exitS then 17 else 0
  | .dma q => if 23 ≤ q.val then q.val - 23 + 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (.reg barS) = 1 := by
  show (if barS = barS then 1 else if barS = exitS then 17 else 0) = 1; exact if_pos rfl
theorem lvS_exit : lvS (.reg exitS) = 17 := by
  show (if exitS = barS then 1 else if exitS = exitS then 17 else 0) = 17
  rw [if_neg (fun h => barS_ne_exitS h.symm), if_pos rfl]
theorem lvS_recv (j : Fin 15) : lvS (.dma (recvS j)) = 2 + j.val := by
  show (if 23 ≤ (recvS j).val then (recvS j).val - 23 + 2 else 0) = 2 + j.val
  rw [if_pos (by rw [recvS_val]; omega), recvS_val]; omega
theorem lvS_send (j : Fin 15) : lvS (.dma (sendS j)) = 0 := by
  show (if 23 ≤ (sendS j).val then (sendS j).val - 23 + 2 else 0) = 0
  rw [if_neg (by rw [sendS_val]; have := j.isLt; omega)]

/-- The level of the cell a payment goes to. -/
theorem lv_payCell (c : Dev nD) (e : ℕ) (he : e < 25) :
    lvS (payCell c e).2 = if e < 5 then 1 else if e < 20 then 2 + (e - 5) else 17 := by
  unfold payCell
  by_cases h5 : e < 5
  · rw [if_pos h5, if_pos h5]; exact lvS_bar
  · rw [if_neg h5, if_neg h5]
    by_cases h20 : e < 20
    · rw [if_pos h20, if_pos h20]
      show lvS (.dma (recvS _)) = _
      rw [lvS_recv]; show 2 + (e - 5) % 15 = _; omega
    · rw [if_neg h20, if_neg h20]; exact lvS_exit

theorem owedFrom_pos {n : ℕ} {c : Dev nD} {g : GSem nD τ sig} {u : Unit} (h : 0 < owedFrom n c g u) :
    ∃ e, n ≤ e ∧ e < 25 ∧ g = payCell c e := by
  unfold owedFrom at h
  rw [Finset.sum_apply, Finsupp.finset_sum_apply] at h
  obtain ⟨e, he, hpos⟩ := Finset.exists_ne_zero_of_sum_ne_zero (Nat.pos_iff_ne_zero.mp h)
  rw [tallyAt_apply] at hpos
  have hm := Finset.mem_Ico.mp he
  by_cases hg : g = payCell c e ∧ u = ()
  · exact ⟨e, hm.1, hm.2, hg.1⟩
  · rw [if_neg hg] at hpos; exact absurd rfl hpos

/-- A wait on cell `s` of device `c` while it owes its payments from the `n`-th on, all of them to cells above `s`. -/
theorem mayWait_from (c : Dev nD) (n : ℕ) (s : SemLoc sig)
    (hlv : ∀ e, n ≤ e → e < 25 → lvS s < lvS (payCell c e).2) :
    (levAts L lv : sProp 𝕄) ⊢ MayWait (c : Thread nD τ) s () (owedFrom n c) :=
  MayOwe.of_cut (L := L) (lev := lv) (lvS s)
    (fun p hp => by rw [Finset.mem_singleton.mp hp, L_tc]; exact Finset.mem_singleton_self _)
    (fun g u hg => by
      obtain ⟨e, _, _, rfl⟩ := owedFrom_pos hg
      have : (payCell c e).1.2 = .tc := by unfold payCell; (repeat' split) <;> rfl
      unfold L; rw [if_pos this]; exact Finset.mem_singleton_self _)
    (fun p hp => by rw [Finset.mem_singleton.mp hp]; exact le_refl _)
    (fun g u hg => by
      obtain ⟨e, h1, h2, rfl⟩ := owedFrom_pos hg
      exact hlv e h1 h2)

end Cert.Kernel.Proto

end
-- ==== Proof.Bits.Ghost.lean ====
/-
  The ghost state of the exchange and the pipeline's proof data.

  The records every device holds: the invariant of every exchange cell of every device, and that each is at its one round.
  What stays with device `c`: its positions on its own thirty-two cells, and the tokens of the duties IT pays — duty `k` of
  the barrier and exit cells of its partner across bit `k`, the one duty of the receive cell `j` of its partner in exchange
  `j`, the one duty of its own send cell `j`.
-/
import proofs.«900382_g7700000000000383_dist_mlpseq_tp1d_rep_rep_b64_d512_h1024_v7x_i32_bf16_1_alg».proof.Proof.Bits.Sched

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells -/

/-- A semaphore of the exchange: the barrier, the exit semaphore, a send or a receive semaphore (not a staging one). -/
def isExch : SemLoc sig → Bool
  | .reg s => decide (s = barS ∨ s = exitS)
  | .dma q => decide (8 ≤ q.val)

/-- The exchange's cells: those semaphores on every device's TensorCore. -/
def cells : Finset (GSem nD τ sig) := Finset.univ.filter fun g => g.1.2 = .tc ∧ isExch g.2 = true

theorem mem_cells_bar (c : Dev nD) : barCell c ∈ cells := by
  unfold cells; rw [Finset.mem_filter]; exact ⟨Finset.mem_univ _, rfl, by show decide (barS = barS ∨ barS = exitS) = true; exact decide_eq_true (Or.inl rfl)⟩
theorem mem_cells_exit (c : Dev nD) : exitCell c ∈ cells := by
  unfold cells; rw [Finset.mem_filter]; exact ⟨Finset.mem_univ _, rfl, by show decide (exitS = barS ∨ exitS = exitS) = true; exact decide_eq_true (Or.inr rfl)⟩
theorem mem_cells_send (c : Dev nD) (j : Fin 15) : sendCell c j ∈ cells := by
  unfold cells; rw [Finset.mem_filter]; exact ⟨Finset.mem_univ _, rfl, by show decide (8 ≤ (sendS j).val) = true; exact decide_eq_true (by rw [sendS_val]; omega)⟩
theorem mem_cells_recv (c : Dev nD) (j : Fin 15) : recvCell c j ∈ cells := by
  unfold cells; rw [Finset.mem_filter]; exact ⟨Finset.mem_univ _, rfl, by show decide (8 ≤ (recvS j).val) = true; exact decide_eq_true (by rw [recvS_val]; omega)⟩

/-! ## Records, positions, tokens -/

/-- Every exchange cell's invariant, cell `g`'s at name `K g`, and that each has reached its round. -/
def records (K : GSem nD τ sig → ℕ) : sProp 𝕄 :=
  iprop((bigSep cells fun g => cellInv ER (sched m) (K g) g) ∗ bigSep cells fun g => reached ER g 0)

instance records_persistent (K : GSem nD τ sig → ℕ) : BI.Persistent (records m K) := by unfold records; infer_instance

theorem inv_of_all (K : GSem nD τ sig → ℕ) {g : GSem nD τ sig} (hg : g ∈ cells) :
    (bigSep cells fun g => (cellInv ER (sched m) (K g) g : sProp 𝕄)) ⊢ cellInv ER (sched m) (K g) g := bigSep_elim hg
omit [FloatOps F] in
theorem reached_of_all {g : GSem nD τ sig} (hg : g ∈ cells) :
    (bigSep cells fun g => (reached ER g 0 : sProp 𝕄)) ⊢ reached ER g 0 := bigSep_elim hg
theorem inv_at (K : GSem nD τ sig → ℕ) {g : GSem nD τ sig} (hg : g ∈ cells) : records m K ⊢ cellInv ER (sched m) (K g) g := by
  unfold records; iintro ⟨#HI, -⟩; iapply (inv_of_all m K hg); iexact HI
theorem reached_at (K : GSem nD τ sig → ℕ) {g : GSem nD τ sig} (hg : g ∈ cells) : records m K ⊢ (reached ER g 0 : sProp 𝕄) := by
  unfold records; iintro ⟨-, #HR⟩; iapply (reached_of_all (F := F) hg); iexact HR

/-- Device `c`'s positions: round 0 of each of its cells, nothing consumed. -/
def positions (c : Dev nD) : sProp 𝕄 :=
  iprop(atPos ER (barCell c) 0 ∅ 0 ∗ atPos ER (exitCell c) 0 ∅ 0
    ∗ (bigSep Finset.univ fun j : Fin 15 => atPos ER (sendCell c j) 0 ∅ 0)
    ∗ (bigSep Finset.univ fun j : Fin 15 => atPos ER (recvCell c j) 0 ∅ 0))

/-- The tokens of the duties device `c` pays. -/
def payToks (c : Dev nD) : sProp 𝕄 :=
  iprop((bigSep Finset.univ fun k : Fin 5 => dutyTok ER (barCell (peer k c)) 0 k)
    ∗ (bigSep Finset.univ fun k : Fin 5 => dutyTok ER (exitCell (peer k c)) 0 k)
    ∗ (bigSep Finset.univ fun j : Fin 15 => dutyTok ER (recvCell (partner j c) j) 0 (0 : Fin 5))
    ∗ (bigSep Finset.univ fun j : Fin 15 => dutyTok ER (sendCell c j) 0 (0 : Fin 5)))

def ghost (K : GSem nD τ sig → ℕ) (c : Dev nD) : sProp 𝕄 := iprop(records m K ∗ positions c ∗ payToks c)

/-- The credit tokens device `c` is dealt at launch: its barrier's and exit cell's five units, each receive cell's copy. -/
def creds (c : Dev nD) : sProp 𝕄 :=
  iprop(cred (tallyAt (barCell c) () 5) ∗ cred (tallyAt (exitCell c) () 5)
    ∗ bigSep Finset.univ fun j : Fin 15 => cred (tallyAt (recvCell c j) () N))

/-- What device `c`'s body starts from. -/
def start (c : Dev nD) : sProp 𝕄 := iprop((∃ K, ghost m K c) ∗ creds c ∗ levAts L lv)

/-- The receive buffer whole, at contents `f`. -/
def rcvPts (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, accPts c f) ∗ (∃ f, rcvPts c f))

/-- The kernel's own semaphores back at zero. -/
def ownZero (c : Dev nD) : sProp 𝕄 :=
  iprop(semVal (exitCell c) 0 ∗ (bigSep Finset.univ fun j : Fin 15 => semVal (sendCell c j) 0) ∗ (bigSep Finset.univ fun j : Fin 15 => semVal (recvCell c j) 0))

def Φ₁ (c : Dev nD) : sProp 𝕄 := iprop((∃ f, accPts c f) ∗ (∃ f, rcvPts c f) ∗ ownZero c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wins m 0 c
    | ⟨2, _⟩ => wouts m 0 c
    | ⟨3, _⟩ => wins m 1 c
    | ⟨4, _⟩ => wouts m 1 c
    | ⟨5, _⟩ => wins m 2 c
    | ⟨6, _⟩ => wouts m 2 c
    | ⟨7, _⟩ => outAt m c
  Φ t := match t with
    | ⟨0, _⟩ => Φ₀ m c
    | ⟨_ + 1, _⟩ => Φ₁ c
  q _ := fullShare
  owed t := match t with
    | ⟨0, _⟩ => owedFrom 0 c
    | ⟨_ + 1, _⟩ => 0

abbrev 𝒱₀ : Variants := Variants.none

end Cert.Kernel.Proto

end
-- ==== Proof.Bits.Slots.lean ====
/-
  The receive buffer seen as fifteen slots.

  The [3, 5, 64, 512] buffer is the disjoint union of fifteen [64, 512] slots, slot `j = 5·l + k` at leading
  coordinates `(l, k)`. Reading a slot off the buffer's final contents gives the partner's accumulator; writing the
  partner's accumulator through a slot leaves the final contents there.
-/
import proofs.«900382_g7700000000000383_dist_mlpseq_tp1d_rep_rep_b64_d512_h1024_v7x_i32_bf16_1_alg».proof.Proof.Bits.Cells
import Idealize.ShloMosaic.Lib.ValueIdx
import Idealize.ShloMosaic.Lib.ValueLayout

noncomputable section

namespace Cert.Kernel.Proto

open Cert.Kernel Cert.Kernel.Gen Cert.Kernel.Spec
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading a slot -/

omit [FloatOps F] in
/-- The element of the buffer under coordinate `x` of slot `j`'s rectangle belongs to exchange `j`. -/
theorem slotOf_idx (j : Fin 15) (x : S1x1x64x512.Idx) : slotOf ((slotRect j).toLoadRect.idx x) = j := by
  apply Fin.ext
  have h0 : (x 0).val < 1 := (x 0).isLt
  have h1 : (x 1).val < 1 := (x 1).isLt
  show 5 * (j.val / 5 + 1 * (x 0).val) + (j.val % 5 + 1 * (x 1).val) = j.val
  omega

omit [FloatOps F] in
/-- Inside its slot it sits at the rectangle's last two coordinates. -/
theorem inSlot_idx (j : Fin 15) (x : S1x1x64x512.Idx) :
    inSlot ((slotRect j).toLoadRect.idx x)
      = (fun a => match a with | ⟨0, _⟩ => ⟨(x 2).val, (x 2).isLt⟩ | ⟨1, _⟩ => ⟨(x 3).val, (x 3).isLt⟩ : S64x512.Idx) := by
  funext a
  match a with
  | ⟨0, _⟩ => apply Fin.ext; show 0 + 1 * (x 2).val = (x 2).val; omega
  | ⟨1, _⟩ => apply Fin.ext; show 0 + 1 * (x 3).val = (x 3).val; omega

/-- Slot `j` of the final contents, loaded through the whole buffer, is the partner's accumulator of exchange `j`. -/
theorem read_slot (j : Fin 15) (c : Dev nD) :
    (rcvM : Memref sig .tc .vmem S3x5x64x512 .f32).view.readAt (Elt F) (slotRect j).toLoadRect (rcvAll m c)
      = Spec.up (accAt m j (partner j c)) := by
  funext x
  show rcvAll m c ((slotRect j).toLoadRect.idx x) = _
  unfold rcvAll Spec.up
  rw [slotOf_idx, inSlot_idx]
  rfl

/-! ## A slot's elements -/

omit [FloatOps F] in
/-- Slot `j`'s elements are the buffer's elements under slot `j`'s rectangle. -/
theorem slot_set (j : Fin 15) :
    (slotM j : Memref sig .tc .vmem S64x512 .f32).view.set
      = (rcvM : Memref sig .tc .vmem S3x5x64x512 .f32).view.setOn (slotRect j).toLoadRect.set := by
  show (((rcvM : Memref sig .tc .vmem S3x5x64x512 .f32).view.slice (slotRect j)).reshape S64x512 _).set = _
  rw [View.set_reshape, View.set_slice]
  rfl

omit [FloatOps F] in
/-- A load of slot `j` through the whole buffer touches only slot `j`'s elements. -/
theorem slot_load_sub (j : Fin 15) :
    (rcvM : Memref sig .tc .vmem S3x5x64x512 .f32).view.setOn (slotRect j).toLoadRect.set
      ⊆ (slotM j : Memref sig .tc .vmem S64x512 .f32).view.set :=
  (slot_set j).ge

/-! ## What a copy into a slot leaves -/

omit [FloatOps F] in
/-- Coordinate `y` of slot `j` sits in the buffer under slot `j`'s rectangle at `y` matched with [1, 1, 64, 512]. -/
theorem slot_emb (j : Fin 15) (y : S64x512.Idx) :
    (slotM j : Memref sig .tc .vmem S64x512 .f32).view.emb y
      = (slotRect j).toLoadRect.idx (Shape.reshapeEquiv squeezes_S1x1x64x512_S64x512.numel_eq y) := rfl

omit [FloatOps F] in
/-- It belongs to exchange `j`, -/
theorem slotOf_emb (j : Fin 15) (y : S64x512.Idx) :
    slotOf ((slotM j : Memref sig .tc .vmem S64x512 .f32).view.emb y) = j := by
  rw [slot_emb, slotOf_idx]

omit [FloatOps F] in
/-- at `y` inside the slot. -/
theorem inSlot_emb (j : Fin 15) (y : S64x512.Idx) :
    inSlot ((slotM j : Memref sig .tc .vmem S64x512 .f32).view.emb y) = y := by
  obtain ⟨p, q, rfl⟩ : ∃ (p : Fin 64) (q : Fin 512), y = ix2 p q := ⟨y 0, y 1, eq_ix2 y⟩
  rw [slot_emb, inSlot_idx, reshapeEquiv_ix2_11ab]
  funext a
  match a with
  | ⟨0, _⟩ => rfl
  | ⟨1, _⟩ => rfl

/-- The final contents at slot `j`'s coordinate `y`: the partner's accumulator of exchange `j` there. -/
theorem rcvAll_emb (j : Fin 15) (c : Dev nD) (y : S64x512.Idx) :
    rcvAll m c ((slotM j : Memref sig .tc .vmem S64x512 .f32).view.emb y) = accAt m j (partner j c) y := by
  unfold rcvAll
  rw [slotOf_emb, inSlot_emb]

/-- A copy of the partner's accumulator of exchange `j` into slot `j` leaves the final contents there. -/
theorem slot_landed (j : Fin 15) (c : Dev nD)
    (fd : Buf (Elt F) ((slotM j : Memref sig .tc .vmem S64x512 .f32).view.loc (c : Thread nD τ)))
    (fs : Buf (Elt F) ((accM : Memref sig .tc .vmem S64x512 .f32).view.loc ((partner j c : Dev nD) : Thread nD τ)))
    (hfs : fs = accAt m j (partner j c)) :
    slotPts c j ((slotM j : Memref sig .tc .vmem S64x512 .f32).view.write (Elt F) fd
        ((accM : Memref sig .tc .vmem S64x512 .f32).view.read (Elt F) fs) Finset.univ)
      = (slotPts c j (rcvAll m c) : sProp 𝕄) := by
  subst hfs
  unfold slotPts
  refine Region.is_congr fun i hi => ?_
  obtain ⟨y, rfl⟩ := View.exists_emb_of_mem_set (slotM j : Memref sig .tc .vmem S64x512 .f32).view hi
  rw [View.write_emb_of_mem _ _ (Finset.mem_univ y), rcvAll_emb]
  rfl

end Cert.Kernel.Proto

end
-- ==== Proof.Bits.Step.lean ====
/-
  One exchange, at a symbolic place: device `c` copies its accumulator into slot `j` of its partner's receive buffer, waits
  until the accumulator has been read out (its send cell) and until its own slot `j` has been written by the partner's copy
  (its receive cell), and adds the slot to the accumulator.

  The copy pays the one duty of the partner's receive cell `j` — the slot, which the partner's barrier signal handed over, now at
  this device's accumulator — and of the own send cell `j`. The send wait is below everything still owed (level 0); the
  receive wait sits at level `2 + j`, below the later copies' cells and the exit cells. Both cells are then closed: their
  counters are the device's again, at zero.
-/
import proofs.«900382_g7700000000000383_dist_mlpseq_tp1d_rep_rep_b64_d512_h1024_v7x_i32_bf16_1_alg».proof.Proof.Bits.Ghost
import proofs.«900382_g7700000000000383_dist_mlpseq_tp1d_rep_rep_b64_d512_h1024_v7x_i32_bf16_1_alg».proof.Proof.Bits.Slots

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel addresses -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 0 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 3 c := by decide +kernel
theorem dev10_eq : ∀ c : Dev nD, (⟨k0_dev10 c, k0_dev10_lt c⟩ : Dev nD) = peer 4 c := by decide +kernel
theorem dev11_eq : ∀ c : Dev nD, (⟨k0_dev11 c, k0_dev11_lt c⟩ : Dev nD) = peer 0 c := by decide +kernel
theorem dev12_eq : ∀ c : Dev nD, (⟨k0_dev12 c, k0_dev12_lt c⟩ : Dev nD) = peer 1 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 4 c := by decide +kernel
theorem dev16_eq : ∀ c : Dev nD, (⟨k0_dev16 c, k0_dev16_lt c⟩ : Dev nD) = peer 0 c := by decide +kernel
theorem dev17_eq : ∀ c : Dev nD, (⟨k0_dev17 c, k0_dev17_lt c⟩ : Dev nD) = peer 1 c := by decide +kernel
theorem dev18_eq : ∀ c : Dev nD, (⟨k0_dev18 c, k0_dev18_lt c⟩ : Dev nD) = peer 2 c := by decide +kernel
theorem dev19_eq : ∀ c : Dev nD, (⟨k0_dev19 c, k0_dev19_lt c⟩ : Dev nD) = peer 3 c := by decide +kernel
theorem dev20_eq : ∀ c : Dev nD, (⟨k0_dev20 c, k0_dev20_lt c⟩ : Dev nD) = peer 4 c := by decide +kernel
theorem dev21_eq : ∀ c : Dev nD, (⟨k0_dev21 c, k0_dev21_lt c⟩ : Dev nD) = peer 0 c := by decide +kernel
theorem dev22_eq : ∀ c : Dev nD, (⟨k0_dev22 c, k0_dev22_lt c⟩ : Dev nD) = peer 1 c := by decide +kernel
theorem dev23_eq : ∀ c : Dev nD, (⟨k0_dev23 c, k0_dev23_lt c⟩ : Dev nD) = peer 2 c := by decide +kernel
theorem dev24_eq : ∀ c : Dev nD, (⟨k0_dev24 c, k0_dev24_lt c⟩ : Dev nD) = peer 3 c := by decide +kernel
theorem dev25_eq : ∀ c : Dev nD, (⟨k0_dev25 c, k0_dev25_lt c⟩ : Dev nD) = peer 4 c := by decide +kernel

/-! ## The accumulator read and written whole -/

abbrev r0 : Rect S64x512 := Rect.unit (s := S64x512) ![0, 0] S64x512.size inb_S64x512_S64x512_0_0

omit [FloatOps F] in
theorem hz2 : (![0, 0] : Fin 2 → Nat) = fun _ => 0 := funext fun a => by fin_cases a <;> rfl
omit [FloatOps F] in
theorem read_acc (f : (cc0_scratch0 : Ref sig .tc).ty.Contents (Elt F)) : (accM : Memref sig .tc .vmem S64x512 .f32).view.readAt (Elt F) r0.toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S64x512 .f32).access r0 : View sig .tc _ _ _).write (Elt F) f w Finset.univ = w :=
  Memref.write_access_unit_zero_univ (Elt F) cc0_scratch0 hz2 _ f w

/-! ## The levels of the two waits -/

theorem lv_after_send (c : Dev nD) (j : Fin 15) : ∀ e, 5 + j.val + 1 ≤ e → e < 25 → lvS (.dma (sendS j)) < lvS (payCell c e).2 := by
  intro e h1 h2
  rw [lvS_send, lv_payCell c e h2]
  split
  · omega
  · split <;> omega
theorem lv_after_recv (c : Dev nD) (j : Fin 15) : ∀ e, 5 + j.val + 1 ≤ e → e < 25 → lvS (.dma (recvS j)) < lvS (payCell c e).2 := by
  intro e h1 h2
  have := j.isLt
  rw [lvS_recv, lv_payCell c e h2]
  split
  · omega
  · split <;> omega

/-! ## The exchange -/

section Step

variable (K : GSem nD τ sig → ℕ)

/-- The send and receive duties' payloads, spelt down to the buffers they hand over. -/
theorem payload_send_pts (c : Dev nD) (j : Fin 15) (d : Fin 5) : (sched (F := F) m).payload (sendCell c j) 0 d
    = ((accM : Memref sig .tc .vmem S64x512 .f32).view.loc (c : Thread nD τ) ↦[(accM : Memref sig .tc .vmem S64x512 .f32).view.set]{fullShare} accAt m j c : sProp 𝕄) := payload_send m c j d
theorem payload_recv_pts (c : Dev nD) (j : Fin 15) (d : Fin 5) : (sched (F := F) m).payload (recvCell c j) 0 d
    = ((slotM j : Memref sig .tc .vmem S64x512 .f32).view.loc (c : Thread nD τ) ↦[(slotM j : Memref sig .tc .vmem S64x512 .f32).view.set]{fullShare} rcvAll m c : sProp 𝕄) := payload_recv m c j d

attribute [local sl_rounds] duties_send duties_recv amount_send amount_recv expect_send expect_recv payload_send_pts payload_recv_pts

set_option maxHeartbeats 1600000 in
theorem step (c n : Dev nD) (j : Fin 15) (hn : n = partner j c)
    {hsc : (slotM j : Memref sig (Dev.tc n : Thread nD τ).2.kind .vmem S64x512 .f32).view.ref.isScScratch = false}
    {hsrc : (accM : Memref sig .tc .vmem S64x512 .f32).view.WordExact} {hdst : (slotM j : Memref sig .tc .vmem S64x512 .f32).view.WordExact}
    {hsem : DmaTarget.Typed .vmem (.dma (recvS j)) (.remote (Dev.tc n : Thread nD τ) (slotM j : Memref sig .tc .vmem S64x512 .f32) (.dma (sendS j)) hsc)}
    {hw1a : (slotM j : Memref sig .tc .vmem S64x512 .f32).view.WordExact} {hw1b : (accM : Memref sig .tc .vmem S64x512 .f32).view.WordExact}
    {hw2a : (accM : Memref sig .tc .vmem S64x512 .f32).view.WordExact} {hw2b : (slotM j : Memref sig .tc .vmem S64x512 .f32).view.WordExact}
    {hl0 : (accM : Memref sig .tc .vmem S64x512 .f32).view.LoadsAt r0.toLoadRect}
    {hl1 : (rcvM : Memref sig .tc .vmem S3x5x64x512 .f32).view.LoadsAt (slotRect j).toLoadRect}
    {hl2 : (accM : Memref sig .tc .vmem S64x512 .f32).view.LoadsAt r0.toLoadRect}
    {hx : ((accM : Memref sig .tc .vmem S64x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} (W : Waits sig Unit) :
    iprop(records m K ∗ levAts L lv
        ∗ owes (c : Thread nD τ) (owedFrom (5 + j.val) c) W
        ∗ accPts c (accAt m j c) ∗ (∃ f, slotPts (partner j c) j f)
        ∗ atPos ER (sendCell c j) 0 ∅ 0 ∗ atPos ER (recvCell c j) 0 ∅ 0
        ∗ dutyTok ER (sendCell c j) 0 (0 : Fin 5) ∗ dutyTok ER (recvCell (partner j c) j) 0 (0 : Fin 5)
        ∗ cred (tallyAt (recvCell c j) () N))
      ⊢ iprop(((owes (c : Thread nD τ) (owedFrom (5 + j.val + 1) c) (insert (SemLoc.dma (recvS j), ()) (insert (SemLoc.dma (sendS j), ()) W))
              ∗ accPts c (accAfter m j c) ∗ slotPts c j (rcvAll m c) ∗ semVal (sendCell c j) 0 ∗ semVal (recvCell c j) 0)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma accM (.remote (Dev.tc n : Thread nD τ) (slotM j) (.dma (sendS j)) hsc) (.dma (recvS j)) hsrc hdst hsem) fun _ =>
           .op (.waitDma2 (sendS j) (slotM j) accM hw1a hw1b) fun _ =>
           .op (.waitDma2 (recvS j) accM (slotM j) hw2a hw2b) fun _ =>
           .op (.load accM r0.toLoadRect hl0) fun v54 =>
           .op (.load rcvM (slotRect j).toLoadRect hl1) fun v55 =>
           .op (.load accM r0.toLoadRect hl2) fun v58 =>
           .op (.store accM r0 (k0_pay4 v54 v55) Finset.univ hx hm) k) Q) := by
  subst hn
  iintro ⟨#HR, #Hlev, HO, Hacc, ⟨%fn, Hslot⟩, HatS, HatV, HtS, HtV, HcV⟩ Hk
  ihave #HIsnd := (inv_at m K (mem_cells_send c j)) $$ HR
  ihave #HIrcv := (inv_at m K (mem_cells_recv c j)) $$ HR
  ihave #HIrcvN := (inv_at m K (mem_cells_recv (partner j c) j)) $$ HR
  ihave #HrS := (reached_at m K (mem_cells_send c j)) $$ HR
  ihave #HrVN := (reached_at m K (mem_cells_recv (partner j c) j)) $$ HR
  have hmw1 := mayWait_from (F := F) c (5 + j.val + 1) (.dma (sendS j)) (lv_after_send c j)
  have hmw2 := mayWait_from (F := F) c (5 + j.val + 1) (.dma (recvS j)) (lv_after_recv c j)
  -- the copy into the partner's slot
  unfold accPts slotPts
  iapply (Rounds.wp_send_pointsTo 𝒱₀ ER (sched m) (c : Thread nD τ) none (κ₁ := K (sendCell c j)) (κ₂ := K (recvCell (partner j c) j))
      (r₁ := 0) (r₂ := 0) (d₁ := (0 : Fin 5)) (d₂ := (0 : Fin 5)) (fd := fn) (O₀ := owedFrom (5 + j.val) c)
      (by rw [duties_send]; exact Finset.mem_singleton_self _) (by rw [duties_recv]; exact Finset.mem_singleton_self _)
      () () N rfl (amount_send m c j 0) (amount_recv m (partner j c) j 0) (owedFrom (5 + j.val + 1) c)
      (by rw [owedFrom_succ (5 + j.val) c (by have := j.isLt; omega), payCell_copy, payAmt_copy]) (W := W)
      (by rw [payload_send]; exact BI.Entails.refl _)
      (by
        rw [payload_recv]; unfold recvPay
        have h := slot_landed m j (partner j c) fn (accAt m j c) (by rw [partner_partner])
        exact Entails.of_eq h)) $$ [Hacc Hslot HO HtS HtV]
  · isplitr; · iexact HIsnd
    isplitr; · iexact HIrcvN
    isplitl [Hacc]; · iexact Hacc
    isplitl [Hslot]; · iexact Hslot
    isplitl [HO]; · iexact HO
    isplitl [HtS]; · iexact HtS
    isplitr; · iexact HrS
    isplitl [HtV]; · iexact HtV
    iexact HrVN
  iintro ⟨HcS, HO⟩
  sl_exec
  -- the two cells close
  imod (Rounds.cell_close ER (sched m) (Set.mem_univ (K (sendCell c j))) (fun h => h) (R := 1) (duties_later m (sendCell c j))) $$ [HatS] with HzS
  · isplitr; · iexact HIsnd
    iexact HatS
  imod (Rounds.cell_close ER (sched m) (Set.mem_univ (K (recvCell c j))) (fun h => h) (R := 1) (duties_later m (recvCell c j))) $$ [HatV] with HzV
  · isplitr; · iexact HIrcv
    iexact HatV
  rw [View.writes_singleton, read_acc, read_slot m j c]
  iapply Hk
  isplitl [HO]; · iexact HO
  isplitl [HatS_pay1]
  · rw [accAfter_eq]; unfold addStep
    rw [write_acc]
    iexact HatS_pay1
  isplitl [HatV_pay1]; · iexact HatV_pay1
  isplitl [HzS]; · iexact HzS
  iexact HzV

end Step

end Cert.Kernel.Proto

end
-- ==== Proof.Bits.Phases.lean ====
/-
  The two handshakes, at a symbolic place.

  Entry: device `c` signals the barrier cell of each partner, its signal across bit `k` handing the partner the three slots of
  step `k` of ITS OWN receive buffer (one per layer) and that its receive cells of step `k` are at their round — what the
  partner's three copies into them will need —, then waits for the five signals to itself, which bring the five partners'
  slots. The wait sits below everything the device still owes. Exit: five signals that hand over nothing, and a wait owing
  nothing; the exit cell is then closed.
-/
import proofs.«900382_g7700000000000383_dist_mlpseq_tp1d_rep_rep_b64_d512_h1024_v7x_i32_bf16_1_alg».proof.Proof.Bits.Ghost

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem lv_after_bar (c : Dev nD) : ∀ e, 5 ≤ e → e < 25 → lvS (.reg barS) < lvS (payCell c e).2 := by
  intro e h1 h2
  rw [lvS_bar, lv_payCell c e h2]
  split
  · omega
  · split <;> omega

/-! ## The signals -/

section Signals

variable (K : GSem nD τ sig → ℕ)

/-- The barrier duty's payload at the cell device `c` signals, spelt down to its leaves. -/
theorem payload_bar_peer (c : Dev nD) (k : Fin 5) : (sched (F := F) m).payload (barCell (peer k c)) 0 k
    = iprop(((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0)
        ∗ ((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0)
        ∗ ((∃ f, (slotM (exch 2 k) : Memref sig .tc .vmem S64x512 .f32).view.loc (c : Thread nD τ) ↦[(slotM (exch 2 k) : Memref sig .tc .vmem S64x512 .f32).view.set]{fullShare} f) ∗ reached ER (recvCell c (exch 2 k)) 0)) := by
  rw [payload_bar]; unfold barPay; rw [bigSep_fin3, peer_peer]; rfl

attribute [local sl_rounds] duties_bar duties_exit amount_bar amount_exit expect_bar expect_exit payload_bar_peer payload_exit

/-- The entry signal across bit `k`: it hands the partner this device's three slots of step `k` and that its receive cells of step `k` are at their round. -/
theorem sig_bar (c n : Dev nD) (k : Fin 5) (hn : n = peer k c)
    {α : Type} {Q : α → sProp 𝕄} {k' : PUnit → Prog (TpuEff nD τ sig (Elt F) Λ₀ .tc) α} (W : Waits sig Unit) :
    iprop(records m K ∗ owes (c : Thread nD τ) (owedFrom k.val c) W ∗ dutyTok ER (barCell (peer k c)) 0 k
        ∗ (∃ f, slotPts c (exch 0 k) f) ∗ (∃ f, slotPts c (exch 1 k) f) ∗ (∃ f, slotPts c (exch 2 k) f))
      ⊢ iprop((owes (c : Thread nD τ) (owedFrom (k.val + 1) c) W -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) barS 1) k') Q) := by
  subst hn
  iintro ⟨#HR, HO, Htok, Hs0, Hs1, Hs2⟩ Hk
  ihave #HI := (inv_at m K (mem_cells_bar (peer k c))) $$ HR
  ihave #Hr := (reached_at m K (mem_cells_bar (peer k c))) $$ HR
  ihave #Hr0 := (reached_at m K (mem_cells_recv c (exch 0 k))) $$ HR
  ihave #Hr1 := (reached_at m K (mem_cells_recv c (exch 1 k))) $$ HR
  ihave #Hr2 := (reached_at m K (mem_cells_recv c (exch 2 k))) $$ HR
  have hpeel : owedFrom k.val c = owedFrom (k.val + 1) c + tallyAt (barCell (peer k c)) () 1 := by
    rw [owedFrom_succ k.val c (by have := k.isLt; omega), payCell_bar, payAmt_bar]
  unfold slotPts
  have e0 : (iprop((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0) : sProp 𝕄)
      ⊢ iprop((∃ f, (slotM (exch 0 k) : Memref sig .tc .vmem S64x512 .f32).view.loc (c : Thread nD τ) ↦[(slotM (exch 0 k) : Memref sig .tc .vmem S64x512 .f32).view.set]{fullShare} f) ∗ reached ER (recvCell c (exch 0 k)) 0) := BI.Entails.refl _
  ihave Hq0 := e0 $$ [Hs0]
  · isplitl [Hs0]; · iexact Hs0
    iexact Hr0
  have e1 : (iprop((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0) : sProp 𝕄)
      ⊢ iprop((∃ f, (slotM (exch 1 k) : Memref sig .tc .vmem S64x512 .f32).view.loc (c : Thread nD τ) ↦[(slotM (exch 1 k) : Memref sig .tc .vmem S64x512 .f32).view.set]{fullShare} f) ∗ reached ER (recvCell c (exch 1 k)) 0) := BI.Entails.refl _
  ihave Hq1 := e1 $$ [Hs1]
  · isplitl [Hs1]; · iexact Hs1
    iexact Hr1
  rw [hpeel]
  sl_exec
  iapply Hk
  iexact HO

/-- The exit signal across bit `k`: it hands over nothing. -/
theorem sig_exit (c n : Dev nD) (k : Fin 5) (hn : n = peer k c)
    {α : Type} {Q : α → sProp 𝕄} {k' : PUnit → Prog (TpuEff nD τ sig (Elt F) Λ₀ .tc) α} (W : Waits sig Unit) :
    iprop(records m K ∗ owes (c : Thread nD τ) (owedFrom (20 + k.val) c) W ∗ dutyTok ER (exitCell (peer k c)) 0 k)
      ⊢ iprop((owes (c : Thread nD τ) (owedFrom (20 + k.val + 1) c) W -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) exitS 1) k') Q) := by
  subst hn
  iintro ⟨#HR, HO, Htok⟩ Hk
  ihave #HI := (inv_at m K (mem_cells_exit (peer k c))) $$ HR
  ihave #Hr := (reached_at m K (mem_cells_exit (peer k c))) $$ HR
  have hpeel : owedFrom (20 + k.val) c = owedFrom (20 + k.val + 1) c + tallyAt (exitCell (peer k c)) () 1 := by
    rw [owedFrom_succ (20 + k.val) c (by have := k.isLt; omega), payCell_exit, payAmt_exit]
  rw [hpeel]
  sl_exec
  iapply Hk
  iexact HO

end Signals

/-! ## The waits -/

section Waits

variable (K : GSem nD τ sig → ℕ)

attribute [local sl_rounds] duties_bar duties_exit amount_bar amount_exit expect_bar expect_exit payload_bar payload_exit

/-- The entry wait: the five partners' slots come with it. -/
theorem wait_bar (c : Dev nD)
    {α : Type} {Q : α → sProp 𝕄} {k' : PUnit → Prog (TpuEff nD τ sig (Elt F) Λ₀ .tc) α} (W : Waits sig Unit) :
    iprop(records m K ∗ levAts L lv ∗ owes (c : Thread nD τ) (owedFrom 5 c) W ∗ cred (tallyAt (barCell c) () 5) ∗ atPos ER (barCell c) 0 ∅ 0)
      ⊢ iprop(((owes (c : Thread nD τ) (owedFrom 5 c) (insert (SemLoc.reg barS, ()) W) ∗ bigSep Finset.univ (fun k : Fin 5 => barPay (F := F) c k))
            -∗ wp frame (wpE (defs₀ (F := F)) 𝒱₀ (c : Thread nD τ) none) Set.univ (k' ⟨⟩) Q)
        -∗ wp frame (wpE (defs₀ (F := F)) 𝒱₀ (c : Thread nD τ) none) Set.univ (.op (.semWait barS 5) k') Q) := by
  iintro ⟨#HR, #Hlev, HO, Hc, Hat⟩ Hk
  ihave #HI := (inv_at m K (mem_cells_bar c)) $$ HR
  have hmw := mayWait_from (F := F) c 5 (.reg barS) (lv_after_bar c)
  sl_exec
  iapply Hk
  isplitl [HO]; · iexact HO
  iexact Hat_pay1

/-- The exit wait, owing nothing; the exit cell closes. -/
theorem wait_exit (c : Dev nD)
    {α : Type} {Q : α → sProp 𝕄} {k' : PUnit → Prog (TpuEff nD τ sig (Elt F) Λ₀ .tc) α} (W : Waits sig Unit) :
    iprop(records m K ∗ owes (c : Thread nD τ) 0 W ∗ cred (tallyAt (exitCell c) () 5) ∗ atPos ER (exitCell c) 0 ∅ 0)
      ⊢ iprop(((owes (c : Thread nD τ) 0 (insert (SemLoc.reg exitS, ()) W) ∗ semVal (exitCell c) 0)
            -∗ wp frame (wpE (defs₀ (F := F)) 𝒱₀ (c : Thread nD τ) none) Set.univ (k' ⟨⟩) Q)
        -∗ wp frame (wpE (defs₀ (F := F)) 𝒱₀ (c : Thread nD τ) none) Set.univ (.op (.semWait exitS 5) k') Q) := by
  iintro ⟨#HR, HO, Hc, Hat⟩ Hk
  ihave #HI := (inv_at m K (mem_cells_exit c)) $$ HR
  sl_exec
  imod (Rounds.cell_close ER (sched m) (Set.mem_univ (K (exitCell c))) (fun h => h) (R := 1) (duties_later m (exitCell c))) $$ [Hat] with Hz
  · isplitr; · iexact HI
    iexact Hat
  iapply Hk
  isplitl [HO]; · iexact HO
  iexact Hz

end Waits

end Cert.Kernel.Proto

end
-- ==== Proof.Bits.SlotsSplit.lean ====
/-
  Owning the [3, 5, 64, 512] receive buffer is owning its fifteen [64, 512] slots: an element of the buffer lies in
  slot `j` exactly when its two leading coordinates `(l, k)` have `5·l + k = j`, so the slots' element sets are pairwise
  disjoint and cover the buffer, and ownership of a disjoint union splits.
-/
import proofs.«900382_g7700000000000383_dist_mlpseq_tp1d_rep_rep_b64_d512_h1024_v7x_i32_bf16_1_alg».proof.Proof.Bits.Slots
import Idealize.ShloMosaic.Lib.ValueIdx
import Idealize.ShloMosaic.Lib.ValueLayout

noncomputable section

namespace Cert.Kernel.Proto

open Cert.Kernel Cert.Kernel.Gen Cert.Kernel.Spec
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffer is its fifteen slots -/

omit [FloatOps F] in
/-- An element of the buffer lies under slot `j`'s rectangle exactly when it belongs to exchange `j`. -/
theorem mem_slotRect (j : Fin 15) (i : S3x5x64x512.Idx) : i ∈ (slotRect j).toLoadRect.set ↔ slotOf i = j := by
  have b0 : (i 0).val < 3 := (i 0).isLt
  have b1 : (i 1).val < 5 := (i 1).isLt
  have b2 : (i 2).val < 64 := (i 2).isLt
  have b3 : (i 3).val < 512 := (i 3).isLt
  refine Rect.mem_set_unit.trans ⟨fun h => ?_, fun h a => ?_⟩
  · have h0 : j.val / 5 ≤ (i 0).val ∧ (i 0).val < j.val / 5 + 1 := h 0
    have h1 : j.val % 5 ≤ (i 1).val ∧ (i 1).val < j.val % 5 + 1 := h 1
    apply Fin.ext
    show 5 * (i 0).val + (i 1).val = j.val
    omega
  · have hj : 5 * (i 0).val + (i 1).val = j.val := congrArg Fin.val h
    match a with
    | ⟨0, _⟩ => show j.val / 5 ≤ (i 0).val ∧ (i 0).val < j.val / 5 + 1; omega
    | ⟨1, _⟩ => show j.val % 5 ≤ (i 1).val ∧ (i 1).val < j.val % 5 + 1; omega
    | ⟨2, _⟩ => show 0 ≤ (i 2).val ∧ (i 2).val < 0 + 64; omega
    | ⟨3, _⟩ => show 0 ≤ (i 3).val ∧ (i 3).val < 0 + 512; omega

omit [FloatOps F] in
/-- Different slots share no element. -/
theorem slotRect_disjoint {j j' : Fin 15} (h : j ≠ j') :
    Disjoint (slotRect j).toLoadRect.set (slotRect j').toLoadRect.set :=
  Finset.disjoint_left.mpr fun i hi hi' => h (((mem_slotRect j i).mp hi).symm.trans ((mem_slotRect j' i).mp hi'))

omit [FloatOps F] in
/-- Every element of the buffer is in slot 0 or in one of the others. -/
theorem slotRect_cover :
    (slotRect (0 : Fin 15)).toLoadRect.set ∪ (Finset.univ.erase (0 : Fin 15)).biUnion (fun j => (slotRect j).toLoadRect.set)
      = (Finset.univ : Finset S3x5x64x512.Idx) := by
  refine Finset.eq_univ_iff_forall.mpr fun i => ?_
  by_cases h : slotOf i = 0
  · exact Finset.mem_union_left _ ((mem_slotRect 0 i).mpr h)
  · exact Finset.mem_union_right _
      (Finset.mem_biUnion.mpr ⟨slotOf i, Finset.mem_erase.mpr ⟨h, Finset.mem_univ _⟩, (mem_slotRect _ i).mpr rfl⟩)

omit [FloatOps F] in
/-- Owning the elements of a set `T` and of finitely many sets, all pairwise disjoint, is owning each. -/
theorem pointsTo_biUnion {ι : Type} [DecidableEq ι] (ℓ : Loc nD τ sig) (f : Buf (Elt F) ℓ) (A : ι → Finset (Idx ℓ)) (s : Finset ι) :
    ∀ T : Finset (Idx ℓ), (∀ i ∈ s, Disjoint T (A i)) → (∀ i ∈ s, ∀ i' ∈ s, i ≠ i' → Disjoint (A i) (A i')) →
      (ℓ ↦[T ∪ s.biUnion A]{fullShare} f : sProp 𝕄)
        = BI.sep (ℓ ↦[T]{fullShare} f) (bigSep s fun i => (ℓ ↦[A i]{fullShare} f : sProp 𝕄)) := by
  induction s using Finset.induction_on with
  | empty =>
    intro T _ _
    rw [Finset.biUnion_empty, Finset.union_empty, bigSep_empty]
    exact Idealize.SL.BI.Entails.antisymm Idealize.SL.BI.sep_emp_intro Idealize.SL.BI.sep_emp_elim
  | insert i s hi ih =>
    intro T hT hd
    have hTi : Disjoint T (A i) := hT i (Finset.mem_insert_self i s)
    have h1 : (ℓ ↦[T ∪ A i]{fullShare} f : sProp 𝕄) = BI.sep (ℓ ↦[T]{fullShare} f) (ℓ ↦[A i]{fullShare} f) :=
      Idealize.SL.BI.Entails.antisymm (Region.is_union hTi).1 (Region.is_union hTi).2
    rw [Finset.biUnion_insert, ← Finset.union_assoc, ih (T ∪ A i) ?_ ?_, bigSep_insert hi, h1]
    · exact Idealize.SL.BI.Entails.antisymm Idealize.SL.BI.sep_assoc Idealize.SL.BI.sep_assoc'
    · intro i' hi'
      exact Finset.disjoint_union_left.mpr ⟨hT i' (Finset.mem_insert_of_mem hi'),
        hd i (Finset.mem_insert_self i s) i' (Finset.mem_insert_of_mem hi') (fun h => hi (h ▸ hi'))⟩
    · intro a ha b hb hab
      exact hd a (Finset.mem_insert_of_mem ha) b (Finset.mem_insert_of_mem hb) hab

omit [FloatOps F] in
/-- Slot `j`'s elements, as a set of the buffer's indices: those under slot `j`'s rectangle. -/
theorem slot_set' (j : Fin 15) :
    (slotM j : Memref sig .tc .vmem S64x512 .f32).view.set = ((slotRect j).toLoadRect.set : Finset S3x5x64x512.Idx) := by
  rw [slot_set]
  exact Finset.map_refl

omit [FloatOps F] in
/-- Slot `j` of the buffer at contents `f`, as the buffer's elements under slot `j`'s rectangle. -/
theorem slotPts_eq (c : Dev nD) (j : Fin 15) (f : Buf (Elt F) ((c : Thread nD τ).loc cc0_scratch1)) :
    slotPts c j f = (((c : Thread nD τ).loc cc0_scratch1) ↦[(slotRect j).toLoadRect.set]{fullShare} f : sProp 𝕄) := by
  unfold slotPts
  rw [slot_set']

omit [FloatOps F] in
/-- Owning the receive buffer is owning its fifteen slots. -/
theorem rcv_split_eq (c : Dev nD) (f : Buf (Elt F) ((c : Thread nD τ).loc cc0_scratch1)) :
    ((((c : Thread nD τ).loc cc0_scratch1) ↦{fullShare} f : sProp 𝕄))
      = bigSep Finset.univ (fun j : Fin 15 => slotPts c j f) := by
  calc ((((c : Thread nD τ).loc cc0_scratch1) ↦{fullShare} f : sProp 𝕄))
      = (((c : Thread nD τ).loc cc0_scratch1)
          ↦[(slotRect (0 : Fin 15)).toLoadRect.set ∪ (Finset.univ.erase (0 : Fin 15)).biUnion (fun j => (slotRect j).toLoadRect.set)]{fullShare} f) := by
        rw [slotRect_cover]
    _ = BI.sep (((c : Thread nD τ).loc cc0_scratch1) ↦[(slotRect (0 : Fin 15)).toLoadRect.set]{fullShare} f)
          (bigSep (Finset.univ.erase (0 : Fin 15)) fun j => ((((c : Thread nD τ).loc cc0_scratch1) ↦[(slotRect j).toLoadRect.set]{fullShare} f : sProp 𝕄))) :=
        pointsTo_biUnion _ f (fun j : Fin 15 => (slotRect j).toLoadRect.set) _ _
          (fun j hj => slotRect_disjoint (Finset.ne_of_mem_erase hj).symm)
          (fun j _ j' _ h => slotRect_disjoint h)
    _ = bigSep Finset.univ (fun j : Fin 15 => ((((c : Thread nD τ).loc cc0_scratch1) ↦[(slotRect j).toLoadRect.set]{fullShare} f : sProp 𝕄))) :=
        (bigSep_univ_split (0 : Fin 15)
          (Φ := fun j : Fin 15 => ((((c : Thread nD τ).loc cc0_scratch1) ↦[(slotRect j).toLoadRect.set]{fullShare} f : sProp 𝕄)))).symm
    _ = bigSep Finset.univ (fun j : Fin 15 => slotPts c j f) := bigSep_congr fun j _ => (slotPts_eq c j f).symm

omit [FloatOps F] in
theorem rcv_split (c : Dev nD) (f : Buf (Elt F) ((c : Thread nD τ).loc cc0_scratch1)) :
    ((((c : Thread nD τ).loc cc0_scratch1) ↦{fullShare} f : sProp 𝕄)) ⊣⊢ bigSep Finset.univ (fun j : Fin 15 => slotPts c j f) :=
  BiEntails.of_eq (rcv_split_eq c f)

end Cert.Kernel.Proto

end
-- ==== Proof.Bits.Body.lean ====
/-
  One device's body, from its share of the ghost state to the kernel's own cells closed and the result in the output's
  staging buffer: the entry handshake, then per layer the partial product into the accumulator and five exchanges, the
  accumulator copied to the output, and the exit handshake. Each stretch is the lemma for it at this device; what carries from
  one to the next is the accumulator's contents, the slots not yet written, and what the device still owes.
-/
import proofs.«900382_g7700000000000383_dist_mlpseq_tp1d_rep_rep_b64_d512_h1024_v7x_i32_bf16_1_alg».proof.Proof.Bits.Step
import proofs.«900382_g7700000000000383_dist_mlpseq_tp1d_rep_rep_b64_d512_h1024_v7x_i32_bf16_1_alg».proof.Proof.Bits.Phases
import proofs.«900382_g7700000000000383_dist_mlpseq_tp1d_rep_rep_b64_d512_h1024_v7x_i32_bf16_1_alg».proof.Proof.Bits.SlotsSplit
import proofs.«900382_g7700000000000383_dist_mlpseq_tp1d_rep_rep_b64_d512_h1024_v7x_i32_bf16_1_alg».proof.Proof.Gen.Kernel.Points

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev t₀ : Fin cfg0.N := t0_0

/-! ## The accumulator at the layers' boundaries -/

theorem accAt_l0 (c : Dev nD) : accAt m 0 c = k0_pay3 (k0_pay1 (xs m c)) (k0_pay2 (wins m 0 c)) (wouts m 0 c) := rfl
theorem accAt_l1 (c : Dev nD) : accAt m 5 c = k0_pay10 (k0_pay9 (accAfter m 4 c) (wins m 1 c)) (wouts m 1 c) := rfl
theorem accAt_l2 (c : Dev nD) : accAt m 10 c = k0_pay18 (k0_pay16 (accAfter m 9 c) (wins m 2 c)) k0_pay17 (wouts m 2 c) := rfl
theorem outAt_eq (c : Dev nD) : outAt m c = accAfter m 14 c := rfl

/-! ## A staging buffer whole at given contents -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The staging buffers read and written whole -/

abbrev rW1 : Rect S512x1024 := Rect.unit (s := S512x1024) ![0, 0] S512x1024.size inb_S512x1024_S512x1024_0_0
abbrev rW2 : Rect S1024x512 := Rect.unit (s := S1024x512) ![0, 0] S1024x512.size inb_S1024x512_S1024x512_0_0
omit [FloatOps F] in
theorem read_stg0 (f : (cc0_stg0_0 : Ref sig .tc).ty.Contents (Elt F)) :
    (Memref.whole cc0_stg0_0 : Memref sig .tc .vmem S64x512 .f32).view.readAt (Elt F) r0.toLoadRect f = f :=
  Memref.readAt_unit_zero (Elt F) cc0_stg0_0 hz2 _ f
omit [FloatOps F] in
theorem read_stg1 (f : (cc0_stg1_0 : Ref sig .tc).ty.Contents (Elt F)) :
    (Memref.whole cc0_stg1_0 : Memref sig .tc .vmem S512x1024 .f32).view.readAt (Elt F) rW1.toLoadRect f = f :=
  Memref.readAt_unit_zero (Elt F) cc0_stg1_0 hz2 _ f
omit [FloatOps F] in
theorem read_stg2 (f : (cc0_stg2_0 : Ref sig .tc).ty.Contents (Elt F)) :
    (Memref.whole cc0_stg2_0 : Memref sig .tc .vmem S1024x512 .f32).view.readAt (Elt F) rW2.toLoadRect f = f :=
  Memref.readAt_unit_zero (Elt F) cc0_stg2_0 hz2 _ f
omit [FloatOps F] in
theorem read_stg3 (f : (cc0_stg3_0 : Ref sig .tc).ty.Contents (Elt F)) :
    (Memref.whole cc0_stg3_0 : Memref sig .tc .vmem S512x1024 .f32).view.readAt (Elt F) rW1.toLoadRect f = f :=
  Memref.readAt_unit_zero (Elt F) cc0_stg3_0 hz2 _ f
omit [FloatOps F] in
theorem read_stg4 (f : (cc0_stg4_0 : Ref sig .tc).ty.Contents (Elt F)) :
    (Memref.whole cc0_stg4_0 : Memref sig .tc .vmem S1024x512 .f32).view.readAt (Elt F) rW2.toLoadRect f = f :=
  Memref.readAt_unit_zero (Elt F) cc0_stg4_0 hz2 _ f
omit [FloatOps F] in
theorem read_stg5 (f : (cc0_stg5_0 : Ref sig .tc).ty.Contents (Elt F)) :
    (Memref.whole cc0_stg5_0 : Memref sig .tc .vmem S512x1024 .f32).view.readAt (Elt F) rW1.toLoadRect f = f :=
  Memref.readAt_unit_zero (Elt F) cc0_stg5_0 hz2 _ f
omit [FloatOps F] in
theorem read_stg6 (f : (cc0_stg6_0 : Ref sig .tc).ty.Contents (Elt F)) :
    (Memref.whole cc0_stg6_0 : Memref sig .tc .vmem S1024x512 .f32).view.readAt (Elt F) rW2.toLoadRect f = f :=
  Memref.readAt_unit_zero (Elt F) cc0_stg6_0 hz2 _ f
omit [FloatOps F] in
theorem write_stg7 (f w : (cc0_stg7_0 : Ref sig .tc).ty.Contents (Elt F)) :
    ((Memref.whole cc0_stg7_0 : Memref sig .tc .vmem S64x512 .f32).access r0 : View sig .tc _ _ _).write (Elt F) f w Finset.univ = w :=
  Memref.write_access_unit_zero_univ (Elt F) cc0_stg7_0 hz2 _ f w

section Body

variable (K : GSem nD τ sig → ℕ)

def bodyPre (c : Dev nD) : sProp 𝕄 :=
  iprop((ghost m K c ∗ creds c ∗ levAts L lv ∗ (∃ f, accPts c f) ∗ (∃ f, rcvPts c f))
    ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(Φ₁ c ∗ (dats m ρ 0 c).owesAt () t₀.succ
    ∗ stg c cc0_stg0_0 (xs m c)
    ∗ stg c cc0_stg1_0 (wins m 0 c)
    ∗ stg c cc0_stg2_0 (wouts m 0 c)
    ∗ stg c cc0_stg3_0 (wins m 1 c)
    ∗ stg c cc0_stg4_0 (wouts m 1 c)
    ∗ stg c cc0_stg5_0 (wins m 2 c)
    ∗ stg c cc0_stg6_0 (wouts m 2 c)
    ∗ stg c cc0_stg7_0 (outAt m c))

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem toNat1 : (1#32 : BitVec 32).toNat = 1 := rfl
theorem toNat5 : (5#32 : BitVec 32).toNat = 5 := rfl

set_option maxHeartbeats 16000000 in
set_option maxRecDepth 65536 in
/-- The body, from the device's share of the ghost state, one lemma per stretch in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scoped0) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId, toNat1, toNat5]
  unfold bodyPre ghost positions payToks creds
  simp only [bigSep_fin5, bigSep_fin15]
  iintro ⟨⟨⟨⟨#HR, ⟨HaB, HaE, ⟨HaS0, HaS1, HaS2, HaS3, HaS4, HaS5, HaS6, HaS7, HaS8, HaS9, HaS10, HaS11, HaS12, HaS13, HaS14⟩, ⟨HaV0, HaV1, HaV2, HaV3, HaV4, HaV5, HaV6, HaV7, HaV8, HaV9, HaV10, HaV11, HaV12, HaV13, HaV14⟩⟩, ⟨⟨HtB0, HtB1, HtB2, HtB3, HtB4⟩, ⟨HtE0, HtE1, HtE2, HtE3, HtE4⟩, ⟨HtV0, HtV1, HtV2, HtV3, HtV4, HtV5, HtV6, HtV7, HtV8, HtV9, HtV10, HtV11, HtV12, HtV13, HtV14⟩, ⟨HtS0, HtS1, HtS2, HtS3, HtS4, HtS5, HtS6, HtS7, HtS8, HtS9, HtS10, HtS11, HtS12, HtS13, HtS14⟩⟩⟩, ⟨HcB, HcE, ⟨HcV0, HcV1, HcV2, HcV3, HcV4, HcV5, HcV6, HcV7, HcV8, HcV9, HcV10, HcV11, HcV12, HcV13, HcV14⟩⟩, #Hlev, ⟨%fa, Hacc⟩, ⟨%fr, Hrcv⟩⟩,
    Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩, ⟨%d5, %g5, %hg5, Hx5⟩, ⟨%d6, %g6, %hg6, Hx6⟩, ⟨%d7, %g7, %hg7, Hx7⟩⟩, Hk⟩
  have hx0 : g0 = xs m c := by rw [hg0]; unfold Dat.before; rw [if_pos (fetch0_0 t₀)]; rfl
  subst hx0
  have hx1 : g1 = wins m 0 c := by rw [hg1]; unfold Dat.before; rw [if_pos (fetch0_1 t₀)]; rfl
  subst hx1
  have hx2 : g2 = wouts m 0 c := by rw [hg2]; unfold Dat.before; rw [if_pos (fetch0_2 t₀)]; rfl
  subst hx2
  have hx3 : g3 = wins m 1 c := by rw [hg3]; unfold Dat.before; rw [if_pos (fetch0_3 t₀)]; rfl
  subst hx3
  have hx4 : g4 = wouts m 1 c := by rw [hg4]; unfold Dat.before; rw [if_pos (fetch0_4 t₀)]; rfl
  subst hx4
  have hx5 : g5 = wins m 2 c := by rw [hg5]; unfold Dat.before; rw [if_pos (fetch0_5 t₀)]; rfl
  subst hx5
  have hx6 : g6 = wouts m 2 c := by rw [hg6]; unfold Dat.before; rw [if_pos (fetch0_6 t₀)]; rfl
  subst hx6
  unfold Dat.owesAt Pipeline.owesWithin
  icases Ho with ⟨%W, %hW, HO⟩
  rw [show (dats m ρ 0 c).owed t₀.castSucc = owedFrom 0 c from rfl]
  unfold rcvPts
  ihave Hsl := (rcv_split (F := F) c fr).mp $$ Hrcv
  simp only [bigSep_fin15]
  icases Hsl with ⟨Hs0, Hs1, Hs2, Hs3, Hs4, Hs5, Hs6, Hs7, Hs8, Hs9, Hs10, Hs11, Hs12, Hs13, Hs14⟩
  -- the entry signal across bit 0
  iapply (sig_bar m K c _ (0 : Fin 5) (dev1_eq c) W) $$ [HO HtB0 Hs0 Hs5 Hs10]
  · isplitr; · iexact HR
    isplitl [HO]; · iexact HO
    isplitl [HtB0]; · iexact HtB0
    isplitl [Hs0]; · iexists fr; iexact Hs0
    isplitl [Hs5]; · iexists fr; iexact Hs5
    iexists fr; iexact Hs10
  iintro HO
  -- the entry signal across bit 1
  iapply (sig_bar m K c _ (1 : Fin 5) (dev2_eq c) W) $$ [HO HtB1 Hs1 Hs6 Hs11]
  · isplitr; · iexact HR
    isplitl [HO]; · iexact HO
    isplitl [HtB1]; · iexact HtB1
    isplitl [Hs1]; · iexists fr; iexact Hs1
    isplitl [Hs6]; · iexists fr; iexact Hs6
    iexists fr; iexact Hs11
  iintro HO
  -- the entry signal across bit 2
  iapply (sig_bar m K c _ (2 : Fin 5) (dev3_eq c) W) $$ [HO HtB2 Hs2 Hs7 Hs12]
  · isplitr; · iexact HR
    isplitl [HO]; · iexact HO
    isplitl [HtB2]; · iexact HtB2
    isplitl [Hs2]; · iexists fr; iexact Hs2
    isplitl [Hs7]; · iexists fr; iexact Hs7
    iexists fr; iexact Hs12
  iintro HO
  -- the entry signal across bit 3
  iapply (sig_bar m K c _ (3 : Fin 5) (dev4_eq c) W) $$ [HO HtB3 Hs3 Hs8 Hs13]
  · isplitr; · iexact HR
    isplitl [HO]; · iexact HO
    isplitl [HtB3]; · iexact HtB3
    isplitl [Hs3]; · iexists fr; iexact Hs3
    isplitl [Hs8]; · iexists fr; iexact Hs8
    iexists fr; iexact Hs13
  iintro HO
  -- the entry signal across bit 4
  iapply (sig_bar m K c _ (4 : Fin 5) (dev5_eq c) W) $$ [HO HtB4 Hs4 Hs9 Hs14]
  · isplitr; · iexact HR
    isplitl [HO]; · iexact HO
    isplitl [HtB4]; · iexact HtB4
    isplitl [Hs4]; · iexists fr; iexact Hs4
    isplitl [Hs9]; · iexists fr; iexact Hs9
    iexists fr; iexact Hs14
  iintro HO
  -- the entry wait
  iapply (wait_bar m K c W) $$ [HO HcB HaB]
  · isplitr; · iexact HR
    isplitr; · iexact Hlev
    isplitl [HO]; · iexact HO
    isplitl [HcB]; · iexact HcB
    iexact HaB
  iintro ⟨HO, Hpay⟩
  unfold barPay
  simp only [bigSep_fin5, bigSep_fin3]
  icases Hpay with ⟨⟨⟨Hp0, -⟩, ⟨Hp5, -⟩, ⟨Hp10, -⟩⟩, ⟨⟨Hp1, -⟩, ⟨Hp6, -⟩, ⟨Hp11, -⟩⟩, ⟨⟨Hp2, -⟩, ⟨Hp7, -⟩, ⟨Hp12, -⟩⟩, ⟨⟨Hp3, -⟩, ⟨Hp8, -⟩, ⟨Hp13, -⟩⟩, ⟨⟨Hp4, -⟩, ⟨Hp9, -⟩, ⟨Hp14, -⟩⟩⟩
  -- layer 0: the partial product into the accumulator
  iapply (wp_load 𝒱₀ (c : Thread nD τ) none Set.univ (m := (Memref.whole cc0_stg0_0 : Memref sig .tc .vmem _ .f32)) (Finset.subset_univ _)) $$ Hx0; iintro Hx0
  rw [read_stg0]
  iapply (wp_load 𝒱₀ (c : Thread nD τ) none Set.univ (m := (Memref.whole cc0_stg1_0 : Memref sig .tc .vmem _ .f32)) (Finset.subset_univ _)) $$ Hx1; iintro Hx1
  rw [read_stg1]
  iapply (wp_load 𝒱₀ (c : Thread nD τ) none Set.univ (m := (Memref.whole cc0_stg2_0 : Memref sig .tc .vmem _ .f32)) (Finset.subset_univ _)) $$ Hx2; iintro Hx2
  rw [read_stg2]
  ihave Hacc := (Entails.of_eq (accPts_eq (F := F) c fa)) $$ Hacc
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l0 m c]
  ihave Hacc := (Entails.of_eq (accPts_eq (F := F) c _).symm) $$ Hacc
  -- exchange 0
  iapply (step m K c _ (0 : Fin 15) (dev6_eq c) (insert (SemLoc.reg barS, ()) W)) $$ [HO Hacc Hp0 HaS0 HaV0 HtS0 HtV0 HcV0]
  · isplitr; · iexact HR
    isplitr; · iexact Hlev
    isplitl [HO]; · iexact HO
    isplitl [Hacc]; · iexact Hacc
    isplitl [Hp0]; · iexact Hp0
    isplitl [HaS0]; · iexact HaS0
    isplitl [HaV0]; · iexact HaV0
    isplitl [HtS0]; · iexact HtS0
    isplitl [HtV0]; · iexact HtV0
    iexact HcV0
  iintro ⟨HO, Hacc, Hown0, HzS0, HzV0⟩
  -- exchange 1
  iapply (step m K c _ (1 : Fin 15) (dev7_eq c) (insert (SemLoc.dma (recvS (0 : Fin 15)), ()) (insert (SemLoc.dma (sendS (0 : Fin 15)), ()) (insert (SemLoc.reg barS, ()) W)))) $$ [HO Hacc Hp1 HaS1 HaV1 HtS1 HtV1 HcV1]
  · isplitr; · iexact HR
    isplitr; · iexact Hlev
    isplitl [HO]; · iexact HO
    isplitl [Hacc]; · iexact Hacc
    isplitl [Hp1]; · iexact Hp1
    isplitl [HaS1]; · iexact HaS1
    isplitl [HaV1]; · iexact HaV1
    isplitl [HtS1]; · iexact HtS1
    isplitl [HtV1]; · iexact HtV1
    iexact HcV1
  iintro ⟨HO, Hacc, Hown1, HzS1, HzV1⟩
  -- exchange 2
  iapply (step m K c _ (2 : Fin 15) (dev8_eq c) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))) $$ [HO Hacc Hp2 HaS2 HaV2 HtS2 HtV2 HcV2]
  · isplitr; · iexact HR
    isplitr; · iexact Hlev
    isplitl [HO]; · iexact HO
    isplitl [Hacc]; · iexact Hacc
    isplitl [Hp2]; · iexact Hp2
    isplitl [HaS2]; · iexact HaS2
    isplitl [HaV2]; · iexact HaV2
    isplitl [HtS2]; · iexact HtS2
    isplitl [HtV2]; · iexact HtV2
    iexact HcV2
  iintro ⟨HO, Hacc, Hown2, HzS2, HzV2⟩
  -- exchange 3
  iapply (step m K c _ (3 : Fin 15) (dev9_eq c) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))) $$ [HO Hacc Hp3 HaS3 HaV3 HtS3 HtV3 HcV3]
  · isplitr; · iexact HR
    isplitr; · iexact Hlev
    isplitl [HO]; · iexact HO
    isplitl [Hacc]; · iexact Hacc
    isplitl [Hp3]; · iexact Hp3
    isplitl [HaS3]; · iexact HaS3
    isplitl [HaV3]; · iexact HaV3
    isplitl [HtS3]; · iexact HtS3
    isplitl [HtV3]; · iexact HtV3
    iexact HcV3
  iintro ⟨HO, Hacc, Hown3, HzS3, HzV3⟩
  -- exchange 4
  iapply (step m K c _ (4 : Fin 15) (dev10_eq c) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))) $$ [HO Hacc Hp4 HaS4 HaV4 HtS4 HtV4 HcV4]
  · isplitr; · iexact HR
    isplitr; · iexact Hlev
    isplitl [HO]; · iexact HO
    isplitl [Hacc]; · iexact Hacc
    isplitl [Hp4]; · iexact Hp4
    isplitl [HaS4]; · iexact HaS4
    isplitl [HaV4]; · iexact HaV4
    isplitl [HtS4]; · iexact HtS4
    isplitl [HtV4]; · iexact HtV4
    iexact HcV4
  iintro ⟨HO, Hacc, Hown4, HzS4, HzV4⟩
  -- layer 1: the partial product of the all-reduced sum into the accumulator
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg3_0 : Memref sig .tc .vmem _ .f32)) (Finset.subset_univ _)) $$ Hx3; iintro Hx3
  rw [read_stg3]
  iapply (wp_load 𝒱₀ (c : Thread nD τ) none Set.univ (m := (Memref.whole cc0_stg4_0 : Memref sig .tc .vmem _ .f32)) (Finset.subset_univ _)) $$ Hx4; iintro Hx4
  rw [read_stg4]
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l1 m c]
  ihave Hacc := (Entails.of_eq (accPts_eq (F := F) c _).symm) $$ Hacc
  -- exchange 5
  iapply (step m K c _ (5 : Fin 15) (dev11_eq c) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))) $$ [HO Hacc Hp5 HaS5 HaV5 HtS5 HtV5 HcV5]
  · isplitr; · iexact HR
    isplitr; · iexact Hlev
    isplitl [HO]; · iexact HO
    isplitl [Hacc]; · iexact Hacc
    isplitl [Hp5]; · iexact Hp5
    isplitl [HaS5]; · iexact HaS5
    isplitl [HaV5]; · iexact HaV5
    isplitl [HtS5]; · iexact HtS5
    isplitl [HtV5]; · iexact HtV5
    iexact HcV5
  iintro ⟨HO, Hacc, Hown5, HzS5, HzV5⟩
  -- exchange 6
  iapply (step m K c _ (6 : Fin 15) (dev12_eq c) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))) $$ [HO Hacc Hp6 HaS6 HaV6 HtS6 HtV6 HcV6]
  · isplitr; · iexact HR
    isplitr; · iexact Hlev
    isplitl [HO]; · iexact HO
    isplitl [Hacc]; · iexact Hacc
    isplitl [Hp6]; · iexact Hp6
    isplitl [HaS6]; · iexact HaS6
    isplitl [HaV6]; · iexact HaV6
    isplitl [HtS6]; · iexact HtS6
    isplitl [HtV6]; · iexact HtV6
    iexact HcV6
  iintro ⟨HO, Hacc, Hown6, HzS6, HzV6⟩
  -- exchange 7
  iapply (step m K c _ (7 : Fin 15) (dev13_eq c) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))) $$ [HO Hacc Hp7 HaS7 HaV7 HtS7 HtV7 HcV7]
  · isplitr; · iexact HR
    isplitr; · iexact Hlev
    isplitl [HO]; · iexact HO
    isplitl [Hacc]; · iexact Hacc
    isplitl [Hp7]; · iexact Hp7
    isplitl [HaS7]; · iexact HaS7
    isplitl [HaV7]; · iexact HaV7
    isplitl [HtS7]; · iexact HtS7
    isplitl [HtV7]; · iexact HtV7
    iexact HcV7
  iintro ⟨HO, Hacc, Hown7, HzS7, HzV7⟩
  -- exchange 8
  iapply (step m K c _ (8 : Fin 15) (dev14_eq c) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))) $$ [HO Hacc Hp8 HaS8 HaV8 HtS8 HtV8 HcV8]
  · isplitr; · iexact HR
    isplitr; · iexact Hlev
    isplitl [HO]; · iexact HO
    isplitl [Hacc]; · iexact Hacc
    isplitl [Hp8]; · iexact Hp8
    isplitl [HaS8]; · iexact HaS8
    isplitl [HaV8]; · iexact HaV8
    isplitl [HtS8]; · iexact HtS8
    isplitl [HtV8]; · iexact HtV8
    iexact HcV8
  iintro ⟨HO, Hacc, Hown8, HzS8, HzV8⟩
  -- exchange 9
  iapply (step m K c _ (9 : Fin 15) (dev15_eq c) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))) $$ [HO Hacc Hp9 HaS9 HaV9 HtS9 HtV9 HcV9]
  · isplitr; · iexact HR
    isplitr; · iexact Hlev
    isplitl [HO]; · iexact HO
    isplitl [Hacc]; · iexact Hacc
    isplitl [Hp9]; · iexact Hp9
    isplitl [HaS9]; · iexact HaS9
    isplitl [HaV9]; · iexact HaV9
    isplitl [HtS9]; · iexact HtS9
    isplitl [HtV9]; · iexact HtV9
    iexact HcV9
  iintro ⟨HO, Hacc, Hown9, HzS9, HzV9⟩
  -- layer 2: the partial product of the all-reduced sum into the accumulator
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg5_0 : Memref sig .tc .vmem _ .f32)) (Finset.subset_univ _)) $$ Hx5; iintro Hx5
  rw [read_stg5]
  iapply (wp_load 𝒱₀ (c : Thread nD τ) none Set.univ (m := (Memref.whole cc0_stg6_0 : Memref sig .tc .vmem _ .f32)) (Finset.subset_univ _)) $$ Hx6; iintro Hx6
  rw [read_stg6]
  iapply (wp_load 𝒱₀ (c : Thread nD τ) none Set.univ (m := accM) (Finset.subset_univ _)) $$ Hacc; iintro Hacc
  iapply (wp_store 𝒱₀ (c : Thread nD τ) none Set.univ (m := accM) (r := r0) (Mk := Finset.univ) (Finset.subset_univ _)) $$ Hacc; iintro Hacc
  rw [write_acc, ← accAt_l2 m c]
  ihave Hacc := (Entails.of_eq (accPts_eq (F := F) c _).symm) $$ Hacc
  -- exchange 10
  iapply (step m K c _ (10 : Fin 15) (dev16_eq c) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))) $$ [HO Hacc Hp10 HaS10 HaV10 HtS10 HtV10 HcV10]
  · isplitr; · iexact HR
    isplitr; · iexact Hlev
    isplitl [HO]; · iexact HO
    isplitl [Hacc]; · iexact Hacc
    isplitl [Hp10]; · iexact Hp10
    isplitl [HaS10]; · iexact HaS10
    isplitl [HaV10]; · iexact HaV10
    isplitl [HtS10]; · iexact HtS10
    isplitl [HtV10]; · iexact HtV10
    iexact HcV10
  iintro ⟨HO, Hacc, Hown10, HzS10, HzV10⟩
  -- exchange 11
  iapply (step m K c _ (11 : Fin 15) (dev17_eq c) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))) $$ [HO Hacc Hp11 HaS11 HaV11 HtS11 HtV11 HcV11]
  · isplitr; · iexact HR
    isplitr; · iexact Hlev
    isplitl [HO]; · iexact HO
    isplitl [Hacc]; · iexact Hacc
    isplitl [Hp11]; · iexact Hp11
    isplitl [HaS11]; · iexact HaS11
    isplitl [HaV11]; · iexact HaV11
    isplitl [HtS11]; · iexact HtS11
    isplitl [HtV11]; · iexact HtV11
    iexact HcV11
  iintro ⟨HO, Hacc, Hown11, HzS11, HzV11⟩
  -- exchange 12
  iapply (step m K c _ (12 : Fin 15) (dev18_eq c) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))) $$ [HO Hacc Hp12 HaS12 HaV12 HtS12 HtV12 HcV12]
  · isplitr; · iexact HR
    isplitr; · iexact Hlev
    isplitl [HO]; · iexact HO
    isplitl [Hacc]; · iexact Hacc
    isplitl [Hp12]; · iexact Hp12
    isplitl [HaS12]; · iexact HaS12
    isplitl [HaV12]; · iexact HaV12
    isplitl [HtS12]; · iexact HtS12
    isplitl [HtV12]; · iexact HtV12
    iexact HcV12
  iintro ⟨HO, Hacc, Hown12, HzS12, HzV12⟩
  -- exchange 13
  iapply (step m K c _ (13 : Fin 15) (dev19_eq c) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))) $$ [HO Hacc Hp13 HaS13 HaV13 HtS13 HtV13 HcV13]
  · isplitr; · iexact HR
    isplitr; · iexact Hlev
    isplitl [HO]; · iexact HO
    isplitl [Hacc]; · iexact Hacc
    isplitl [Hp13]; · iexact Hp13
    isplitl [HaS13]; · iexact HaS13
    isplitl [HaV13]; · iexact HaV13
    isplitl [HtS13]; · iexact HtS13
    isplitl [HtV13]; · iexact HtV13
    iexact HcV13
  iintro ⟨HO, Hacc, Hown13, HzS13, HzV13⟩
  -- exchange 14
  iapply (step m K c _ (14 : Fin 15) (dev20_eq c) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))) $$ [HO Hacc Hp14 HaS14 HaV14 HtS14 HtV14 HcV14]
  · isplitr; · iexact HR
    isplitr; · iexact Hlev
    isplitl [HO]; · iexact HO
    isplitl [Hacc]; · iexact Hacc
    isplitl [Hp14]; · iexact Hp14
    isplitl [HaS14]; · iexact HaS14
    isplitl [HaV14]; · iexact HaV14
    isplitl [HtS14]; · iexact HtS14
    isplitl [HtV14]; · iexact HtV14
    iexact HcV14
  iintro ⟨HO, Hacc, Hown14, HzS14, HzV14⟩
  -- the result into the output's staging buffer
  ihave Hacc := (Entails.of_eq (accPts_eq (F := F) c _)) $$ Hacc
  iapply (wp_load 𝒱₀ (c : Thread nD τ) none Set.univ (m := accM) (Finset.subset_univ _)) $$ Hacc; iintro Hacc
  rw [read_acc]
  iapply (wp_load 𝒱₀ (c : Thread nD τ) none Set.univ (m := (Memref.whole cc0_stg7_0 : Memref sig .tc .vmem _ .f32)) (Finset.subset_univ _)) $$ Hx7; iintro Hx7
  iapply (wp_store 𝒱₀ (c : Thread nD τ) none Set.univ (m := (Memref.whole cc0_stg7_0 : Memref sig .tc .vmem _ .f32)) (r := r0) (Mk := Finset.univ) (Finset.subset_univ _)) $$ Hx7; iintro Hx7
  rw [write_stg7]
  -- the exit signal across bit 0
  iapply (sig_exit m K c _ (0 : Fin 5) (dev21_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE0]
  · isplitr; · iexact HR
    isplitl [HO]; · iexact HO
    iexact HtE0
  iintro HO
  -- the exit signal across bit 1
  iapply (sig_exit m K c _ (1 : Fin 5) (dev22_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE1]
  · isplitr; · iexact HR
    isplitl [HO]; · iexact HO
    iexact HtE1
  iintro HO
  -- the exit signal across bit 2
  iapply (sig_exit m K c _ (2 : Fin 5) (dev23_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE2]
  · isplitr; · iexact HR
    isplitl [HO]; · iexact HO
    iexact HtE2
  iintro HO
  -- the exit signal across bit 3
  iapply (sig_exit m K c _ (3 : Fin 5) (dev24_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE3]
  · isplitr; · iexact HR
    isplitl [HO]; · iexact HO
    iexact HtE3
  iintro HO
  -- the exit signal across bit 4
  iapply (sig_exit m K c _ (4 : Fin 5) (dev25_eq c) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HtE4]
  · isplitr; · iexact HR
    isplitl [HO]; · iexact HO
    iexact HtE4
  iintro HO
  -- the exit wait
  have h25 : owedFrom (20 + (4 : Fin 5).val + 1) c = 0 := owedFrom_end c
  rw [h25]
  iapply (wait_exit m K c (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W)))))))))))))))))))))))))))))))) $$ [HO HcE HaE]
  · isplitr; · iexact HR
    isplitl [HO]; · iexact HO
    isplitl [HcE]; · iexact HcE
    iexact HaE
  iintro ⟨HO, HzE⟩
  rw [wp_ret]; imodintro
  iapply Hk
  unfold bodyPost Φ₁ ownZero rcvPts Dat.owesAt Pipeline.owesWithin
  rw [show (dats m ρ 0 c).owed t₀.succ = 0 from rfl]
  isplitl [Hacc Hown0 Hown1 Hown2 Hown3 Hown4 Hown5 Hown6 Hown7 Hown8 Hown9 Hown10 Hown11 Hown12 Hown13 Hown14 HzE HzS0 HzS1 HzS2 HzS3 HzS4 HzS5 HzS6 HzS7 HzS8 HzS9 HzS10 HzS11 HzS12 HzS13 HzS14 HzV0 HzV1 HzV2 HzV3 HzV4 HzV5 HzV6 HzV7 HzV8 HzV9 HzV10 HzV11 HzV12 HzV13 HzV14]
  · isplitl [Hacc]
    · iexists (accAfter m 14 c)
      ihave H := (Entails.of_eq (accPts_eq (F := F) c (accAfter m 14 c)).symm) $$ Hacc
      iexact H
    isplitl [Hown0 Hown1 Hown2 Hown3 Hown4 Hown5 Hown6 Hown7 Hown8 Hown9 Hown10 Hown11 Hown12 Hown13 Hown14]
    · iexists (rcvAll m c)
      iapply (rcv_split (F := F) c (rcvAll m c)).mpr
      simp only [bigSep_fin15]
      isplitl [Hown0]; · iexact Hown0
      isplitl [Hown1]; · iexact Hown1
      isplitl [Hown2]; · iexact Hown2
      isplitl [Hown3]; · iexact Hown3
      isplitl [Hown4]; · iexact Hown4
      isplitl [Hown5]; · iexact Hown5
      isplitl [Hown6]; · iexact Hown6
      isplitl [Hown7]; · iexact Hown7
      isplitl [Hown8]; · iexact Hown8
      isplitl [Hown9]; · iexact Hown9
      isplitl [Hown10]; · iexact Hown10
      isplitl [Hown11]; · iexact Hown11
      isplitl [Hown12]; · iexact Hown12
      isplitl [Hown13]; · iexact Hown13
      iexact Hown14
    isplitl [HzE]; · iexact HzE
    simp only [bigSep_fin15]
    isplitl [HzS0 HzS1 HzS2 HzS3 HzS4 HzS5 HzS6 HzS7 HzS8 HzS9 HzS10 HzS11 HzS12 HzS13 HzS14]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      iexact HzS14
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    isplitl [HzV7]; · iexact HzV7
    isplitl [HzV8]; · iexact HzV8
    isplitl [HzV9]; · iexact HzV9
    isplitl [HzV10]; · iexact HzV10
    isplitl [HzV11]; · iexact HzV11
    isplitl [HzV12]; · iexact HzV12
    isplitl [HzV13]; · iexact HzV13
    iexact HzV14
  isplitl [HO]
  · iexists (insert (SemLoc.reg exitS, ()) (insert (SemLoc.dma (recvS (14 : Fin 15)), ()) (insert (SemLoc.dma (sendS (14 : Fin 15)), ()) (insert (SemLoc.dma (recvS (13 : Fin 15)), ()) (insert (SemLoc.dma (sendS (13 : Fin 15)), ()) (insert (SemLoc.dma (recvS (12 : Fin 15)), ()) (insert (SemLoc.dma (sendS (12 : Fin 15)), ()) (insert (SemLoc.dma (recvS (11 : Fin 15)), ()) (insert (SemLoc.dma (sendS (11 : Fin 15)), ()) (insert (SemLoc.dma (recvS (10 : Fin 15)), ()) (insert (SemLoc.dma (sendS (10 : Fin 15)), ()) (insert (SemLoc.dma (recvS (9 : Fin 15)), ()) (insert (SemLoc.dma (sendS (9 : Fin 15)), ()) (insert (SemLoc.dma (recvS (8 : Fin 15)), ()) (insert (SemLoc.dma (sendS (8 : Fin 15)), ()) (insert (SemLoc.dma (recvS (7 : Fin 15)), ()) (insert (SemLoc.dma (sendS (7 : Fin 15)), ()) (insert (SemLoc.dma (recvS (6 : Fin 15)), ()) (insert (SemLoc.dma (sendS (6 : Fin 15)), ()) (insert (SemLoc.dma (recvS (5 : Fin 15)), ()) (insert (SemLoc.dma (sendS (5 : Fin 15)), ()) (insert (SemLoc.dma (recvS (4 : Fin 15)), ()) (insert (SemLoc.dma (sendS (4 : Fin 15)), ()) (insert (SemLoc.dma (recvS (3 : Fin 15)), ()) (insert (SemLoc.dma (sendS (3 : Fin 15)), ()) (insert (SemLoc.dma (recvS (2 : Fin 15)), ()) (insert (SemLoc.dma (sendS (2 : Fin 15)), ()) (insert (SemLoc.dma (recvS (1 : Fin 15)), ()) (insert (SemLoc.dma (sendS (1 : Fin 15)), ()) (insert (SemLoc.dma (recvS (0 : Fin 15)), ()) (insert (SemLoc.dma (sendS (0 : Fin 15)), ()) (insert (SemLoc.reg barS, ()) W))))))))))))))))))))))))))))))))
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  iexists _; isplitr; · (ipureintro; rfl)
  iexact Hx7

end Body

set_option maxRecDepth 8000 in
def bodyPre' (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxHeartbeats 4000000 in
set_option maxRecDepth 65536 in
/-- The pipeline's body obligation on device `c`, at its one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 cc0_scoped0) (fun _ => bodyPost m ρ c)
  unfold bodyPre' Φ₀ start
  iintro ⟨⟨⟨⟨%K, Hg⟩, Hcr, Hlev⟩, Hacc, Hrcv⟩, Ho, Hx0, Hx1, Hx2, Hx3, Hx4, Hx5, Hx6, Hx7⟩
  iapply (sound_body m ρ K c fun _ => bodyPost m ρ c)
  unfold bodyPre
  isplitr []
  · isplitl [Hg Hcr Hlev Hacc Hrcv]
    · isplitl [Hg]; · iexact Hg
      isplitl [Hcr]; · iexact Hcr
      isplitl [Hlev]; · iexact Hlev
      isplitl [Hacc]; · iexact Hacc
      iexact Hrcv
    isplitl [Ho]; · iexact Ho
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  · iintro H; iexact H

end Cert.Kernel.Proto

end
-- ==== Proof.Bits.LaunchAlloc.lean ====
/-
  The launch of the exchange, first part: the ghost state every device starts from.

  The exchange's cells are, per device, the barrier cell, the exit cell, fifteen send and fifteen receive cells. The launch
  element holds every cell at its launch state and one token per duty; the tokens are minted per OWNER and dealt to the
  PAYERS: duty `k` of a barrier or exit cell to the partner across bit `k`, a receive cell's duty to the partner of its
  exchange. Each device then turns its own cells' counters at zero and round states into the cells' invariants; all the
  invariants together are the records every device holds.
-/
import proofs.«900382_g7700000000000383_dist_mlpseq_tp1d_rep_rep_b64_d512_h1024_v7x_i32_bf16_1_alg».proof.Proof.Bits.Ghost

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the exchange's cells, indexed -/

/-- The kernel's own (scoped) semaphores: the exit semaphore, the send and the receive semaphores. -/
abbrev OK : Type := Unit ⊕ (Fin 15 ⊕ Fin 15)
abbrev osem : OK → SemLoc sig
  | .inl _ => .reg exitS
  | .inr (.inl j) => .dma (sendS j)
  | .inr (.inr j) => .dma (recvS j)

/-- All of the exchange's semaphores: the barrier and the own ones. -/
abbrev KX : Type := Unit ⊕ OK
abbrev csem : KX → SemLoc sig
  | .inl _ => .reg barS
  | .inr k => osem k
abbrev kcell (ck : Dev nD × KX) : GSem nD τ sig := ((ck.1 : Thread nD τ), csem ck.2)

theorem send_inj {j j' : Fin 15} (h : sendS j = sendS j') : j = j' := by
  have h' := congrArg Fin.val h
  rw [sendS_val, sendS_val] at h'
  exact Fin.ext (by omega)
theorem recv_inj {j j' : Fin 15} (h : recvS j = recvS j') : j = j' := by
  have h' := congrArg Fin.val h
  rw [recvS_val, recvS_val] at h'
  exact Fin.ext (by omega)
theorem send_ne_recv (j j' : Fin 15) : sendS j ≠ recvS j' := fun h => by
  have h' := congrArg Fin.val h
  rw [sendS_val, recvS_val] at h'
  have := j.isLt
  omega

theorem ownSemFacts : Pipeline.OwnSemFacts cfg0.spec osem := by decide

theorem csem_injective : Function.Injective csem := by
  intro a b h
  rcases a with u | u | j | j <;> rcases b with u' | u' | j' | j'
  all_goals first
    | rfl
    | exact absurd (SemLoc.reg.inj h) barS_ne_exitS
    | exact absurd (SemLoc.reg.inj h).symm barS_ne_exitS
    | exact congrArg (fun j => Sum.inr (Sum.inr (Sum.inl j))) (send_inj (SemLoc.dma.inj h))
    | exact congrArg (fun j => Sum.inr (Sum.inr (Sum.inr j))) (recv_inj (SemLoc.dma.inj h))
    | exact absurd (SemLoc.dma.inj h) (send_ne_recv _ _)
    | exact absurd (SemLoc.dma.inj h).symm (send_ne_recv _ _)
    | cases h

theorem kcell_injective : Function.Injective (kcell : Dev nD × KX → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The exchange's cells are the indexed ones. -/
theorem cells_eq : (cells : Finset (GSem nD τ sig)) = Finset.univ.map ⟨kcell, kcell_injective⟩ := by
  ext g
  rw [Finset.mem_map]
  constructor
  · intro hg
    unfold cells at hg
    rw [Finset.mem_filter] at hg
    obtain ⟨-, htc, hex⟩ := hg
    obtain ⟨⟨d, p⟩, s⟩ := g
    have hp : p = .tc := htc
    subst hp
    cases s with
    | reg s =>
      have hs : s = barS ∨ s = exitS := of_decide_eq_true hex
      rcases hs with rfl | rfl
      · exact ⟨(d, .inl ()), Finset.mem_univ _, rfl⟩
      · exact ⟨(d, .inr (.inl ())), Finset.mem_univ _, rfl⟩
    | dma q =>
      have h8 : 8 ≤ q.val := of_decide_eq_true hex
      have h38 : q.val < 38 := q.isLt
      by_cases h23 : q.val < 23
      · have e : sendS ⟨q.val - 8, by omega⟩ = q := Fin.ext (by rw [sendS_val]; show 8 + (q.val - 8) = q.val; omega)
        exact ⟨(d, .inr (.inr (.inl ⟨q.val - 8, by omega⟩))), Finset.mem_univ _,
          congrArg (fun q' : DmaSem sig => (((d, Proc.tc) : Thread nD τ), SemLoc.dma q')) e⟩
      · have e : recvS ⟨q.val - 23, by omega⟩ = q := Fin.ext (by rw [recvS_val]; show 23 + (q.val - 23) = q.val; omega)
        exact ⟨(d, .inr (.inr (.inr ⟨q.val - 23, by omega⟩))), Finset.mem_univ _,
          congrArg (fun q' : DmaSem sig => (((d, Proc.tc) : Thread nD τ), SemLoc.dma q')) e⟩
  · rintro ⟨⟨c, k⟩, -, rfl⟩
    rcases k with u | u | j | j
    · exact mem_cells_bar c
    · exact mem_cells_exit c
    · exact mem_cells_send c j
    · exact mem_cells_recv c j

omit [FloatOps F] in
theorem bigSep_KX (Φ : KX → sProp 𝕄) :
    bigSep Finset.univ Φ = iprop(Φ (.inl ()) ∗ Φ (.inr (.inl ())) ∗ (bigSep Finset.univ fun j : Fin 15 => Φ (.inr (.inr (.inl j))))
      ∗ (bigSep Finset.univ fun j : Fin 15 => Φ (.inr (.inr (.inr j))))) := by
  rw [bigSep_univ_sum, bigSep_univ_sum, bigSep_univ_sum, bigSep_univ_of_subsingleton (), bigSep_univ_of_subsingleton ()]
  rfl

omit [FloatOps F] in
/-- Over the exchange's cells, device by device. -/
theorem bigSep_cells (Φ : GSem nD τ sig → sProp 𝕄) :
    bigSep cells Φ = bigSep Finset.univ fun c : Dev nD => bigSep Finset.univ fun k : KX => Φ (kcell (c, k)) := by
  rw [cells_eq, bigSep_map, bigSep_univ_prod]; rfl

/-! ## The tokens as minted -/

/-- A device's own cells' duties: the barrier's five, the exit cell's five, each send and each receive cell's one. -/
abbrev TK : Type := (Fin 5 ⊕ Fin 5) ⊕ (Fin 15 ⊕ Fin 15)
abbrev tokOf (ct : Dev nD × TK) : GSem nD τ sig × ℕ × Fin 5 := match ct.2 with
  | .inl (.inl k) => (barCell ct.1, 0, k)
  | .inl (.inr k) => (exitCell ct.1, 0, k)
  | .inr (.inl j) => (sendCell ct.1 j, 0, 0)
  | .inr (.inr j) => (recvCell ct.1 j, 0, 0)
theorem tokOf_injective : Function.Injective (tokOf : Dev nD × TK → GSem nD τ sig × ℕ × Fin 5) := by
  rintro ⟨c, t⟩ ⟨c', t'⟩ h
  have hc : c = c' := by
    have h1 := congrArg (fun x : GSem nD τ sig × ℕ × Fin 5 => x.1.1.1) h
    rcases t with (k | k) | (j | j) <;> rcases t' with (k' | k') | (j' | j') <;> exact h1
  subst hc
  have hs := congrArg (fun x : GSem nD τ sig × ℕ × Fin 5 => x.1.2) h
  have hd := congrArg (fun x : GSem nD τ sig × ℕ × Fin 5 => x.2.2) h
  rcases t with (k | k) | (j | j) <;> rcases t' with (k' | k') | (j' | j')
  all_goals first
    | exact congrArg (fun k : Fin 5 => ((c, Sum.inl (Sum.inl k)) : Dev nD × TK)) hd
    | exact congrArg (fun k : Fin 5 => ((c, Sum.inl (Sum.inr k)) : Dev nD × TK)) hd
    | exact congrArg (fun j : Fin 15 => ((c, Sum.inr (Sum.inl j)) : Dev nD × TK)) (send_inj (SemLoc.dma.inj hs))
    | exact congrArg (fun j : Fin 15 => ((c, Sum.inr (Sum.inr j)) : Dev nD × TK)) (recv_inj (SemLoc.dma.inj hs))
    | exact absurd (SemLoc.reg.inj hs) barS_ne_exitS
    | exact absurd (SemLoc.reg.inj hs).symm barS_ne_exitS
    | exact absurd (SemLoc.dma.inj hs) (send_ne_recv _ _)
    | exact absurd (SemLoc.dma.inj hs).symm (send_ne_recv _ _)
    | cases hs
def allToks : Finset (GSem nD τ sig × ℕ × Fin 5) := Finset.univ.map ⟨tokOf, tokOf_injective⟩

def u₀ : UU :=
  (initOf (Pipeline.cells cfgs cellOf_inj) (Pipeline.launchToks cfgs cellOf_inj), initOf cells allToks)

/-- The duty tokens of device `c`'s own cells. -/
def toks (c : Dev nD) : sProp 𝕄 :=
  iprop(((bigSep Finset.univ fun k : Fin 5 => dutyTok ER (barCell c) 0 k) ∗ (bigSep Finset.univ fun k : Fin 5 => dutyTok ER (exitCell c) 0 k))
    ∗ ((bigSep Finset.univ fun j : Fin 15 => dutyTok ER (sendCell c j) 0 (0 : Fin 5)) ∗ (bigSep Finset.univ fun j : Fin 15 => dutyTok ER (recvCell c j) 0 (0 : Fin 5))))

/-- What the launch element deals device `c`. -/
def G (c : Dev nD) : sProp 𝕄 :=
  iprop((bigSep Finset.univ fun k : KX => roundState ER (sched m) (kcell (c, k)) 0)
    ∗ (bigSep Finset.univ fun k : KX => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf cells allToks)) ⊢ (|==> bigSep Finset.univ (G m) : sProp 𝕄) := by
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum, bigSep_univ_sum]; rfl
  iintro HX
  imod (Rounds.fund ER (sched m) cells allToks) $$ HX with ⟨Hst, Hr, Hat, Htok⟩
  imodintro
  ihave Hst' := (Entails.of_eq (bigSep_cells fun g => roundState ER (sched m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the exit, send and receive counters at zero; -/
theorem ownSems0_eq (c : Dev nD) : (Pipeline.ownSems0 (Ix := Unit) (Name := ℕ) (U := UU) (Lvl := ℕ) (Val := Elt F) (τ := τ) osem c : sProp 𝕄) = ownZero c := by
  unfold Pipeline.ownSems0 ownZero
  rw [bigSep_univ_sum, bigSep_univ_sum, bigSep_univ_of_subsingleton ()]
  rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Device `c`'s exchange counters at zero: the unscoped one and the own ones. -/
theorem sems0_eq (c : Dev nD) :
    (bigSep Finset.univ fun k : KX => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_of_subsingleton ()]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KX => iprop(∃ κ : ℕ, cellInv ER (sched m) κ (kcell (c, k))))
          ∗ (bigSep Finset.univ fun k : KX => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KX => semVal (kcell (c, k)) 0) ∗ bigSep Finset.univ fun k : KX => roundState ER (sched m) (kcell (c, k)) 0)
      ⊢ (|={Set.univ}=> bigSep Finset.univ fun k : KX => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over (device, duty) re-dealt along one permutation of the devices per duty. -/
theorem deal {J : Type} [Fintype J] (f : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (f j c) j :=
  (bigSep_univ_comm Φ).trans ((bigSep_congr fun j _ => bigSep_univ_equiv (f j) (fun c => Φ c j)).trans
    (bigSep_univ_comm (fun c j => Φ (f j c) j)).symm)

omit [FloatOps F] in
/-- The tokens dealt to their payers: duty `k` of a barrier or exit cell across bit `k`, a receive cell's duty to the
    partner of its exchange; a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun k : Fin 5 => peerEquiv k) (fun c k => (dutyTok ER (barCell c) 0 k : sProp 𝕄)),
    deal (fun k : Fin 5 => peerEquiv k) (fun c k => (dutyTok ER (exitCell c) 0 k : sProp 𝕄)),
    deal (fun j : Fin 15 => peerEquiv (stepK j)) (fun c j => (dutyTok ER (recvCell c j) 0 (0 : Fin 5) : sProp 𝕄))]
  iintro ⟨⟨H1, H2⟩, H3, H4⟩
  isplitl [H1]; · iexact H1
  isplitl [H2]; · iexact H2
  isplitl [H4]; · iexact H4
  iexact H3

omit [FloatOps F] in
theorem positions_eq (c : Dev nD) : (bigSep Finset.univ fun k : KX => (atPos ER (kcell (c, k)) 0 ∅ 0 : sProp 𝕄)) = positions c := by
  unfold positions; rw [bigSep_KX]

theorem ghost_intro (K : GSem nD τ sig → ℕ) (c : Dev nD) : iprop(records m K ∗ (positions c ∗ payToks c)) ⊢ G' m c := by
  unfold G' ghost
  iintro ⟨#HR, Hp, Ht⟩
  iexists K
  isplitr; · iexact HR
  isplitl [Hp] <;> iassumption

theorem regroup :
    (bigSep Finset.univ fun c : Dev nD => iprop((bigSep Finset.univ fun k : KX => iprop(∃ κ : ℕ, cellInv ER (sched m) κ (kcell (c, k))))
          ∗ (bigSep Finset.univ fun k : KX => iprop(atPos ER (kcell (c, k)) 0 ∅ 0 ∗ reached ER (kcell (c, k)) 0)) ∗ toks c) : sProp 𝕄)
      ⊢ bigSep Finset.univ (G' m) := by
  rw [bigSep_sep', bigSep_sep', ← bigSep_cells (fun g => iprop(∃ κ : ℕ, cellInv ER (sched m) κ g)),
    bigSep_congr (s := Finset.univ) (fun (c : Dev nD) _ => bigSep_sep' Finset.univ (fun k : KX => (atPos ER (kcell (c, k)) 0 ∅ 0 : sProp 𝕄)) (fun k => reached ER (kcell (c, k)) 0)),
    bigSep_sep', ← bigSep_cells (fun g => (reached ER g 0 : sProp 𝕄))]
  iintro ⟨HI, ⟨Hat, #HR⟩, Htok⟩
  ihave HK := (BI.bigSep_exists_pi cells (fun (g : GSem nD τ sig) (κ : ℕ) => (cellInv ER (sched m) κ g : sProp 𝕄))) $$ HI
  icases HK with ⟨%K, #HI⟩
  ihave Htk := (toks_around (F := F)) $$ Htok
  iapply (BI.bigSep_with_persistent (R := records m K) (Φ := fun c : Dev nD => iprop(positions c ∗ payToks c)) fun c _ => ghost_intro m K c)
  isplitr
  · unfold records; isplitl; · iexact HI
    iexact HR
  · iapply ((Entails.of_eq (bigSep_sep' Finset.univ (fun c : Dev nD => bigSep Finset.univ fun k : KX => (atPos ER (kcell (c, k)) 0 ∅ 0 : sProp 𝕄)) payToks).symm).trans
      (bigSep_mono fun c _ => show iprop((bigSep Finset.univ fun k : KX => (atPos ER (kcell (c, k)) 0 ∅ 0 : sProp 𝕄)) ∗ payToks c) ⊢ iprop(positions c ∗ payToks c) from
        Entails.of_eq (by rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.Bits.LaunchCredit.lean ====
/-
  The launch of the exchange, second part: the credit each device is dealt at launch, and the pipeline's own waits.

  Device `d` owes, at launch, one unit to the barrier cell of each partner `peer k d`, a copy's units to receive cell `j` of
  `partner j d`, and one unit to the exit cell of each `peer k d`. Since `peer k` is an involution, what all devices
  together owe device `c`'s barrier cell is one unit per bit: five; likewise its exit cell; and its receive cell `j` one copy.
-/
import proofs.«900382_g7700000000000383_dist_mlpseq_tp1d_rep_rep_b64_d512_h1024_v7x_i32_bf16_1_alg».proof.Proof.Bits.Ghost
import Mathlib.Algebra.BigOperators.Intervals

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A sum over `n` consecutive numbers from `a`, by offset. -/
theorem sum_Ico_fin {M : Type} [AddCommMonoid M] (f : ℕ → M) (a n : ℕ) : ∑ e ∈ Finset.Ico a (a + n), f e = ∑ j : Fin n, f (a + j.val) := by
  rw [Finset.sum_Ico_eq_sum_range, Nat.add_sub_cancel_left, Finset.sum_range]

/-- What device `d` owes at launch, by kind of payment: its barrier signals, its copies, its exit signals. -/
theorem owed_split (d : Dev nD) :
    owedFrom 0 d = ((∑ k : Fin 5, tallyAt (barCell (peer k d)) () 1) + ∑ j : Fin 15, tallyAt (recvCell (partner j d) j) () N)
      + ∑ k : Fin 5, tallyAt (exitCell (peer k d)) () 1 := by
  unfold owedFrom
  rw [← Finset.sum_Ico_consecutive _ (show 0 ≤ 20 by omega) (show 20 ≤ 25 by omega),
    ← Finset.sum_Ico_consecutive _ (show 0 ≤ 5 by omega) (show 5 ≤ 20 by omega)]
  have e0 := sum_Ico_fin (fun e => (tallyAt (payCell d e) () (payAmt e) : CellTallies nD τ sig Unit)) 0 5
  have e1 := sum_Ico_fin (fun e => (tallyAt (payCell d e) () (payAmt e) : CellTallies nD τ sig Unit)) 5 15
  have e2 := sum_Ico_fin (fun e => (tallyAt (payCell d e) () (payAmt e) : CellTallies nD τ sig Unit)) 20 5
  refine congrArg₂ (· + ·) (congrArg₂ (· + ·) (e0.trans ?_) (e1.trans ?_)) (e2.trans ?_)
  · exact Finset.sum_congr rfl fun k _ => by
      show tallyAt (payCell d (0 + k.val)) () (payAmt (0 + k.val)) = _
      rw [Nat.zero_add, payCell_bar, payAmt_bar]
  · exact Finset.sum_congr rfl fun j _ => by
      show tallyAt (payCell d (5 + j.val)) () (payAmt (5 + j.val)) = _
      rw [payCell_copy, payAmt_copy]
  · exact Finset.sum_congr rfl fun k _ => by
      show tallyAt (payCell d (20 + k.val)) () (payAmt (20 + k.val)) = _
      rw [payCell_exit, payAmt_exit]

omit [FloatOps F] in
/-- Five one-unit credits on a cell are its five units. -/
theorem five_units (g : GSem nD τ sig) : (bigSep Finset.univ fun _ : Fin 5 => (cred (tallyAt g () 1) : sProp 𝕄)) ⊢ cred (tallyAt g () 5) := by
  rw [← Pipeline.cred_finsetSum, Fin.sum_univ_five, tallyAt_add, tallyAt_add, tallyAt_add, tallyAt_add]

omit [FloatOps F] in
/-- The launch credit of device `c`: one unit on its barrier cell from each partner, a copy on each receive cell from that
    exchange's partner, one unit on its exit cell from each partner. -/
theorem creds_intro (c : Dev nD) : (Pipeline.launchCred (owedFrom 0) c : sProp 𝕄) ⊢ creds c := by
  have e : (owedFrom 0 : Dev nD → CellTallies nD τ sig Unit)
      = fun d => ((∑ k : Fin 5, tallyAt (barCell (peer k d)) () 1) + ∑ j : Fin 15, tallyAt (recvCell (partner j d) j) () N)
        + ∑ k : Fin 5, tallyAt (exitCell (peer k d)) () 1 := funext owed_split
  have hB : (bigSep Finset.univ fun k : Fin 5 => Pipeline.launchCred (fun d => tallyAt (barCell (peer k d)) () 1) c : sProp 𝕄)
      ⊢ bigSep Finset.univ fun _ : Fin 5 => cred (tallyAt (barCell c) () 1) :=
    bigSep_mono fun k _ => Pipeline.launchCred_tallyAt (.reg barS) (peer k) (peer k) (peer_peer k) (peer_peer k) () 1 c
  have hE : (bigSep Finset.univ fun k : Fin 5 => Pipeline.launchCred (fun d => tallyAt (exitCell (peer k d)) () 1) c : sProp 𝕄)
      ⊢ bigSep Finset.univ fun _ : Fin 5 => cred (tallyAt (exitCell c) () 1) :=
    bigSep_mono fun k _ => Pipeline.launchCred_tallyAt (.reg exitS) (peer k) (peer k) (peer_peer k) (peer_peer k) () 1 c
  have hR : (bigSep Finset.univ fun j : Fin 15 => Pipeline.launchCred (fun d => tallyAt (recvCell (partner j d) j) () N) c : sProp 𝕄)
      ⊢ bigSep Finset.univ fun j : Fin 15 => cred (tallyAt (recvCell c j) () N) :=
    bigSep_mono fun j _ => Pipeline.launchCred_tallyAt (.dma (recvS j)) (partner j) (partner j) (partner_partner j) (partner_partner j) () N c
  rw [e,
    Pipeline.launchCred_add (fun d => (∑ k : Fin 5, tallyAt (barCell (peer k d)) () 1) + ∑ j : Fin 15, tallyAt (recvCell (partner j d) j) () N)
      (fun d => ∑ k : Fin 5, tallyAt (exitCell (peer k d)) () 1) c,
    Pipeline.launchCred_add (fun d => ∑ k : Fin 5, tallyAt (barCell (peer k d)) () 1) (fun d => ∑ j : Fin 15, tallyAt (recvCell (partner j d) j) () N) c,
    Pipeline.launchCred_sum Finset.univ (fun (k : Fin 5) d => (tallyAt (barCell (peer k d)) () 1 : CellTallies nD τ sig Unit)) c,
    Pipeline.launchCred_sum Finset.univ (fun (j : Fin 15) d => (tallyAt (recvCell (partner j d) j) () N : CellTallies nD τ sig Unit)) c,
    Pipeline.launchCred_sum Finset.univ (fun (k : Fin 5) d => (tallyAt (exitCell (peer k d)) () 1 : CellTallies nD τ sig Unit)) c]
  unfold creds
  iintro ⟨⟨HB, HR⟩, HE⟩
  isplitl [HB]
  · iapply (five_units (F := F) (barCell c)); iapply hB; iexact HB
  isplitl [HE]
  · iapply (five_units (F := F) (exitCell c)); iapply hE; iexact HE
  iapply hR; iexact HR

/-- A staging semaphore may be waited on while owing everything, or nothing: every payment goes to a cell above level 0. -/
theorem mayWait_stage (c : Dev nD) (q : DmaSem sig) (hq : q.val < 8) (O : CellTallies nD τ sig Unit) (hO : O = owedFrom 0 c ∨ O = 0) :
    (levAts L lv : sProp 𝕄) ⊢ MayWait (c : Thread nD τ) (.dma q) () O := by
  rcases hO with rfl | rfl
  · refine mayWait_from c 0 (.dma q) fun e _ he => ?_
    have h0 : lvS (.dma q) = 0 := by
      show (if 23 ≤ q.val then q.val - 23 + 2 else 0) = 0
      rw [if_neg (by omega)]
    rw [h0, lv_payCell c e he]
    split_ifs <;> omega
  · rw [MayWait_zero]; iintro -; iempintro

end Cert.Kernel.Proto

end
-- ==== Proof.Bits.Launch.lean ====
/-
  The launch of the exchange, last part: the launch theorem's side conditions and the run of the whole program.
-/
import proofs.«900382_g7700000000000383_dist_mlpseq_tp1d_rep_rep_b64_d512_h1024_v7x_i32_bf16_1_alg».proof.Proof.Bits.LaunchAlloc
import proofs.«900382_g7700000000000383_dist_mlpseq_tp1d_rep_rep_b64_d512_h1024_v7x_i32_bf16_1_alg».proof.Proof.Bits.LaunchCredit
import proofs.«900382_g7700000000000383_dist_mlpseq_tp1d_rep_rep_b64_d512_h1024_v7x_i32_bf16_1_alg».proof.Proof.Gen.Kernel.Points

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedFrom 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Ha⟩, ⟨%g, Hr⟩⟩
  isplitl [Hs]; · iexact Hs
  isplitl [Ha]
  · iexists f; rw [accPts_eq]; iexact Ha
  · iexists g; unfold rcvPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Ha⟩, ⟨%g, Hr⟩, Hz⟩
  isplitr; · iempintro
  isplitl [Hz]; · iexact Hz
  isplitl [Ha]
  · iexists f; rw [← accPts_eq]; iexact Ha
  · iexists g; unfold rcvPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given the body
    obligation on every device, every weakly fair execution of the program terminates, and every final state has each
    device's arrays at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := owedFrom 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_in (c : Dev nD) (w : Fin cfg0.W) (hw : w.val < 7) :
    finalA m ρ c w = (s₀ m ρ).mem ((cfg0.win w).arr.view.loc (c : Thread nD τ)) :=
  (dats (F := F) m ρ 0 c).arrAt_in w (by fin_cases w <;> first | rfl | exact absurd hw (by decide)) _

/-- The output array after the run is the body's result block: its one block is the whole array, written back at the one point. -/
theorem finalA_out (c : Dev nD) : finalA m ρ c (7 : Fin 8) = outAt m c := by
  have h := (dats (F := F) m ρ 0 c).arrAt_succ (7 : Fin 8) t0_0
  rw [if_pos (flush0_7 t0_0)] at h
  refine (show finalA m ρ c (7 : Fin 8) = (dats m ρ 0 c).arrAt (7 : Fin 8) (t0_0.val + 1) from rfl).trans (h.trans ?_)
  exact Memref.write_access_unit_zero_univ (Elt F) main_v1 (funext fun a => Nat.zero_mul _) _ _ _

end Cert.Kernel.Proto

end
-- ==== Proof.Bits.Run.lean ====
/-
  The kernel's run with every device's result named: from any memory with every counter at zero, every weakly fair
  execution of the thirty-two devices' programs terminates without a fault, each device's result array holding the
  all-reduced three-layer value of the devices' argument blocks, each argument array what it held.
-/
import proofs.«900382_g7700000000000383_dist_mlpseq_tp1d_rep_rep_b64_d512_h1024_v7x_i32_bf16_1_alg».proof.Proof.Bits.Body
import proofs.«900382_g7700000000000383_dist_mlpseq_tp1d_rep_rep_b64_d512_h1024_v7x_i32_bf16_1_alg».proof.Proof.Bits.Launch

noncomputable section

namespace Cert.Kernel.Proto

open Cert.Kernel Cert.Kernel.Gen Cert.Kernel.Spec
open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxRecDepth 8000 in
theorem kernel_run :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := F)) _ _).mono (fun r h c =>
    ⟨(h c (7 : Fin 8)).trans (finalA_out m ρ c),
     (h c (0 : Fin 8)).trans (finalA_in m ρ c (0 : Fin 8) (by decide)),
     (h c (1 : Fin 8)).trans (finalA_in m ρ c (1 : Fin 8) (by decide)),
     (h c (2 : Fin 8)).trans (finalA_in m ρ c (2 : Fin 8) (by decide)),
     (h c (3 : Fin 8)).trans (finalA_in m ρ c (3 : Fin 8) (by decide)),
     (h c (4 : Fin 8)).trans (finalA_in m ρ c (4 : Fin 8) (by decide)),
     (h c (5 : Fin 8)).trans (finalA_in m ρ c (5 : Fin 8) (by decide)),
     (h c (6 : Fin 8)).trans (finalA_in m ρ c (6 : Fin 8) (by decide))⟩)
    (run_main m ρ (body_obligation m ρ))

end Cert.Kernel.Proto

end
-- ==== Proof.ValueIdealSum.lean ====
/-
  The butterfly all-reduce as a fact about sums in a commutative monoid, and the sum over the blocks of a cut axis.

  Thirty-two values `f 0 … f 31`, one per device. At step `k = 0 … 4` every device adds to what it holds what the device
  whose index differs from its own in bit `k` holds. After `k` steps device `c` holds the sum of `f` over the `2^k` devices
  that agree with `c` above bit `k` (the devices `d` with `d / 2^k = c / 2^k`): the two halves of such a group at level
  `k + 1` are the groups of `c` and of its partner at level `k`, and they are disjoint. After five steps the group is
  everything. Only associativity and commutativity of `+` are used.

  The second fact: a sum over `32 · n` consecutive indices is the sum over the 32 blocks of the sums inside each block.
-/
import Mathlib.Algebra.BigOperators.Fin
import Mathlib.Algebra.BigOperators.Group.Finset.Basic
import Mathlib.Data.Fintype.BigOperators
import Mathlib.Logic.Equiv.Fin.Basic

open scoped BigOperators

namespace Cert.ValueIdeal

/-- The device whose index differs from `c`'s in bit `k` exactly. -/
def flip (k : Fin 5) (c : Fin 32) : Fin 32 := ⟨(c.val ^^^ 2 ^ k.val) % 32, Nat.mod_lt _ (by decide)⟩

/-- The devices that agree with `c` above bit `k`. -/
def group (k : ℕ) (c : Fin 32) : Finset (Fin 32) := Finset.univ.filter fun d => d.val / 2 ^ k = c.val / 2 ^ k

theorem group_zero : ∀ c : Fin 32, group 0 c = {c} := by decide +kernel

theorem group_five : ∀ c : Fin 32, group 5 c = Finset.univ := by decide +kernel

theorem group_succ : ∀ (k : Fin 5) (c : Fin 32), group (k.val + 1) c = group k.val c ∪ group k.val (flip k c) := by
  decide +kernel

theorem group_disjoint : ∀ (k : Fin 5) (c : Fin 32), Disjoint (group k.val c) (group k.val (flip k c)) := by
  decide +kernel

section Butterfly

variable {M : Type*} [AddCommMonoid M]

/-- What the devices hold after `k` exchange steps, from what they held before the first. -/
def butterfly (f : Fin 32 → M) : ℕ → Fin 32 → M
  | 0 => f
  | k + 1 => fun c => if h : k < 5 then butterfly f k c + butterfly f k (flip ⟨k, h⟩ c) else butterfly f k c

theorem butterfly_eq_sum_group (f : Fin 32 → M) :
    ∀ k : ℕ, k ≤ 5 → ∀ c : Fin 32, butterfly f k c = ∑ d ∈ group k c, f d
  | 0, _, c => by
    rw [group_zero c, Finset.sum_singleton]
    rfl
  | k + 1, hk, c => by
    have h : k < 5 := hk
    show (if h : k < 5 then butterfly f k c + butterfly f k (flip ⟨k, h⟩ c) else butterfly f k c) = _
    rw [dif_pos h, butterfly_eq_sum_group f k (Nat.le_of_lt h) c, butterfly_eq_sum_group f k (Nat.le_of_lt h) (flip ⟨k, h⟩ c),
      group_succ ⟨k, h⟩ c, Finset.sum_union (group_disjoint ⟨k, h⟩ c)]

/-- After the five steps every device holds the sum over all thirty-two. -/
theorem butterfly_five (f : Fin 32 → M) (c : Fin 32) : butterfly f 5 c = ∑ d, f d := by
  rw [butterfly_eq_sum_group f 5 (Nat.le_refl 5) c, group_five c]

/-- A sum over `32 · n` indices, block by block. -/
theorem sum_blocks (n : ℕ) (g : Fin (32 * n) → M) :
    ∑ c : Fin 32, ∑ r : Fin n, g ⟨c.val * n + r.val, by
        calc c.val * n + r.val < c.val * n + n := Nat.add_lt_add_left r.isLt _
          _ = (c.val + 1) * n := (Nat.succ_mul _ _).symm
          _ ≤ 32 * n := Nat.mul_le_mul_right _ c.isLt⟩ = ∑ K : Fin (32 * n), g K := by
  rw [← Fintype.sum_prod_type', ← Equiv.sum_comp finProdFinEquiv g]
  refine Finset.sum_congr rfl fun p _ => congrArg g (Fin.ext ?_)
  show p.1.val * n + p.2.val = p.2.val + n * p.1.val
  rw [Nat.mul_comm, Nat.add_comm]

end Butterfly

end Cert.ValueIdeal
-- ==== Proof.ValueIdealPart.lean ====
/-
  One device's partial product of a layer, read at an index at the ideal instance.

  At the ideal instance a change of float format and a cast to the same shape are the identity, and a matrix product into
  a zero accumulator is the plain sum over the contracted index. So each of the three layers' partial products, whatever
  order its casts and roundings were printed in, is at row `i` and column `j`
      ∑ k' < 1024, max (∑ k < 512, inp (i, k) · w (k, k')) 0 · v (k', j).
-/
import proofs.«900382_g7700000000000383_dist_mlpseq_tp1d_rep_rep_b64_d512_h1024_v7x_i32_bf16_1_alg».proof.Proof.Spec
import Idealize.ShloMosaic.Lib.Pipeline.Value
import Idealize.ShloMosaic.Lib.ValueIdx
import Idealize.ShloMosaic.PureOps.Ideal.Laws

noncomputable section

open scoped BigOperators

namespace Cert.ValueIdeal

open Idealize.ShloMosaic Idealize.ShloMosaic.ValueIdx Idealize.SL.Sem Cert.KernelIdeal Cert.KernelIdeal.Gen

/-- `relu (inp · w) · v` at row `i`, column `j`. -/
def partAt (inp : S64x512.Idx → EReal) (w : S512x1024.Idx → EReal) (v : S1024x512.Idx → EReal) (i : Fin 64) (j : Fin 512) : EReal :=
  ∑ k' : Fin 1024, max (∑ k : Fin 512, inp (ix2 i k) * w (ix2 k k')) 0 * v (ix2 k' j)

theorem dotA_lhs0 (j : S64x1024.Idx) (q : dot_S64x512_S512x1024_S64x1024_1_0_0_1_n_n.contr.Idx) :
    (dot_S64x512_S512x1024_S64x1024_1_0_0_1_n_n.lhsIdx j q 0).val = (j 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem dotA_rhs1 (j : S64x1024.Idx) (q : dot_S64x512_S512x1024_S64x1024_1_0_0_1_n_n.contr.Idx) :
    (dot_S64x512_S512x1024_S64x1024_1_0_0_1_n_n.rhsIdx j q 1).val = (j 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

/-- The first product of a layer at `(i, k')`: the sum over the 512 contracted columns. -/
theorem dotA_apply (l : FVec Ideal S64x512 .bf16) (r : FVec Ideal S512x1024 .bf16) (i : Fin 64) (k' : Fin 1024) :
    matmul dot_S64x512_S512x1024_S64x1024_1_0_0_1_n_n none l r (constant S64x1024 .f32 0x00000000#32) (ix2 i k')
      = ∑ k : Fin 512, l (ix2 i k) * r (ix2 k k') := by
  refine (Ideal.matmul_constant_zero_apply dot_S64x512_S512x1024_S64x1024_1_0_0_1_n_n none l r (ix2 i k')).trans ?_
  rw [← Equiv.sum_comp (contrEquiv1 dot_S64x512_S512x1024_S64x1024_1_0_0_1_n_n 512 rfl rfl).symm]
  refine Finset.sum_congr rfl fun k _ => ?_
  have hk := contrEquiv1_symm_val dot_S64x512_S512x1024_S64x1024_1_0_0_1_n_n 512 rfl rfl k
  have el : dot_S64x512_S512x1024_S64x1024_1_0_0_1_n_n.lhsIdx (ix2 i k') ((contrEquiv1 dot_S64x512_S512x1024_S64x1024_1_0_0_1_n_n 512 rfl rfl).symm k) = ix2 i k := funext fun a => Fin.ext (by
    match a with
    | ⟨0, _⟩ => exact dotA_lhs0 _ _
    | ⟨1, _⟩ => exact (dot_S64x512_S512x1024_S64x1024_1_0_0_1_n_n.lhsIdx_val_of_single rfl _ _).trans hk)
  have er : dot_S64x512_S512x1024_S64x1024_1_0_0_1_n_n.rhsIdx (ix2 i k') ((contrEquiv1 dot_S64x512_S512x1024_S64x1024_1_0_0_1_n_n 512 rfl rfl).symm k) = ix2 k k' := funext fun a => Fin.ext (by
    match a with
    | ⟨0, _⟩ => exact (dot_S64x512_S512x1024_S64x1024_1_0_0_1_n_n.rhsIdx_val_of_single rfl _ _).trans hk
    | ⟨1, _⟩ => exact dotA_rhs1 _ _)
  rw [el, er]

theorem dotB_lhs0 (j : S64x512.Idx) (q : dot_S64x1024_S1024x512_S64x512_1_0_0_1_n_n.contr.Idx) :
    (dot_S64x1024_S1024x512_S64x512_1_0_0_1_n_n.lhsIdx j q 0).val = (j 0).val := by
  unfold DotDims.lhsIdx
  rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
  rfl
theorem dotB_rhs1 (j : S64x512.Idx) (q : dot_S64x1024_S1024x512_S64x512_1_0_0_1_n_n.contr.Idx) :
    (dot_S64x1024_S1024x512_S64x512_1_0_0_1_n_n.rhsIdx j q 1).val = (j 1).val := by
  unfold DotDims.rhsIdx
  rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
  rfl

/-- The second product of a layer at `(i, j)`: the sum over the 1024 contracted columns. -/
theorem dotB_apply (l : FVec Ideal S64x1024 .bf16) (r : FVec Ideal S1024x512 .bf16) (i : Fin 64) (j : Fin 512) :
    matmul dot_S64x1024_S1024x512_S64x512_1_0_0_1_n_n none l r (constant S64x512 .f32 0x00000000#32) (ix2 i j)
      = ∑ k' : Fin 1024, l (ix2 i k') * r (ix2 k' j) := by
  refine (Ideal.matmul_constant_zero_apply dot_S64x1024_S1024x512_S64x512_1_0_0_1_n_n none l r (ix2 i j)).trans ?_
  rw [← Equiv.sum_comp (contrEquiv1 dot_S64x1024_S1024x512_S64x512_1_0_0_1_n_n 1024 rfl rfl).symm]
  refine Finset.sum_congr rfl fun k _ => ?_
  have hk := contrEquiv1_symm_val dot_S64x1024_S1024x512_S64x512_1_0_0_1_n_n 1024 rfl rfl k
  have el : dot_S64x1024_S1024x512_S64x512_1_0_0_1_n_n.lhsIdx (ix2 i j) ((contrEquiv1 dot_S64x1024_S1024x512_S64x512_1_0_0_1_n_n 1024 rfl rfl).symm k) = ix2 i k := funext fun a => Fin.ext (by
    match a with
    | ⟨0, _⟩ => exact dotB_lhs0 _ _
    | ⟨1, _⟩ => exact (dot_S64x1024_S1024x512_S64x512_1_0_0_1_n_n.lhsIdx_val_of_single rfl _ _).trans hk)
  have er : dot_S64x1024_S1024x512_S64x512_1_0_0_1_n_n.rhsIdx (ix2 i j) ((contrEquiv1 dot_S64x1024_S1024x512_S64x512_1_0_0_1_n_n 1024 rfl rfl).symm k) = ix2 k j := funext fun a => Fin.ext (by
    match a with
    | ⟨0, _⟩ => exact (dot_S64x1024_S1024x512_S64x512_1_0_0_1_n_n.rhsIdx_val_of_single rfl _ _).trans hk
    | ⟨1, _⟩ => exact dotB_rhs1 _ _)
  rw [el, er]

/-- The first layer's partial product. -/
theorem part0_apply (inp : Vec Ideal S64x512 .f32) (w : Vec Ideal S512x1024 .f32) (v : Vec Ideal S1024x512 .f32) (i : Fin 64) (j : Fin 512) :
    k0_pay3 (F := Ideal) (k0_pay1 inp) (k0_pay2 w) v (ix2 i j) = partAt inp w v i j := by
  unfold k0_pay3 k0_pay1 k0_pay2
  dsimp only
  rw [shapeCast_self, shapeCast_self, shapeCast_self, shapeCast_self, dotB_apply]
  unfold partAt
  refine Finset.sum_congr rfl fun k' _ => ?_
  rw [truncf_apply, truncf_apply, maximumf_apply, dotA_apply, broadcast_apply, Ideal.ofBits_def, Ideal.ofBits_zero_f32]
  rfl

/-- The second layer's partial product. -/
theorem part1_apply (inp : Vec Ideal S64x512 .f32) (w : Vec Ideal S512x1024 .f32) (v : Vec Ideal S1024x512 .f32) (i : Fin 64) (j : Fin 512) :
    k0_pay10 (F := Ideal) (k0_pay9 inp w) v (ix2 i j) = partAt inp w v i j := by
  unfold k0_pay10 k0_pay9
  dsimp only
  rw [shapeCast_self, shapeCast_self, shapeCast_self, dotB_apply]
  unfold partAt
  refine Finset.sum_congr rfl fun k' _ => ?_
  rw [truncf_apply, truncf_apply, maximumf_apply, dotA_apply, broadcast_apply, Ideal.ofBits_def, Ideal.ofBits_zero_f32]
  rfl

/-- The third layer's partial product. -/
theorem part2_apply (inp : Vec Ideal S64x512 .f32) (w : Vec Ideal S512x1024 .f32) (v : Vec Ideal S1024x512 .f32) (i : Fin 64) (j : Fin 512) :
    k0_pay18 (F := Ideal) (k0_pay16 inp w) k0_pay17 v (ix2 i j) = partAt inp w v i j := by
  unfold k0_pay18 k0_pay16 k0_pay17
  dsimp only
  rw [shapeCast_self, shapeCast_self, shapeCast_self, dotB_apply]
  unfold partAt
  refine Finset.sum_congr rfl fun k' _ => ?_
  rw [truncf_apply, truncf_apply, maximumf_apply, dotA_apply, broadcast_apply, Ideal.ofBits_def, Ideal.ofBits_zero_f32]
  rfl

/-- Every layer's partial product on device `c`, from the layer's input there and the device's two blocks. -/
theorem part_apply (win : Fin 3 → Dev nD → Vec Ideal S512x1024 .f32) (wout : Fin 3 → Dev nD → Vec Ideal S1024x512 .f32)
    (l : Fin 3) (inp : Vec Ideal S64x512 .f32) (c : Dev nD) (i : Fin 64) (j : Fin 512) :
    Spec.part win wout l inp c (ix2 i j) = partAt inp (win l c) (wout l c) i j :=
  match l with
  | ⟨0, _⟩ => part0_apply inp (win 0 c) (wout 0 c) i j
  | ⟨1, _⟩ => part1_apply inp (win 1 c) (wout 1 c) i j
  | ⟨2, _⟩ => part2_apply inp (win 2 c) (wout 2 c) i j
  | ⟨n + 3, h⟩ => absurd h (by omega)

/-- One exchange step adds the received block to the accumulator, element by element. -/
theorem addStep_up (a b : Vec Ideal S64x512 .f32) : Spec.addStep a (Spec.up b) = fun idx => (show EReal from a idx) + (show EReal from b idx) := by
  funext idx
  obtain ⟨i, j, rfl⟩ : ∃ (i : Fin 64) (j : Fin 512), idx = ix2 i j := ⟨idx 0, idx 1, eq_ix2 idx⟩
  unfold Spec.addStep k0_pay4
  dsimp only
  rw [shapeCast_self, addf_apply]
  refine congrArg (fun t : EReal => (show EReal from a (ix2 i j)) + t) ?_
  refine (shapeCast_apply (Spec.up b) shapeCasts_S1x1x64x512_S64x512 (ix2 i j) (ix4 (0 : Fin 1) (0 : Fin 1) i j) ?_).trans ?_
  · rw [Shape.rowMajor_val_four, Shape.rowMajor_val_two]
    show ((0 * 1 + 0) * 64 + i.val) * 512 + j.val = i.val * 512 + j.val
    omega
  · unfold Spec.up
    exact congrArg b (funext fun a => Fin.ext (by match a with | ⟨0, _⟩ => rfl | ⟨1, _⟩ => rfl))

end Cert.ValueIdeal

end
-- ==== Proof.ValueIdealRef.lean ====
/-
  One layer of the reference, read at an index at the ideal instance.

  The reference computes a layer as a product with the whole first weight (contracting 512 columns), a maximum with
  zero, and a product with the whole second weight (contracting all 32768 columns). Its three layers are the same
  function of (input, first weight, second weight), applied three times, each to the previous one's result. At row `i`
  and column `j` that function is
      ∑ K < 32768, max (∑ k < 512, inp (i, k) · A (k, K)) 0 · B (K, j).
-/
import proofs.«900382_g7700000000000383_dist_mlpseq_tp1d_rep_rep_b64_d512_h1024_v7x_i32_bf16_1_alg».proof.Proof.Gen.ReferenceIdeal.Read

noncomputable section

open scoped BigOperators

namespace Cert.ValueIdeal

open Idealize.ShloMosaic Idealize.ShloMosaic.ValueIdx Idealize.SL.Sem Cert.ReferenceIdeal Cert.ReferenceIdeal.Gen

/-- One layer of the reference as a function of its input and its two whole weights. -/
abbrev refLayer (inp : (⟨S64x512, .f32⟩ : BufTy).Contents (Elt Ideal)) (A : (⟨S512x32768, .f32⟩ : BufTy).Contents (Elt Ideal))
    (B : (⟨S32768x512, .f32⟩ : BufTy).Contents (Elt Ideal)) : (⟨S64x512, .f32⟩ : BufTy).Contents (Elt Ideal) :=
  Cert.ReferenceIdeal.Read.val_main_v3 (F := Ideal) inp A B

/-- The reference's result is its layer function applied three times. -/
theorem ref_eq_three_layers (a0 : (⟨S64x512, .f32⟩ : BufTy).Contents (Elt Ideal))
    (a1 : (⟨S512x32768, .f32⟩ : BufTy).Contents (Elt Ideal)) (a2 : (⟨S32768x512, .f32⟩ : BufTy).Contents (Elt Ideal))
    (a3 : (⟨S512x32768, .f32⟩ : BufTy).Contents (Elt Ideal)) (a4 : (⟨S32768x512, .f32⟩ : BufTy).Contents (Elt Ideal))
    (a5 : (⟨S512x32768, .f32⟩ : BufTy).Contents (Elt Ideal)) (a6 : (⟨S32768x512, .f32⟩ : BufTy).Contents (Elt Ideal)) :
    Cert.ReferenceIdeal.Read.val_main_v11 (F := Ideal) a0 a1 a2 a3 a4 a5 a6
      = refLayer (refLayer (refLayer a0 a1 a2) a3 a4) a5 a6 := rfl

/-- A layer of the reference at row `i`, column `j`. -/
theorem refLayer_apply (inp : (⟨S64x512, .f32⟩ : BufTy).Contents (Elt Ideal)) (A : (⟨S512x32768, .f32⟩ : BufTy).Contents (Elt Ideal))
    (B : (⟨S32768x512, .f32⟩ : BufTy).Contents (Elt Ideal)) (i : Fin 64) (j : Fin 512) :
    refLayer inp A B (ix2 i j)
      = ∑ K : Fin 32768, max (∑ k : Fin 512, (show EReal from inp (ix2 i k)) * (show EReal from A (ix2 k K))) 0 * (show EReal from B (ix2 K j)) := by
  have e3l : ∀ K : Fin 32768, Read.lidx_main_v3 (ix2 i j) K = ix2 i K := fun K =>
    funext fun a => Fin.ext (by match a with | ⟨0, _⟩ => rfl | ⟨1, _⟩ => rfl)
  have e3r : ∀ K : Fin 32768, Read.ridx_main_v3 (ix2 i j) K = ix2 K j := fun K =>
    funext fun a => Fin.ext (by match a with | ⟨0, _⟩ => rfl | ⟨1, _⟩ => rfl)
  have e0l : ∀ (K : Fin 32768) (k : Fin 512), Read.lidx_main_v0 (ix2 i K) k = ix2 i k := fun K k =>
    funext fun a => Fin.ext (by match a with | ⟨0, _⟩ => rfl | ⟨1, _⟩ => rfl)
  have e0r : ∀ (K : Fin 32768) (k : Fin 512), Read.ridx_main_v0 (ix2 i K) k = ix2 k K := fun K k =>
    funext fun a => Fin.ext (by match a with | ⟨0, _⟩ => rfl | ⟨1, _⟩ => rfl)
  unfold refLayer
  rw [Read.val_main_v3_apply]
  refine Finset.sum_congr rfl fun K _ => ?_
  rw [e3l, e3r, Read.val_main_v2_apply, Read.val_main_v0_apply, Read.val_main_v1_apply, Read.val_main_cst_apply,
    Ideal.maximumf_def, Ideal.ofBits_def, Ideal.ofBits_zero_f32]
  simp only [e0l, e0r]

end Cert.ValueIdeal

end
-- ==== Proof.ValueIdeal.lean ====
/-
  The value of the butterfly-reduced three-layer network on every device is the reference's.

  A layer: device `c` forms `relu (inp · W₁[:, block c]) · W₂[block c, :]` from its column block of the first weight and
  its row block of the second; five exchange steps leave on every device the sum of the thirty-two partial products
  (the butterfly, a fact about sums in a commutative monoid). At row `i` and column `j` that sum is
      ∑ c < 32, ∑ k' < 1024, max (∑ k, inp (i, k) · W₁ (k, 1024 c + k')) 0 · W₂ (1024 c + k', j),
  which, block by block, is the sum over all 32768 columns: the reference's layer. Every device therefore enters the
  next layer with the same input, the reference's, and after three layers holds the reference's result.
  Only associativity and commutativity of the sum are used: nothing is distributed, so nothing needs to be finite.
-/
import proofs.«900382_g7700000000000383_dist_mlpseq_tp1d_rep_rep_b64_d512_h1024_v7x_i32_bf16_1_alg».proof.Proof.ValueIdealSum
import proofs.«900382_g7700000000000383_dist_mlpseq_tp1d_rep_rep_b64_d512_h1024_v7x_i32_bf16_1_alg».proof.Proof.ValueIdealPart
import proofs.«900382_g7700000000000383_dist_mlpseq_tp1d_rep_rep_b64_d512_h1024_v7x_i32_bf16_1_alg».proof.Proof.ValueIdealRef
import Idealize.ShloMosaic.Lib.Layout

noncomputable section

open scoped BigOperators

namespace Cert.ValueIdeal

open Idealize.ShloMosaic Idealize.ShloMosaic.ValueIdx Idealize.SL.Sem Cert.KernelIdeal Cert.KernelIdeal.Gen

/-- The exchange steps of the specification are the butterfly on whole blocks, added element by element. -/
theorem fold_eq_butterfly (p : Dev nD → Vec Ideal S64x512 .f32) :
    ∀ (k : ℕ) (c : Dev nD), Spec.fold p k c = butterfly (M := S64x512.Idx → EReal) p k c
  | 0, c => rfl
  | k + 1, c => by
    show (if h : k < 5 then Spec.addStep (Spec.fold p k c) (Spec.up (Spec.fold p k (Spec.peer ⟨k, h⟩ c))) else Spec.fold p k c)
      = (if h : k < 5 then butterfly (M := S64x512.Idx → EReal) p k c + butterfly (M := S64x512.Idx → EReal) p k (flip ⟨k, h⟩ c)
          else butterfly (M := S64x512.Idx → EReal) p k c)
    by_cases h : k < 5
    · rw [dif_pos h, dif_pos h, addStep_up, fold_eq_butterfly p k c, fold_eq_butterfly p k (Spec.peer ⟨k, h⟩ c)]
      rfl
    · rw [dif_neg h, dif_neg h]
      exact fold_eq_butterfly p k c

/-- After the five steps every device holds, at every index, the sum over the thirty-two devices. -/
theorem fold_five_apply (p : Dev nD → Vec Ideal S64x512 .f32) (c : Dev nD) (idx : S64x512.Idx) :
    Spec.fold p 5 c idx = ∑ d : Fin 32, (show EReal from p d idx) := by
  rw [fold_eq_butterfly, butterfly_five (M := S64x512.Idx → EReal) p c, Finset.sum_apply]

theorem blk_lt (c : Fin 32) (r : Fin 1024) : c.val * 1024 + r.val < 32768 := by omega

/-- A sum over the 32768 columns, block of 1024 by block. -/
theorem sum_blocks_1024 {M : Type*} [AddCommMonoid M] (g : Fin 32768 → M) :
    ∑ c : Fin 32, ∑ r : Fin 1024, g ⟨c.val * 1024 + r.val, blk_lt c r⟩ = ∑ K : Fin 32768, g K :=
  sum_blocks 1024 g

/-- Device `c`'s column block of a first weight: column `k'` of the block is column `1024 c + k'` of the whole. -/
theorem block_cols (A : (⟨2, ![512, 32768]⟩ : Shape).Idx → EReal) (c : Fin 32) (k : Fin 512) (k' : Fin 1024) :
    (Layout.block ⟨2, ![512, 1024]⟩ ⟨2, ![512, 32768]⟩ 1 32 c A) (ix2 k k') = A (ix2 k ⟨c.val * 1024 + k'.val, blk_lt c k'⟩) := by
  rw [Layout.block_apply]
  refine congrArg A (funext fun a => Fin.ext ?_)
  match a with
  | ⟨0, _⟩ => rfl
  | ⟨1, _⟩ => rfl

/-- Device `c`'s row block of a second weight: row `k'` of the block is row `1024 c + k'` of the whole. -/
theorem block_rows (B : (⟨2, ![32768, 512]⟩ : Shape).Idx → EReal) (c : Fin 32) (k' : Fin 1024) (j : Fin 512) :
    (Layout.block ⟨2, ![1024, 512]⟩ ⟨2, ![32768, 512]⟩ 0 32 c B) (ix2 k' j) = B (ix2 ⟨c.val * 1024 + k'.val, blk_lt c k'⟩ j) := by
  rw [Layout.block_apply]
  refine congrArg B (funext fun a => Fin.ext ?_)
  match a with
  | ⟨0, _⟩ => rfl
  | ⟨1, _⟩ => rfl

section Layers

variable (x : Dev nD → Vec Ideal S64x512 .f32) (win : Fin 3 → Dev nD → Vec Ideal S512x1024 .f32)
  (wout : Fin 3 → Dev nD → Vec Ideal S1024x512 .f32)

/-- One layer: from the same input on every device, the butterfly-reduced partial products are the reference's layer. -/
theorem layer_eq (l : Fin 3) (inp : Vec Ideal S64x512 .f32)
    (A : (⟨Cert.ReferenceIdeal.S512x32768, .f32⟩ : BufTy).Contents (Elt Ideal))
    (B : (⟨Cert.ReferenceIdeal.S32768x512, .f32⟩ : BufTy).Contents (Elt Ideal))
    (hw : ∀ c, win l c = Layout.block ⟨2, ![512, 1024]⟩ ⟨2, ![512, 32768]⟩ 1 32 c A)
    (hv : ∀ c, wout l c = Layout.block ⟨2, ![1024, 512]⟩ ⟨2, ![32768, 512]⟩ 0 32 c B) (c : Dev nD) :
    Spec.fold (fun d => Spec.part win wout l inp d) 5 c = refLayer inp A B := by
  funext idx
  obtain ⟨i, j, rfl⟩ : ∃ (i : Fin 64) (j : Fin 512), idx = ix2 i j := ⟨idx 0, idx 1, eq_ix2 idx⟩
  rw [fold_five_apply, refLayer_apply]
  refine Eq.trans ?_ (sum_blocks_1024 fun K : Fin 32768 =>
    max (∑ k : Fin 512, (show EReal from inp (ix2 i k)) * (show EReal from A (ix2 k K))) 0 * (show EReal from B (ix2 K j)))
  refine Finset.sum_congr rfl fun d _ => ?_
  show Spec.part win wout l inp d (ix2 i j) = _
  rw [part_apply, hw d, hv d]
  unfold partAt
  refine Finset.sum_congr rfl fun k' _ => ?_
  rw [block_rows]
  simp only [block_cols]

/-- A layer's accumulators after the five steps, when every device entered the layer with the same input. -/
theorem acc_five (l : Fin 3) (L : Vec Ideal S64x512 .f32) (hL : ∀ d, Spec.layerIn x win wout l.val d = L)
    (A : (⟨Cert.ReferenceIdeal.S512x32768, .f32⟩ : BufTy).Contents (Elt Ideal))
    (B : (⟨Cert.ReferenceIdeal.S32768x512, .f32⟩ : BufTy).Contents (Elt Ideal))
    (hw : ∀ c, win l c = Layout.block ⟨2, ![512, 1024]⟩ ⟨2, ![512, 32768]⟩ 1 32 c A)
    (hv : ∀ c, wout l c = Layout.block ⟨2, ![1024, 512]⟩ ⟨2, ![32768, 512]⟩ 0 32 c B) (c : Dev nD) :
    Spec.acc x win wout l 5 c = refLayer L A B := by
  unfold Spec.acc
  rw [show (fun d => Spec.part win wout l (Spec.layerIn x win wout l.val d) d) = fun d => Spec.part win wout l L d from
    funext fun d => by rw [hL d]]
  exact layer_eq win wout l L A B hw hv c

variable (a0 : (⟨Cert.ReferenceIdeal.S64x512, .f32⟩ : BufTy).Contents (Elt Ideal))
  (a1 : (⟨Cert.ReferenceIdeal.S512x32768, .f32⟩ : BufTy).Contents (Elt Ideal))
  (a2 : (⟨Cert.ReferenceIdeal.S32768x512, .f32⟩ : BufTy).Contents (Elt Ideal))
  (a3 : (⟨Cert.ReferenceIdeal.S512x32768, .f32⟩ : BufTy).Contents (Elt Ideal))
  (a4 : (⟨Cert.ReferenceIdeal.S32768x512, .f32⟩ : BufTy).Contents (Elt Ideal))
  (a5 : (⟨Cert.ReferenceIdeal.S512x32768, .f32⟩ : BufTy).Contents (Elt Ideal))
  (a6 : (⟨Cert.ReferenceIdeal.S32768x512, .f32⟩ : BufTy).Contents (Elt Ideal))

/-- The result on every device is the reference's last stage of the whole arrays. -/
theorem result_eq_val (hx : ∀ c, x c = a0)
    (hw0 : ∀ c, win 0 c = Layout.block ⟨2, ![512, 1024]⟩ ⟨2, ![512, 32768]⟩ 1 32 c a1)
    (hv0 : ∀ c, wout 0 c = Layout.block ⟨2, ![1024, 512]⟩ ⟨2, ![32768, 512]⟩ 0 32 c a2)
    (hw1 : ∀ c, win 1 c = Layout.block ⟨2, ![512, 1024]⟩ ⟨2, ![512, 32768]⟩ 1 32 c a3)
    (hv1 : ∀ c, wout 1 c = Layout.block ⟨2, ![1024, 512]⟩ ⟨2, ![32768, 512]⟩ 0 32 c a4)
    (hw2 : ∀ c, win 2 c = Layout.block ⟨2, ![512, 1024]⟩ ⟨2, ![512, 32768]⟩ 1 32 c a5)
    (hv2 : ∀ c, wout 2 c = Layout.block ⟨2, ![1024, 512]⟩ ⟨2, ![32768, 512]⟩ 0 32 c a6) (c : Dev nD) :
    Spec.result x win wout c = Cert.ReferenceIdeal.Read.val_main_v11 (F := Ideal) a0 a1 a2 a3 a4 a5 a6 := by
  have h1 : ∀ d, Spec.layerIn x win wout ((1 : Fin 3).val) d = refLayer a0 a1 a2 := fun d =>
    (Spec.layerIn_succ x win wout 0 d).trans (acc_five x win wout 0 a0 hx a1 a2 hw0 hv0 d)
  have h2 : ∀ d, Spec.layerIn x win wout ((2 : Fin 3).val) d = refLayer (refLayer a0 a1 a2) a3 a4 := fun d =>
    (Spec.layerIn_succ x win wout 1 d).trans (acc_five x win wout 1 _ h1 a3 a4 hw1 hv1 d)
  exact (acc_five x win wout 2 _ h2 a5 a6 hw2 hv2 c).trans (ref_eq_three_layers a0 a1 a2 a3 a4 a5 a6).symm

/-- The result on every device is the term the reference's run names for its result buffer. -/
theorem result_eq_reference (hx : ∀ c, x c = a0)
    (hw0 : ∀ c, win 0 c = Layout.block ⟨2, ![512, 1024]⟩ ⟨2, ![512, 32768]⟩ 1 32 c a1)
    (hv0 : ∀ c, wout 0 c = Layout.block ⟨2, ![1024, 512]⟩ ⟨2, ![32768, 512]⟩ 0 32 c a2)
    (hw1 : ∀ c, win 1 c = Layout.block ⟨2, ![512, 1024]⟩ ⟨2, ![512, 32768]⟩ 1 32 c a3)
    (hv1 : ∀ c, wout 1 c = Layout.block ⟨2, ![1024, 512]⟩ ⟨2, ![32768, 512]⟩ 0 32 c a4)
    (hw2 : ∀ c, win 2 c = Layout.block ⟨2, ![512, 1024]⟩ ⟨2, ![512, 32768]⟩ 1 32 c a5)
    (hv2 : ∀ c, wout 2 c = Layout.block ⟨2, ![1024, 512]⟩ ⟨2, ![32768, 512]⟩ 0 32 c a6) :
    ∀ c : Dev nD, Spec.result x win wout c =
      Host.dotGeneral (F := Ideal) (φ₁ := .f32) (φ₂ := .f32) Cert.ReferenceIdeal.dot_S64x32768_S32768x512_S64x512_1_0_0_1_n_n none (maximumf (Host.dotGeneral (F := Ideal) (φ₁ := .f32) (φ₂ := .f32) Cert.ReferenceIdeal.dot_S64x512_S512x32768_S64x32768_1_0_0_1_n_n none (Host.dotGeneral (F := Ideal) (φ₁ := .f32) (φ₂ := .f32) Cert.ReferenceIdeal.dot_S64x32768_S32768x512_S64x512_1_0_0_1_n_n none (maximumf (Host.dotGeneral (F := Ideal) (φ₁ := .f32) (φ₂ := .f32) Cert.ReferenceIdeal.dot_S64x512_S512x32768_S64x32768_1_0_0_1_n_n none (Host.dotGeneral (F := Ideal) (φ₁ := .f32) (φ₂ := .f32) Cert.ReferenceIdeal.dot_S64x32768_S32768x512_S64x512_1_0_0_1_n_n none (maximumf (Host.dotGeneral (F := Ideal) (φ₁ := .f32) (φ₂ := .f32) Cert.ReferenceIdeal.dot_S64x512_S512x32768_S64x32768_1_0_0_1_n_n none a0 a1) (broadcastInDim Cert.ReferenceIdeal.S64x32768 ![] Cert.ReferenceIdeal.Gen.bcast_S_S64x32768 (constant (F := Ideal) Cert.ReferenceIdeal.S_ .f32 0x00000000#32))) a2) a3) (broadcastInDim Cert.ReferenceIdeal.S64x32768 ![] Cert.ReferenceIdeal.Gen.bcast_S_S64x32768 (constant (F := Ideal) Cert.ReferenceIdeal.S_ .f32 0x00000000#32))) a4) a5) (broadcastInDim Cert.ReferenceIdeal.S64x32768 ![] Cert.ReferenceIdeal.Gen.bcast_S_S64x32768 (constant (F := Ideal) Cert.ReferenceIdeal.S_ .f32 0x00000000#32))) a6 :=
  fun c => (result_eq_val x win wout a0 a1 a2 a3 a4 a5 a6 hx hw0 hv0 hw1 hv1 hw2 hv2 c).trans
    (Cert.ReferenceIdeal.Read.val_main_v11_eq (F := Ideal) a0 a1 a2 a3 a4 a5 a6).symm

end Layers

end Cert.ValueIdeal

end
-- ==== Proof.Assemble.lean ====
/-
  The certificate's claims about the idealized kernel and the reference, from one statement of the kernel's run.

  The kernel's run is taken as a hypothesis in its strongest form: on every device the result buffer ends holding the
  specification's result of that device's argument blocks, and the seven argument buffers end unchanged. Dropping the
  result gives the kernel's frame. For the comparison with the reference: each argument window's one block is its whole
  buffer, so a device's blocks are its argument buffers themselves; the agreement of the two memories says these are the
  reference's first array and block `c` of each of its six weights; and the value theorem then says the specification's
  result is the reference's last stage of its own arrays, which is what the reference's run leaves in its result buffer.
  No finiteness is used, so the precondition is not.
-/
import proofs.«900382_g7700000000000383_dist_mlpseq_tp1d_rep_rep_b64_d512_h1024_v7x_i32_bf16_1_alg».proof.Defs
import proofs.«900382_g7700000000000383_dist_mlpseq_tp1d_rep_rep_b64_d512_h1024_v7x_i32_bf16_1_alg».proof.Proof.Cells
import proofs.«900382_g7700000000000383_dist_mlpseq_tp1d_rep_rep_b64_d512_h1024_v7x_i32_bf16_1_alg».proof.Proof.ValueIdeal
import proofs.«900382_g7700000000000383_dist_mlpseq_tp1d_rep_rep_b64_d512_h1024_v7x_i32_bf16_1_alg».proof.Proof.Gen.KernelIdeal
import proofs.«900382_g7700000000000383_dist_mlpseq_tp1d_rep_rep_b64_d512_h1024_v7x_i32_bf16_1_alg».proof.Proof.Gen.ReferenceIdeal
import proofs.«900382_g7700000000000383_dist_mlpseq_tp1d_rep_rep_b64_d512_h1024_v7x_i32_bf16_1_alg».proof.Proof.Gen.ReferenceIdeal.Run
import proofs.«900382_g7700000000000383_dist_mlpseq_tp1d_rep_rep_b64_d512_h1024_v7x_i32_bf16_1_alg».proof.Proof.Gen.Pre_finite_inputs_Kernel
import proofs.«900382_g7700000000000383_dist_mlpseq_tp1d_rep_rep_b64_d512_h1024_v7x_i32_bf16_1_alg».proof.Proof.Gen.Pre_finite_inputs_ReferenceIdeal

noncomputable section

namespace Cert.Assemble

open Idealize.ShloMosaic Idealize.SL.Sem

/-- The kernel's run with every buffer named: the result is the specification's, the arguments are unchanged. -/
abbrev KernelRun : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdeal.Proto.outAt m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

/-- The reference runs and leaves its arguments as they were: its run with the result dropped. -/
theorem frame_ReferenceIdeal : Cert.frame_ReferenceIdeal :=
  fun m ρ _ => (θ_run Cert.ReferenceIdeal.defs _ _).mono (fun _ h c => (h c).2) (Cert.ReferenceIdeal.Value.run (F := Ideal) m ρ)

/-- The idealized kernel runs and leaves its arguments as they were: its run with the result dropped. -/
theorem frame_KernelIdeal_of (hrun : KernelRun) : Cert.frame_KernelIdeal :=
  fun m g _ => (θ_run (Cert.KernelIdeal.defs (F := Ideal)) _ _).mono (fun _ h c => (h c).2) (hrun m g)

section Blocks

open Cert.KernelIdeal Cert.KernelIdeal.Gen Idealize.ShloMosaic.TcCoe

variable (m : (ℓ : Loc nD τ sig) → Buf (Elt Ideal) ℓ)

/-- The input window's one block is the whole input buffer. -/
theorem xs_eq (c : Dev nD) : Proto.xs m c = m ((c : Thread nD τ).loc main_arg0) := by
  have hz : (fun a => (win0_0.index (0 : Fin 1)) a * main_arg0.ty.shape.size a) = fun _ => 0 :=
    funext fun a => by fin_cases a <;> decide
  unfold Proto.xs
  exact Memref.read_access_unit_zero (Elt Ideal) main_arg0 hz (fun a => by fin_cases a <;> decide) _

/-- Each weight window's one block is the whole of the device's weight buffer. -/
theorem wins0_eq (c : Dev nD) : Proto.wins m 0 c = m ((c : Thread nD τ).loc main_arg1) := by
  have hz : (fun a => (win0_1.index (0 : Fin 1)) a * main_arg1.ty.shape.size a) = fun _ => 0 :=
    funext fun a => by fin_cases a <;> decide
  show (win0_1.blk (0 : Fin 1)).view.read (Elt Ideal) (m ((c : Thread nD τ).loc main_arg1)) = _
  exact Memref.read_access_unit_zero (Elt Ideal) main_arg1 hz (fun a => by fin_cases a <;> decide) _

theorem wins1_eq (c : Dev nD) : Proto.wins m 1 c = m ((c : Thread nD τ).loc main_arg3) := by
  have hz : (fun a => (win0_3.index (0 : Fin 1)) a * main_arg3.ty.shape.size a) = fun _ => 0 :=
    funext fun a => by fin_cases a <;> decide
  show (win0_3.blk (0 : Fin 1)).view.read (Elt Ideal) (m ((c : Thread nD τ).loc main_arg3)) = _
  exact Memref.read_access_unit_zero (Elt Ideal) main_arg3 hz (fun a => by fin_cases a <;> decide) _

theorem wins2_eq (c : Dev nD) : Proto.wins m 2 c = m ((c : Thread nD τ).loc main_arg5) := by
  have hz : (fun a => (win0_5.index (0 : Fin 1)) a * main_arg5.ty.shape.size a) = fun _ => 0 :=
    funext fun a => by fin_cases a <;> decide
  show (win0_5.blk (0 : Fin 1)).view.read (Elt Ideal) (m ((c : Thread nD τ).loc main_arg5)) = _
  exact Memref.read_access_unit_zero (Elt Ideal) main_arg5 hz (fun a => by fin_cases a <;> decide) _

theorem wouts0_eq (c : Dev nD) : Proto.wouts m 0 c = m ((c : Thread nD τ).loc main_arg2) := by
  have hz : (fun a => (win0_2.index (0 : Fin 1)) a * main_arg2.ty.shape.size a) = fun _ => 0 :=
    funext fun a => by fin_cases a <;> decide
  show (win0_2.blk (0 : Fin 1)).view.read (Elt Ideal) (m ((c : Thread nD τ).loc main_arg2)) = _
  exact Memref.read_access_unit_zero (Elt Ideal) main_arg2 hz (fun a => by fin_cases a <;> decide) _

theorem wouts1_eq (c : Dev nD) : Proto.wouts m 1 c = m ((c : Thread nD τ).loc main_arg4) := by
  have hz : (fun a => (win0_4.index (0 : Fin 1)) a * main_arg4.ty.shape.size a) = fun _ => 0 :=
    funext fun a => by fin_cases a <;> decide
  show (win0_4.blk (0 : Fin 1)).view.read (Elt Ideal) (m ((c : Thread nD τ).loc main_arg4)) = _
  exact Memref.read_access_unit_zero (Elt Ideal) main_arg4 hz (fun a => by fin_cases a <;> decide) _

theorem wouts2_eq (c : Dev nD) : Proto.wouts m 2 c = m ((c : Thread nD τ).loc main_arg6) := by
  have hz : (fun a => (win0_6.index (0 : Fin 1)) a * main_arg6.ty.shape.size a) = fun _ => 0 :=
    funext fun a => by fin_cases a <;> decide
  show (win0_6.blk (0 : Fin 1)).view.read (Elt Ideal) (m ((c : Thread nD τ).loc main_arg6)) = _
  exact Memref.read_access_unit_zero (Elt Ideal) main_arg6 hz (fun a => by fin_cases a <;> decide) _

end Blocks

/-- The two idealized programs, from memories that agree on the arguments, end with equal results. -/
theorem algebraic_of (hrun : KernelRun) : Cert.algebraic_KernelIdeal_ReferenceIdeal := by
  intro m g m' g' _ hagree
  refine ⟨_, (θ_run (Cert.KernelIdeal.defs (F := Ideal)) _ _).mono (fun _ h c => ⟨(h c).1.trans ?_, (h c).2⟩) (hrun m g),
    (θ_run (Cert.ReferenceIdeal.defs (F := Ideal)) _ _).mono (fun _ h => h 0) (Cert.ReferenceIdeal.Value.run (F := Ideal) m' g')⟩
  exact Cert.ValueIdeal.result_eq_reference (Cert.KernelIdeal.Proto.xs m) (Cert.KernelIdeal.Proto.wins m) (Cert.KernelIdeal.Proto.wouts m)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6))
    (fun d => (xs_eq m d).trans (hagree d).1)
    (fun d => (wins0_eq m d).trans (hagree d).2.1)
    (fun d => (wouts0_eq m d).trans (hagree d).2.2.1)
    (fun d => (wins1_eq m d).trans (hagree d).2.2.2.1)
    (fun d => (wouts1_eq m d).trans (hagree d).2.2.2.2.1)
    (fun d => (wins2_eq m d).trans (hagree d).2.2.2.2.2.1)
    (fun d => (wouts2_eq m d).trans (hagree d).2.2.2.2.2.2) c

end Cert.Assemble

end
-- ==== Proof.lean ====
/-
  Thirty-two devices each hold the input and, per layer, a column block of the first weight and a row block of the second.
  A layer's output is the sum over the devices of `relu (x · W_in block) · W_out block`, formed by a butterfly: at step `k`
  every device sends its running sum to the device whose index differs in bit `k` and adds what it receives, so that after
  five steps every device holds the sum over all thirty-two. The reference computes `relu (x · W_in) · W_out` on the whole
  arrays; contracting over the 32768 hidden units block by block is the same sum, the extended reals being a commutative
  monoid under addition (no finiteness is used). Three layers, each feeding the next.

  The frames: each device signals its five partners' barrier, waits for theirs, and then per exchange copies its running sum
  into a slot of the partner's receive buffer that is written once, waits until the copy has left and until its own slot has
  been filled, and only then reads the slot and overwrites the running sum; a closing handshake on a semaphore of the
  kernel's own ends it. Waits are ordered by level (barrier, then the exchanges in program order, then the exit), so no
  device waits on a cell while owing a cell at or below it: every fair run ends, nothing faults, the arguments are untouched.
  The run is proved once for any float instance with the result named; the frames are that run with the result dropped, at
  the word-level instance and at the ideal one, and the value claim is its ideal instance joined to the reference's run.
-/
import proofs.«900382_g7700000000000383_dist_mlpseq_tp1d_rep_rep_b64_d512_h1024_v7x_i32_bf16_1_alg».proof.Defs
import proofs.«900382_g7700000000000383_dist_mlpseq_tp1d_rep_rep_b64_d512_h1024_v7x_i32_bf16_1_alg».proof.Proof.Gen.Kernel
import proofs.«900382_g7700000000000383_dist_mlpseq_tp1d_rep_rep_b64_d512_h1024_v7x_i32_bf16_1_alg».proof.Proof.Gen.KernelIdeal
import proofs.«900382_g7700000000000383_dist_mlpseq_tp1d_rep_rep_b64_d512_h1024_v7x_i32_bf16_1_alg».proof.Proof.Gen.ReferenceIdeal
import proofs.«900382_g7700000000000383_dist_mlpseq_tp1d_rep_rep_b64_d512_h1024_v7x_i32_bf16_1_alg».proof.Proof.Gen.Pre_finite_inputs_Kernel
import proofs.«900382_g7700000000000383_dist_mlpseq_tp1d_rep_rep_b64_d512_h1024_v7x_i32_bf16_1_alg».proof.Proof.Gen.Pre_finite_inputs_ReferenceIdeal
import proofs.«900382_g7700000000000383_dist_mlpseq_tp1d_rep_rep_b64_d512_h1024_v7x_i32_bf16_1_alg».proof.Proof.Run
import proofs.«900382_g7700000000000383_dist_mlpseq_tp1d_rep_rep_b64_d512_h1024_v7x_i32_bf16_1_alg».proof.Proof.Bits.Run
import proofs.«900382_g7700000000000383_dist_mlpseq_tp1d_rep_rep_b64_d512_h1024_v7x_i32_bf16_1_alg».proof.Proof.Assemble
import Idealize.ShloMosaic.Adequacy
import Idealize.ShloMosaic.Init

noncomputable section

namespace Cert.Proof

open Idealize.ShloMosaic Idealize.SL.Sem

/-- The word-level kernel's frame: its run with the result dropped. -/
theorem frame_kernel : Cert.frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).2) (Cert.Kernel.Proto.kernel_run (F := Bits) m g)

/-- The idealized kernel's run, every device's result named. -/
theorem ideal_run : Cert.Assemble.KernelRun := fun m g => Cert.KernelIdeal.Proto.kernel_run (F := Ideal) m g

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, Cert.Assemble.frame_KernelIdeal_of ideal_run, Cert.Assemble.frame_ReferenceIdeal, trivial, Cert.Assemble.algebraic_of ideal_run⟩

end Cert.Proof

end
